-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S64x64 : Shape := ⟨2, ![64, 64]⟩
abbrev S64 : Shape := ⟨1, ![64]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x64x64x64 .f32) (main_arg1 : FVec F S64x64 .f32) (main_arg2 : FVec F S64 .f32) (main_arg3 : FVec F S64 .f32) (main_arg4 : FVec F S64x64 .f32) (main_arg5 : FVec F S64 .f32) (main_arg6 : FVec F S64 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16x64x64x64 : Shape := ⟨4, ![16, 64, 64, 64]⟩
abbrev S64x64 : Shape := ⟨2, ![64, 64]⟩
abbrev S64 : Shape := ⟨1, ![64]⟩
abbrev S65536x64 : Shape := ⟨2, ![65536, 64]⟩
abbrev S1x64 : Shape := ⟨2, ![1, 64]⟩
abbrev S512x64 : Shape := ⟨2, ![512, 64]⟩
abbrev S512x64x1 : Shape := ⟨3, ![512, 64, 1]⟩
abbrev S1x64x64 : Shape := ⟨3, ![1, 64, 64]⟩
abbrev S512x64x64 : Shape := ⟨3, ![512, 64, 64]⟩
abbrev S_ : Shape := ⟨0, ![]⟩

abbrev nBuf : Space → Nat
  | .hbm => 46
  | .vmem => 28
  | .smem => 0
  | _ => 0

abbrev bufTy : (tb : Table) → Fin (tcTables nBuf tb) → BufTy
  | .hbm, ⟨0, _⟩ => ⟨S16x64x64x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S16x64x64x64, .f32⟩
  | .hbm, ⟨8, _⟩ => ⟨S65536x64, .f32⟩
  | .hbm, ⟨9, _⟩ => ⟨S64x64, .f32⟩
  | .hbm, ⟨10, _⟩ => ⟨S64x64, .f32⟩
  | .hbm, ⟨11, _⟩ => ⟨S65536x64, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S_, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S65536x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S65536x64, .f32⟩
  | .hbm, ⟨44, _⟩ => ⟨S16x64x64x64, .f32⟩
  | .hbm, ⟨45, _⟩ => ⟨S16x64x64x64, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S512x64, .f32⟩
  | .local _ .vmem, ⟨4, _⟩ => ⟨S512x64, .f32⟩
  | .local _ .vmem, ⟨5, _⟩ => ⟨S1x64, .f32⟩
  | .local _ .vmem, ⟨6, _⟩ => ⟨S1x64, .f32⟩
  | .local _ .vmem, ⟨7, _⟩ => ⟨S512x64, .f32⟩
  | .local _ .vmem, ⟨8, _⟩ => ⟨S512x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S512x64, .f32⟩
  | .local _ .vmem, ⟨15, _⟩ => ⟨S512x64, .f32⟩
  | .local _ .vmem, ⟨16, _⟩ => ⟨S1x64, .f32⟩
  | .local _ .vmem, ⟨17, _⟩ => ⟨S1x64, .f32⟩
  | .local _ .vmem, ⟨18, _⟩ => ⟨S512x64, .f32⟩
  | .local _ .vmem, ⟨19, _⟩ => ⟨S512x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S16x64x64x64_S16x64x64x64_0_2_3_1 : S16x64x64x64.Transposes [0, 2, 3, 1] S16x64x64x64
  shapeCasts_S16x64x64x64_S65536x64 : S16x64x64x64.ShapeCasts S65536x64
  transposes_S64x64_S64x64_1_0 : S64x64.Transposes [1, 0] S64x64
  inb_S1x64_S1x64_0_0 : ∀ a, (![0, 0] : Fin 2 → Nat) a + S1x64.size a ≤ S1x64.size a
  h_S1x64 : 0 < S1x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S512x64_S512x64x1 : S512x64.ShapeCasts S512x64x1
  shapeCasts_S64x64_S1x64x64 : S64x64.ShapeCasts S1x64x64
  broadcasts_S512x64x1_S512x64x64 : S512x64x1.Broadcasts S512x64x64
  broadcasts_S1x64x64_S512x64x64 : S1x64x64.Broadcasts S512x64x64
  reduces_S512x64x64_S512x64 : S512x64x64.Reduces [1] S512x64
  shapeCasts_S1x64_S1x64 : S1x64.ShapeCasts S1x64
  reduces_S512x64_S64 : S512x64.Reduces [0] S64
  shapeCasts_S64_S1x64 : S64.ShapeCasts S1x64
  bcast_S_S1x64 : S_.BroadcastsInDim S1x64 (![] : Fin 0 → Fin S1x64.rank)
  broadcasts_S1x64_S512x64 : S1x64.Broadcasts S512x64
  shapeCasts_S65536x64_S16x64x64x64 : S65536x64.ShapeCasts S16x64x64x64
  transposes_S16x64x64x64_S16x64x64x64_0_3_1_2 : S16x64x64x64.Transposes [0, 3, 1, 2] S16x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S65536x64.size a
  hwx0_2 : ∀ i : grid0.Coords, EltTy.bits .f32 = 32 ∨ (Rect.block (s := S65536x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S65536x64.size a
  hwx1_0 : ∀ i : grid1.Coords, EltTy.bits .f32 = 32 ∨ (Rect.block (s := S65536x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S65536x64.size a
  hwx1_6 : ∀ i : grid1.Coords, EltTy.bits .f32 = 32 ∨ (Rect.block (s := S65536x64) S512x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S65536x64.size a
  hwx2_0 : ∀ i : grid2.Coords, EltTy.bits .f32 = 32 ∨ (Rect.block (s := S65536x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x64.size a ≤ S65536x64.size a
  hwx2_5 : ∀ i : grid2.Coords, EltTy.bits .f32 = 32 ∨ (Rect.block (s := S65536x64) S512x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S65536x64.size a
  hwx2_6 : ∀ i : grid2.Coords, EltTy.bits .f32 = 32 ∨ (Rect.block (s := S65536x64) S512x64.size (cc2_transform_6 i) (hinb2_6 i)).WholeWords (EltTy.packing .f32)

variable [Facts₀]

abbrev win0_0 : Pipeline.Window sig grid0 :=
  Pipeline.Window.ofSpec (Memref.whole main_v1) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S512x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S1x64.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15_2) S1x64.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v15_0) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S512x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v26) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16x64x64x64 : Shape := ⟨4, ![16, 64, 64, 64]⟩
abbrev S64x64 : Shape := ⟨2, ![64, 64]⟩
abbrev S64 : Shape := ⟨1, ![64]⟩
abbrev S16x64x64x1x64 : Shape := ⟨5, ![16, 64, 64, 1, 64]⟩
abbrev S1x1x1x64x64 : Shape := ⟨5, ![1, 1, 1, 64, 64]⟩
abbrev S16x64x64x64x64 : Shape := ⟨5, ![16, 64, 64, 64, 64]⟩
abbrev S_ : Shape := ⟨0, ![]⟩
abbrev S1x64x1x1 : Shape := ⟨4, ![1, 64, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S16x64x64x64, .f32⟩
  | .hbm, ⟨8, _⟩ => ⟨S16x64x64x1x64, .f32⟩
  | .hbm, ⟨9, _⟩ => ⟨S1x1x1x64x64, .f32⟩
  | .hbm, ⟨10, _⟩ => ⟨S16x64x64x64x64, .f32⟩
  | .hbm, ⟨11, _⟩ => ⟨S16x64x64x64x64, .f32⟩
  | .hbm, ⟨12, _⟩ => ⟨S16x64x64x64x64, .f32⟩
  | .hbm, ⟨13, _⟩ => ⟨S16x64x64x64x64, .f32⟩
  | .hbm, ⟨14, _⟩ => ⟨S_, .f32⟩
  | .hbm, ⟨15, _⟩ => ⟨S16x64x64x64, .f32⟩
  | .hbm, ⟨16, _⟩ => ⟨S16x64x64x64, .f32⟩
  | .hbm, ⟨17, _⟩ => ⟨S16x64x64x64, .f32⟩
  | .hbm, ⟨18, _⟩ => ⟨S_, .f32⟩
  | .hbm, ⟨19, _⟩ => ⟨S64, .f32⟩
  | .hbm, ⟨20, _⟩ => ⟨S1x64x1x1, .f32⟩
  | .hbm, ⟨21, _⟩ => ⟨S_, .f32⟩
  | .hbm, ⟨22, _⟩ => ⟨S1x64x1x1, .f32⟩
  | .hbm, ⟨23, _⟩ => ⟨S1x64x1x1, .f32⟩
  | .hbm, ⟨24, _⟩ => ⟨S_, .i32⟩
  | .hbm, ⟨25, _⟩ => ⟨S_, .f32⟩
  | .hbm, ⟨26, _⟩ => ⟨S64, .f32⟩
  | .hbm, ⟨27, _⟩ => ⟨S1x64x1x1, .f32⟩
  | .hbm, ⟨28, _⟩ => ⟨S_, .f32⟩
  | .hbm, ⟨29, _⟩ => ⟨S1x64x1x1, .f32⟩
  | .hbm, ⟨30, _⟩ => ⟨S1x64x1x1, .f32⟩
  | .hbm, ⟨31, _⟩ => ⟨S16x64x64x64, .f32⟩
  | .hbm, ⟨32, _⟩ => ⟨S16x64x64x64, .f32⟩
  | .hbm, ⟨33, _⟩ => ⟨S16x64x64x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S1x64x1x1, .f32⟩
  | .hbm, ⟨40, _⟩ => ⟨S1x64x1x1, .f32⟩
  | .hbm, ⟨41, _⟩ => ⟨S1x64x1x1, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S1x64x1x1, .f32⟩
  | .hbm, ⟨47, _⟩ => ⟨S1x64x1x1, .f32⟩
  | .hbm, ⟨48, _⟩ => ⟨S16x64x64x64, .f32⟩
  | .hbm, ⟨49, _⟩ => ⟨S16x64x64x64, .f32⟩
  | .hbm, ⟨50, _⟩ => ⟨S_, .f32⟩
  | .hbm, ⟨51, _⟩ => ⟨S1x64x1x1, .f32⟩
  | .hbm, ⟨52, _⟩ => ⟨S1x64x1x1, .f32⟩
  | .hbm, ⟨53, _⟩ => ⟨S1x64x1x1, .f32⟩
  | .hbm, ⟨54, _⟩ => ⟨S16x64x64x64, .f32⟩
  | .hbm, ⟨55, _⟩ => ⟨S16x64x64x64, .f32⟩
  | .hbm, ⟨56, _⟩ => ⟨S1x64x1x1, .f32⟩
  | .hbm, ⟨57, _⟩ => ⟨S16x64x64x64, .f32⟩
  | .hbm, ⟨58, _⟩ => ⟨S16x64x64x64, .f32⟩
  | .hbm, ⟨59, _⟩ => ⟨S1x64x1x1, .f32⟩
  | .hbm, ⟨60, _⟩ => ⟨S16x64x64x64, .f32⟩
  | .hbm, ⟨61, _⟩ => ⟨S16x64x64x64, .f32⟩
  | .hbm, ⟨62, _⟩ => ⟨S_, .f32⟩
  | .hbm, ⟨63, _⟩ => ⟨S16x64x64x64, .f32⟩
  | .hbm, ⟨64, _⟩ => ⟨S16x64x64x64, .f32⟩
  | .hbm, ⟨65, _⟩ => ⟨S16x64x64x64, .f32⟩
  | .hbm, ⟨66, _⟩ => ⟨S16x64x64x1x64, .f32⟩
  | .hbm, ⟨67, _⟩ => ⟨S1x1x1x64x64, .f32⟩
  | .hbm, ⟨68, _⟩ => ⟨S16x64x64x64x64, .f32⟩
  | .hbm, ⟨69, _⟩ => ⟨S16x64x64x64x64, .f32⟩
  | .hbm, ⟨70, _⟩ => ⟨S16x64x64x64x64, .f32⟩
  | .hbm, ⟨71, _⟩ => ⟨S16x64x64x64x64, .f32⟩
  | .hbm, ⟨72, _⟩ => ⟨S_, .f32⟩
  | .hbm, ⟨73, _⟩ => ⟨S16x64x64x64, .f32⟩
  | .hbm, ⟨74, _⟩ => ⟨S16x64x64x64, .f32⟩
  | .hbm, ⟨75, _⟩ => ⟨S16x64x64x64, .f32⟩
  | .hbm, ⟨76, _⟩ => ⟨S_, .f32⟩
  | .hbm, ⟨77, _⟩ => ⟨S64, .f32⟩
  | .hbm, ⟨78, _⟩ => ⟨S1x64x1x1, .f32⟩
  | .hbm, ⟨79, _⟩ => ⟨S_, .f32⟩
  | .hbm, ⟨80, _⟩ => ⟨S1x64x1x1, .f32⟩
  | .hbm, ⟨81, _⟩ => ⟨S1x64x1x1, .f32⟩
  | .hbm, ⟨82, _⟩ => ⟨S_, .i32⟩
  | .hbm, ⟨83, _⟩ => ⟨S_, .f32⟩
  | .hbm, ⟨84, _⟩ => ⟨S64, .f32⟩
  | .hbm, ⟨85, _⟩ => ⟨S1x64x1x1, .f32⟩
  | .hbm, ⟨86, _⟩ => ⟨S_, .f32⟩
  | .hbm, ⟨87, _⟩ => ⟨S1x64x1x1, .f32⟩
  | .hbm, ⟨88, _⟩ => ⟨S1x64x1x1, .f32⟩
  | .hbm, ⟨89, _⟩ => ⟨S16x64x64x64, .f32⟩
  | .hbm, ⟨90, _⟩ => ⟨S16x64x64x64, .f32⟩
  | .hbm, ⟨91, _⟩ => ⟨S16x64x64x64, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S64, .f32⟩
  | .hbm, ⟨97, _⟩ => ⟨S1x64x1x1, .f32⟩
  | .hbm, ⟨98, _⟩ => ⟨S1x64x1x1, .f32⟩
  | .hbm, ⟨99, _⟩ => ⟨S1x64x1x1, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S1x64x1x1, .f32⟩
  | .hbm, ⟨105, _⟩ => ⟨S1x64x1x1, .f32⟩
  | .hbm, ⟨106, _⟩ => ⟨S16x64x64x64, .f32⟩
  | .hbm, ⟨107, _⟩ => ⟨S16x64x64x64, .f32⟩
  | .hbm, ⟨108, _⟩ => ⟨S_, .f32⟩
  | .hbm, ⟨109, _⟩ => ⟨S1x64x1x1, .f32⟩
  | .hbm, ⟨110, _⟩ => ⟨S1x64x1x1, .f32⟩
  | .hbm, ⟨111, _⟩ => ⟨S1x64x1x1, .f32⟩
  | .hbm, ⟨112, _⟩ => ⟨S16x64x64x64, .f32⟩
  | .hbm, ⟨113, _⟩ => ⟨S16x64x64x64, .f32⟩
  | .hbm, ⟨114, _⟩ => ⟨S1x64x1x1, .f32⟩
  | .hbm, ⟨115, _⟩ => ⟨S16x64x64x64, .f32⟩
  | .hbm, ⟨116, _⟩ => ⟨S16x64x64x64, .f32⟩
  | .hbm, ⟨117, _⟩ => ⟨S1x64x1x1, .f32⟩
  | .hbm, ⟨118, _⟩ => ⟨S16x64x64x64, .f32⟩
  | .hbm, ⟨119, _⟩ => ⟨S16x64x64x64, .f32⟩
  | .hbm, ⟨120, _⟩ => ⟨S16x64x64x64, .f32⟩
  | .hbm, ⟨121, _⟩ => ⟨S_, .f32⟩
  | .hbm, ⟨122, _⟩ => ⟨S16x64x64x64, .f32⟩
  | .hbm, ⟨123, _⟩ => ⟨S16x64x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_3 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_v42 : Ref sig .tc := ⟨.hbm, 81, rfl⟩
abbrev main_c_6 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_cst_3 : Ref sig .tc := ⟨.hbm, 100, rfl⟩
abbrev main_call2_v13 : Ref sig .tc := ⟨.hbm, 101, rfl⟩
abbrev main_call2_cst_4 : Ref sig .tc := ⟨.hbm, 102, rfl⟩
abbrev main_call2_call0_v0 : Ref sig .tc := ⟨.hbm, 103, rfl⟩
abbrev main_call2_call0_v1 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_7 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_call3_cst : Ref sig .tc := ⟨.hbm, 121, rfl⟩
abbrev main_call3_v0 : Ref sig .tc := ⟨.hbm, 122, rfl⟩
abbrev main_v58 : Ref sig .tc := ⟨.hbm, 123, rfl⟩

abbrev nD : Nat := 1
abbrev τ : Topo := Topo.v7x

variable {F : FTy → Type} [FloatOps F]

class Facts₀ : Prop where
  transposes_S16x64x64x64_S16x64x64x64_0_2_3_1 : S16x64x64x64.Transposes [0, 2, 3, 1] S16x64x64x64
  bcast_S16x64x64x64_S16x64x64x1x64_0_1_2_4 : S16x64x64x64.BroadcastsInDim S16x64x64x1x64 (![0, 1, 2, 4] : Fin 4 → Fin S16x64x64x1x64.rank)
  bcast_S64x64_S1x1x1x64x64_3_4 : S64x64.BroadcastsInDim S1x1x1x64x64 (![3, 4] : Fin 2 → Fin S1x1x1x64x64.rank)
  bcast_S16x64x64x1x64_S16x64x64x64x64_0_1_2_3_4 : S16x64x64x1x64.BroadcastsInDim S16x64x64x64x64 (![0, 1, 2, 3, 4] : Fin 5 → Fin S16x64x64x64x64.rank)
  bcast_S1x1x1x64x64_S16x64x64x64x64_0_1_2_3_4 : S1x1x1x64x64.BroadcastsInDim S16x64x64x64x64 (![0, 1, 2, 3, 4] : Fin 5 → Fin S16x64x64x64x64.rank)
  reducesTo_S16x64x64x64x64_S16x64x64x64_d4 : S16x64x64x64x64.ReducesTo [4] S16x64x64x64
  h_S_ : 0 < S_.numel
  transposes_S16x64x64x64_S16x64x64x64_0_3_1_2 : S16x64x64x64.Transposes [0, 3, 1, 2] S16x64x64x64
  reducesTo_S16x64x64x64_S64_d0_2_3 : S16x64x64x64.ReducesTo [0, 2, 3] S64
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S16x64x64x64_0_1_2_3 : S1x64x1x1.BroadcastsInDim S16x64x64x64 (![0, 1, 2, 3] : Fin 4 → Fin S16x64x64x64.rank)
  bcast_S_S16x64x64x64 : S_.BroadcastsInDim S16x64x64x64 (![] : Fin 0 → Fin S16x64x64x64.rank)

variable [Facts₀]

class Facts : Prop extends Facts₀ where

variable [Facts]
-- ==== Proof.KernelRun.lean ====
/-
  The idealized kernel program's run with its RESULT named. Every weakly fair execution of @main ends, nothing
  faulting, and in the final state the result array holds what the last stretch of host operations leaves in it
  — the fold `W7` of the program's seven segments from the launch memory, read at the result's buffer — while
  the seven argument arrays are as launched. The fold is opened segment by segment in the modules that import
  this one.
-/
import proofs.«134045_j71545565217396_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_out : θ_run defs (onTc (τ := τ) (main (F := F))) ⟨m, fun _ => 0, ρ⟩ (fun r => ∀ c : Dev nD,
      r.2.mem ((c.tc : Thread nD τ).loc main_v28) = W7 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v28 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.KRun

end
-- ==== Proof.Region0.lean ====
/-
  The first adder kernel, read off its run. At every grid point the body leaves in the output block the
  adder layer of the point's 512 pixels, and in the two one-row accumulators the previous contents plus the
  block's first and second shifted moments; at the first point the accumulators are first reset to zero. So
  after point n the accumulators hold the moments of all pixels of points 0 … n, by induction on the point.
-/
import proofs.«134045_j71545565217396_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-! ## What each case of the body leaves in each output's buffer -/

/-- Any point: the output block is the adder payload of the point's input blocks. -/
theorem out_A_2 (c : Dev nD) (i : grid0.Coords) (a1 : Memref sig .tc .vmem S512x64 .f32) (h1 : a1.IsWhole) (a2 : Memref sig .tc .vmem S64x64 .f32) (h2 : a2.IsWhole) (a3 : Memref sig .tc .vmem S512x64 .f32) (h3 : a3.IsWhole) (a4 : Memref sig .tc .vmem S1x64 .f32) (h4 : a4.IsWhole) (a5 : Memref sig .tc .vmem S1x64 .f32) (h5 : a5.IsWhole) (hc : cond0_0 i) (x0 : Vec F S512x64 .f32) (x1 : Vec F S64x64 .f32) :
    out0_A_2 c i a1 h1 a2 h2 a3 h3 a4 h4 a5 h5 hc x0 x1 = k0_pay3 x0 x1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz]
  simp only [View.readAt_eq_ld, h1.read_unread, h2.read_unread, View.ld_unit_zero (S := S512x64) hz, View.ld_unit_zero (S := S64x64) hz]

theorem out_B_2 (c : Dev nD) (i : grid0.Coords) (a1 : Memref sig .tc .vmem S512x64 .f32) (h1 : a1.IsWhole) (a2 : Memref sig .tc .vmem S64x64 .f32) (h2 : a2.IsWhole) (a3 : Memref sig .tc .vmem S512x64 .f32) (h3 : a3.IsWhole) (a4 : Memref sig .tc .vmem S1x64 .f32) (h4 : a4.IsWhole) (a5 : Memref sig .tc .vmem S1x64 .f32) (h5 : a5.IsWhole) (hc : ¬cond0_0 i) (x0 : Vec F S512x64 .f32) (x1 : Vec F S64x64 .f32) (xo3 xo4 : Vec F S1x64 .f32) :
    out0_B_2 c i a1 h1 a2 h2 a3 h3 a4 h4 a5 h5 hc x0 x1 xo3 xo4 = k0_pay3 x0 x1 := by
  unfold out0_B_2
  rw [View.read_writes_eq_canon _ _ _ (cover0_B_2 c i a1 h1 a2 h2 a3 h3 a4 h4 a5 h5 hc x0 x1 xo3 xo4)]
  unfold kernelRun0_B
  dsimp only
  rw [View.canon_unit_zero hz]
  simp only [View.readAt_eq_ld, h1.read_unread, h2.read_unread, View.ld_unit_zero (S := S512x64) hz, View.ld_unit_zero (S := S64x64) hz]

/-- A later point: the first accumulator is its previous contents plus the block's shifted first moment. -/
theorem out_B_3 (c : Dev nD) (i : grid0.Coords) (a1 : Memref sig .tc .vmem S512x64 .f32) (h1 : a1.IsWhole) (a2 : Memref sig .tc .vmem S64x64 .f32) (h2 : a2.IsWhole) (a3 : Memref sig .tc .vmem S512x64 .f32) (h3 : a3.IsWhole) (a4 : Memref sig .tc .vmem S1x64 .f32) (h4 : a4.IsWhole) (a5 : Memref sig .tc .vmem S1x64 .f32) (h5 : a5.IsWhole) (hc : ¬cond0_0 i) (x0 : Vec F S512x64 .f32) (x1 : Vec F S64x64 .f32) (xo3 xo4 : Vec F S1x64 .f32) :
    out0_B_3 c i a1 h1 a2 h2 a3 h3 a4 h4 a5 h5 hc x0 x1 xo3 xo4 = k0_pay5 x0 x1 xo3 := by
  unfold out0_B_3
  rw [View.read_writes_eq_canon _ _ _ (cover0_B_3 c i a1 h1 a2 h2 a3 h3 a4 h4 a5 h5 hc x0 x1 xo3 xo4)]
  unfold kernelRun0_B
  dsimp only
  rw [View.canon_unit_zero hz]
  simp only [View.readAt_eq_ld, h1.read_unread, h2.read_unread, h4.read_unread, View.ld_unit_zero (S := S512x64) hz, View.ld_unit_zero (S := S64x64) hz, View.ld_unit_zero (S := S1x64) hz]

theorem out_B_4 (c : Dev nD) (i : grid0.Coords) (a1 : Memref sig .tc .vmem S512x64 .f32) (h1 : a1.IsWhole) (a2 : Memref sig .tc .vmem S64x64 .f32) (h2 : a2.IsWhole) (a3 : Memref sig .tc .vmem S512x64 .f32) (h3 : a3.IsWhole) (a4 : Memref sig .tc .vmem S1x64 .f32) (h4 : a4.IsWhole) (a5 : Memref sig .tc .vmem S1x64 .f32) (h5 : a5.IsWhole) (hc : ¬cond0_0 i) (x0 : Vec F S512x64 .f32) (x1 : Vec F S64x64 .f32) (xo3 xo4 : Vec F S1x64 .f32) :
    out0_B_4 c i a1 h1 a2 h2 a3 h3 a4 h4 a5 h5 hc x0 x1 xo3 xo4 = k0_pay6 x0 x1 xo4 := by
  unfold out0_B_4
  rw [View.read_writes_eq_canon _ _ _ (cover0_B_4 c i a1 h1 a2 h2 a3 h3 a4 h4 a5 h5 hc x0 x1 xo3 xo4)]
  unfold kernelRun0_B
  dsimp only
  rw [View.canon_unit_zero hz]
  simp only [View.readAt_eq_ld, h1.read_unread, h2.read_unread, h5.read_unread, View.ld_unit_zero (S := S512x64) hz, View.ld_unit_zero (S := S64x64) hz, View.ld_unit_zero (S := S1x64) hz]

/-- The first point: the accumulator is reset, read back, and the block's moment added to the zero row. -/
theorem out_A_3 (c : Dev nD) (i : grid0.Coords) (a1 : Memref sig .tc .vmem S512x64 .f32) (h1 : a1.IsWhole) (a2 : Memref sig .tc .vmem S64x64 .f32) (h2 : a2.IsWhole) (a3 : Memref sig .tc .vmem S512x64 .f32) (h3 : a3.IsWhole) (a4 : Memref sig .tc .vmem S1x64 .f32) (h4 : a4.IsWhole) (a5 : Memref sig .tc .vmem S1x64 .f32) (h5 : a5.IsWhole) (hc : cond0_0 i) (x0 : Vec F S512x64 .f32) (x1 : Vec F S64x64 .f32) :
    out0_A_3 c i a1 h1 a2 h2 a3 h3 a4 h4 a5 h5 hc x0 x1 = k0_pay5 x0 x1 k0_pay1 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread, View.ld_unit_zero (S := S512x64) hz, View.ld_unit_zero (S := S64x64) hz, View.ld_unit_zero (S := S1x64) hz]

theorem out_A_4 (c : Dev nD) (i : grid0.Coords) (a1 : Memref sig .tc .vmem S512x64 .f32) (h1 : a1.IsWhole) (a2 : Memref sig .tc .vmem S64x64 .f32) (h2 : a2.IsWhole) (a3 : Memref sig .tc .vmem S512x64 .f32) (h3 : a3.IsWhole) (a4 : Memref sig .tc .vmem S1x64 .f32) (h4 : a4.IsWhole) (a5 : Memref sig .tc .vmem S1x64 .f32) (h5 : a5.IsWhole) (hc : cond0_0 i) (x0 : Vec F S512x64 .f32) (x1 : Vec F S64x64 .f32) :
    out0_A_4 c i a1 h1 a2 h2 a3 h3 a4 h4 a5 h5 hc x0 x1 = k0_pay6 x0 x1 k0_pay2 := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread, View.ld_unit_zero (S := S512x64) hz, View.ld_unit_zero (S := S64x64) hz, View.ld_unit_zero (S := S1x64) hz]

/-! ## The accumulators after point n -/

variable (V : (c : Dev nD) → (b : Ref sig .tc) → Buf (Elt F) ((c : Thread nD τ).loc b))

/-- The two accumulators after point n: reset then one block at point 0, one more block per later point. -/
def accs (c : Dev nD) : (n : ℕ) → n < cfg0.N → Vec F S1x64 .f32 × Vec F S1x64 .f32
  | 0, h => (k0_pay5 (iblk0 V c 0 ⟨0, h⟩) (iblk0 V c 1 ⟨0, h⟩) k0_pay1, k0_pay6 (iblk0 V c 0 ⟨0, h⟩) (iblk0 V c 1 ⟨0, h⟩) k0_pay2)
  | n + 1, h => (k0_pay5 (iblk0 V c 0 ⟨n + 1, h⟩) (iblk0 V c 1 ⟨n + 1, h⟩) (accs c n (Nat.lt_of_succ_lt h)).1,
                 k0_pay6 (iblk0 V c 0 ⟨n + 1, h⟩) (iblk0 V c 1 ⟨n + 1, h⟩) (accs c n (Nat.lt_of_succ_lt h)).2)

/-- What the three output buffers hold after point n: the point's adder block and the running accumulators. -/
theorem outsAt_eq (c : Dev nD) : ∀ (n : ℕ) (h : n < cfg0.N),
    outsAt0 V c n h = (k0_pay3 (iblk0 V c 0 ⟨n, h⟩) (iblk0 V c 1 ⟨n, h⟩), (accs V c n h).1, (accs V c n h).2)
  | 0, h => by
    rw [outsAt0_A V c ⟨0, h⟩ rfl, out_A_2, out_A_3, out_A_4]
    rfl
  | n + 1, h => by
    have hN : cfg0.N = 128 := N_0
    have hB : ¬(⟨n + 1, h⟩ : Fin cfg0.N).val % 128 = 0 := by dsimp only; omega
    rw [outsAt0_B V c ⟨n + 1, h⟩ hB, out_B_2, out_B_3, out_B_4]
    have e := outsAt_eq c n (Nat.lt_of_succ_lt h)
    show (_, k0_pay5 _ _ (outsAt0 V c n _).2.1, k0_pay6 _ _ (outsAt0 V c n _).2.2) = _
    rw [e]
    rfl

end Cert.KernelIdeal.R0

end
-- ==== Proof.Arrays0.lean ====
/-
  The first adder kernel's three result arrays after the whole grid has run. The output array is written back
  block by block, point t's 512 rows at rows 512·t … 512·t + 511, and every row lies in exactly one block; the
  two accumulator rows are written back once, after the last point, so they end at the running accumulators
  after point 127.
-/
import proofs.«134045_j71545565217396_2_alg».proof.Proof.Region0
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable {F : FTy → Type} [FloatOps F]
variable (V : (c : Dev nD) → (b : Ref sig .tc) → Buf (Elt F) ((c : Thread nD τ).loc b))

/-- Where each window's block sits at point t: the pixel windows move down one block of rows per point, the
    weights and the accumulators never move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The grid point whose block holds row i₀. -/
def pointOf (i : S65536x64.Idx) : Fin cfg0.N :=
  ⟨(i 0).val / 512, by have h : (i 0).val < 65536 := (i 0).isLt; rw [show cfg0.N = 128 from N_0]; omega⟩

/-- The row of i inside its block, and its channel. -/
def inBlock (i : S65536x64.Idx) : S512x64.Idx :=
  ix2 (⟨(i 0).val % 512, Nat.mod_lt _ (by decide)⟩ : Fin 512) (⟨(i 1).val, (i 1).isLt⟩ : Fin 64)

/-- The output array as one function: at row i₀ the adder block of the point that holds the row. -/
def outArr (c : Dev nD) : S65536x64.Idx → Elt F .f32 :=
  fun i => k0_pay3 (iblk0 V c 0 (pointOf i)) (iblk0 V c 1 (pointOf i)) (inBlock i)

/-- What point t writes back to the output array is block t of that function. -/
theorem flushed2_eq (c : Dev nD) (t : Fin cfg0.N) :
    (dat0 V c).flushed 2 t = ((cfg0.win 2).blk t).view.read (Elt F) (outArr V c) := by
  show (cfg0.win 2).cut (grid0.coords t) ((dat0 V c).after 2 t) = _
  rw [after0_2, outsAt_eq]
  obtain ⟨-, -, -, -, e4, e5, -, -, -, -⟩ := idx_facts t
  funext j
  show k0_pay3 (iblk0 V c 0 t) (iblk0 V c 1 t) j = outArr V c (((cfg0.win 2).blk t).view.emb j)
  have hj0 : (j 0).val < 512 := (j 0).isLt
  have hj1 : (j 1).val < 64 := (j 1).isLt
  have c0 : ((((cfg0.win 2).blk t).view.emb j) 0).val = t.val * 512 + (j 0).val := by
    show win0_2.index t (0 : Fin 2) * 512 + 1 * (j 0).val = _; rw [e4]; omega
  have c1 : ((((cfg0.win 2).blk t).view.emb j) 1).val = (j 1).val := by
    show win0_2.index t (1 : Fin 2) * 64 + 1 * (j 1).val = _; rw [e5]; omega
  unfold outArr
  have ht : pointOf (((cfg0.win 2).blk t).view.emb j) = t := Fin.ext (by
    show ((((cfg0.win 2).blk t).view.emb j) 0).val / 512 = t.val; rw [c0]; omega)
  have hi : inBlock (((cfg0.win 2).blk t).view.emb j) = j := by
    funext a; apply Fin.ext
    match a with
    | ⟨0, _⟩ => show ((((cfg0.win 2).blk t).view.emb j) 0).val % 512 = (j 0).val; rw [c0]; omega
    | ⟨1, _⟩ => show ((((cfg0.win 2).blk t).view.emb j) 1).val = (j 1).val; exact c1
  rw [ht, hi]

/-- An index of the output array is in point t's block iff its row is among the block's 512. -/
theorem mem_blk2 (t : Fin cfg0.N) (i : S65536x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v4_0).slice (win0_2.rect t)).set ↔ _
  rw [View.set_slice_whole, Rect.mem_set_unit]
  exact Iff.rfl

/-- The output array after the run is that function. -/
theorem final2 (c : Dev nD) : (dat0 V c).arrAt 2 cfg0.N = outArr V c :=
  (dat0 V c).arrAt_eq_of_cover 2 (outArr V c) (fun t _ => flushed2_eq V c t) fun i => by
    have hi0 : (i 0).val < 65536 := (i 0).isLt
    have hi1 : (i 1).val < 64 := (i 1).isLt
    refine ⟨pointOf i, flush0_2 _, ?_⟩
    rw [mem_blk2]
    obtain ⟨-, -, -, -, e4, e5, -, -, -, -⟩ := idx_facts (pointOf i)
    have hp : (pointOf i).val = (i 0).val / 512 := rfl
    intro a
    match a with
    | ⟨0, _⟩ => show win0_2.index (pointOf i) (0 : Fin 2) * 512 ≤ (i 0).val ∧ (i 0).val < win0_2.index (pointOf i) (0 : Fin 2) * 512 + 512; rw [e4, hp]; omega
    | ⟨1, _⟩ => show win0_2.index (pointOf i) (1 : Fin 2) * 64 ≤ (i 1).val ∧ (i 1).val < win0_2.index (pointOf i) (1 : Fin 2) * 64 + 64; rw [e5]; omega

/-! ## The accumulators -/

/-- The last grid point. -/
def tLast : Fin cfg0.N := ⟨127, by rw [show cfg0.N = 128 from N_0]; decide⟩

/-- The accumulators after the last point. -/
abbrev lastAccs (c : Dev nD) : Vec F S1x64 .f32 × Vec F S1x64 .f32 := accs V c 127 tLast.isLt

theorem flushed3_eq (c : Dev nD) (t : Fin cfg0.N) (hf : (cfg0.win 3).flush t = true) :
    (dat0 V c).flushed 3 t = ((cfg0.win 3).blk t).view.read (Elt F) (lastAccs V c).1 := by
  have hN : cfg0.N = 128 := N_0
  have h127 : t.val = 127 := by have := (flush0_3 t).mp hf; have := t.isLt; omega
  obtain rfl : t = tLast := Fin.ext h127
  show (cfg0.win 3).cut (grid0.coords tLast) ((dat0 V c).after 3 tLast) = _
  rw [after0_3, outsAt_eq]
  have hz' : (fun a => win0_3.index tLast a * main_v4_1.ty.shape.size a) = fun _ => 0 := funext fun a => by fin_cases a <;> decide
  exact (Memref.read_access_unit_zero (Elt F) main_v4_1 hz' (fun a => by rw [congrFun hz' a]; simp) (lastAccs V c).1).symm

theorem flushed4_eq (c : Dev nD) (t : Fin cfg0.N) (hf : (cfg0.win 4).flush t = true) :
    (dat0 V c).flushed 4 t = ((cfg0.win 4).blk t).view.read (Elt F) (lastAccs V c).2 := by
  have hN : cfg0.N = 128 := N_0
  have h127 : t.val = 127 := by have := (flush0_4 t).mp hf; have := t.isLt; omega
  obtain rfl : t = tLast := Fin.ext h127
  show (cfg0.win 4).cut (grid0.coords tLast) ((dat0 V c).after 4 tLast) = _
  rw [after0_4, outsAt_eq]
  have hz' : (fun a => win0_4.index tLast a * main_v4_2.ty.shape.size a) = fun _ => 0 := funext fun a => by fin_cases a <;> decide
  exact (Memref.read_access_unit_zero (Elt F) main_v4_2 hz' (fun a => by rw [congrFun hz' a]; simp) (lastAccs V c).2).symm

/-- The first-moment array after the run: the first accumulator after the last point. -/
theorem final3 (c : Dev nD) : (dat0 V c).arrAt 3 cfg0.N = (lastAccs V c).1 :=
  (dat0 V c).arrAt_eq_of_cover 3 (lastAccs V c).1 (flushed3_eq V c) fun i =>
    ⟨tLast, (flush0_3 tLast).mpr rfl, by
      show i ∈ ((View.whole main_v4_1).slice (win0_3.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 64 from by decide +kernel]; omega⟩

/-- The second-moment array after the run: the second accumulator after the last point. -/
theorem final4 (c : Dev nD) : (dat0 V c).arrAt 4 cfg0.N = (lastAccs V c).2 :=
  (dat0 V c).arrAt_eq_of_cover 4 (lastAccs V c).2 (flushed4_eq V c) fun i =>
    ⟨tLast, (flush0_4 tLast).mpr rfl, by
      show i ∈ ((View.whole main_v4_2).slice (win0_4.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 64 from by decide +kernel]; omega⟩

end Cert.KernelIdeal.R0

end
-- ==== Proof.Spec.lean ====
/-
  The residual block as plain mathematics on the extended reals, index by index.

  A pixel is one of the 16·64·64 = 65536 positions (batch, row, column); a feature map is a function
  pixel → channel → value. The adder layer sends x to  d(n, o) = −Σ_c |x(n, c) − w(o, c)|.  A batch
  normalisation needs the per-channel mean and variance of d over all pixels; they are written here in the
  two-pass form (mean, then the mean of squared deviations) and in the shifted-moment form (the first two
  moments of d − K for a constant K, the mean recovered by adding K back, the variance as the second
  moment minus the square of the first). The whole block, `net`, takes the two pairs (mean, variance) it
  is to use as parameters, so that both forms are instances of one definition.
-/
import Idealize.ShloMosaic.PureOps.Ideal
import Idealize.ShloMosaic.Lib.ValueIdx

noncomputable section

namespace Cert.ResBlock

open Idealize.ShloMosaic Idealize.ShloMosaic.ValueIdx

/-- A pixel: (batch·64 + row)·64 + column. -/
abbrev Px := Fin 65536
/-- A channel. -/
abbrev Ch := Fin 64
/-- A feature map: pixel → channel → value. -/
abbrev Fm := Px → Ch → EReal

/-- The absolute value on the extended reals. -/
def eabs (y : EReal) : EReal := max y (-y)

/-- The number of pixels, 65536, as the value of its binary pattern. -/
def cN : EReal := Ideal.ofBits .f32 0x47800000#32
/-- The variance offset of the normalisation, as the value of its binary pattern. -/
def cEps : EReal := Ideal.ofBits .f32 0x3727C5AC#32
/-- The shift of the first layer's moments, as the value of its binary pattern. -/
def cK1 : EReal := Ideal.ofBits .f32 0xC24C422A#32
/-- The shift of the second layer's moments, as the value of its binary pattern. -/
def cK2 : EReal := Ideal.ofBits .f32 0xC1CC422A#32

/-- The adder layer: minus the L1 distance between a pixel's channel vector and row o of the weights. -/
def adder (x : Fm) (w : Ch → Ch → EReal) : Fm := fun n o => -(∑ c : Ch, eabs (x n c - w o c))

/-- The per-channel mean over all pixels. -/
def mean (d : Fm) (o : Ch) : EReal := Ideal.div (∑ n : Px, d n o) cN
/-- The per-channel variance over all pixels, two-pass: the mean of the squared deviations. -/
def var (d : Fm) (o : Ch) : EReal := Ideal.div (∑ n : Px, (d n o - mean d o) * (d n o - mean d o)) cN

/-- The first moment of d − K, summed (not yet divided). -/
def shiftSum (K : EReal) (d : Fm) (o : Ch) : EReal := ∑ n : Px, (d n o - K)
/-- The second moment of d − K, summed (not yet divided). -/
def shiftSq (K : EReal) (d : Fm) (o : Ch) : EReal := ∑ n : Px, (d n o - K) * (d n o - K)
/-- The mean recovered from the shifted first moment. -/
def meanK (K : EReal) (d : Fm) (o : Ch) : EReal := Ideal.div (shiftSum K d o) cN + K
/-- The variance from the shifted moments: second moment minus the square of the first. -/
def varK (K : EReal) (d : Fm) (o : Ch) : EReal :=
  Ideal.div (shiftSq K d o) cN - Ideal.div (shiftSum K d o) cN * Ideal.div (shiftSum K d o) cN

/-- Normalise with a given mean and variance, then scale and shift per channel. -/
def bn (μ v γ β : Ch → EReal) (h : Fm) : Fm :=
  fun n o => (h n o - μ o) * Ideal.rsqrt (v o + cEps) * γ o + β o

/-- The first half: adder layer, normalisation with the moments (M, V) of its output, rectifier. -/
def act1 (M V : Fm → Ch → EReal) (x : Fm) (w1 : Ch → Ch → EReal) (g1 b1 : Ch → EReal) : Fm :=
  fun n o => max (bn (M (adder x w1)) (V (adder x w1)) g1 b1 (adder x w1) n o) 0

/-- The second adder layer's output. -/
def d2 (M V : Fm → Ch → EReal) (x : Fm) (w1 : Ch → Ch → EReal) (g1 b1 : Ch → EReal) (w2 : Ch → Ch → EReal) : Fm :=
  adder (act1 M V x w1 g1 b1) w2

/-- The whole block: second normalisation with the moments (M', V'), the residual added, rectifier. -/
def net (M V M' V' : Fm → Ch → EReal) (x : Fm) (w1 : Ch → Ch → EReal) (g1 b1 : Ch → EReal)
    (w2 : Ch → Ch → EReal) (g2 b2 : Ch → EReal) : Fm :=
  fun n o => max (bn (M' (d2 M V x w1 g1 b1 w2)) (V' (d2 M V x w1 g1 b1 w2)) g2 b2 (d2 M V x w1 g1 b1 w2) n o + x n o) 0

/-! ## Layout: the [16, 64, 64, 64] array (batch, channel, row, column) and the pixel-major matrix -/

/-- The pixel of (batch, row, column). -/
def pix (b : Fin 16) (h w : Fin 64) : Px := ⟨(b.val * 64 + h.val) * 64 + w.val, by omega⟩

/-- An array indexed (batch, channel, row, column) as a feature map. -/
def flat (x : (⟨4, ![16, 64, 64, 64]⟩ : Shape).Idx → EReal) : Fm :=
  fun n c => x (ix4 (⟨n.val / 4096, by omega⟩ : Fin 16) c (⟨n.val / 64 % 64, by omega⟩ : Fin 64) (⟨n.val % 64, by omega⟩ : Fin 64))

/-- A feature map as an array indexed (batch, channel, row, column). -/
def unflat (y : Fm) : (⟨4, ![16, 64, 64, 64]⟩ : Shape).Idx → EReal :=
  fun i => y (pix (i 0) (i 2) (i 3)) (i 1)

/-- A [64, 64] array as a matrix of channels. -/
def mat (w : (⟨2, ![64, 64]⟩ : Shape).Idx → EReal) : Ch → Ch → EReal := fun o c => w (ix2 o c)

/-- A [64] array as a vector of channels. -/
def vec (g : (⟨1, ![64]⟩ : Shape).Idx → EReal) : Ch → EReal := fun o => g (ix1 o)

theorem flat_pix (x : (⟨4, ![16, 64, 64, 64]⟩ : Shape).Idx → EReal) (b : Fin 16) (h w : Fin 64) (c : Ch) :
    flat x (pix b h w) c = x (ix4 b c h w) := by
  unfold flat pix
  congr 1
  have hb := b.isLt; have hh := h.isLt; have hw := w.isLt
  congr 1 <;> (apply Fin.ext; dsimp only; omega)

theorem pix_div (n : Px) :
    pix (⟨n.val / 4096, by omega⟩ : Fin 16) (⟨n.val / 64 % 64, by omega⟩ : Fin 64) (⟨n.val % 64, by omega⟩ : Fin 64) = n := by
  apply Fin.ext; unfold pix; dsimp only; omega

end Cert.ResBlock

end
-- ==== Proof.KPay0.lean ====
/-
  Reading small layout operations and one-axis sums at an entry, at exact arithmetic.

  A matrix [a, b] viewed as a stack [a, b, 1] and repeated along a new last axis, a matrix [b, c]
  viewed as [1, b, c] and repeated along a new first axis, the sum of an [a, b, c] stack over its
  middle axis, and the sum of an [a, b] block over its first axis: each read at an entry whose
  coordinates are written out.
-/
import proofs.«134045_j71545565217396_2_alg».proof.Proof.Gen.KernelIdeal.Skeleton
import proofs.«134045_j71545565217396_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Idealize.ShloMosaic Idealize.ShloMosaic.ValueIdx Cert.ResBlock

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` stack repeated along its last axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` stack repeated along its first axis to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- The sum of an `[a, b, c]` stack over its middle axis, at `(i, k)`: the sum over `j` of the entries `(i, j, k)`. -/
theorem sum_axis1_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src (funext fun ax => ?_)
  match ax with
  | ⟨0, _⟩ => rfl
  | ⟨1, _⟩ => rfl
  | ⟨2, _⟩ => rfl

/-- The sum of an `[a, b]` block over its first axis, at `o`: the sum over `r` of the entries `(r, o)`. -/
theorem sum_axis0_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (o : Fin b) :
    multiReduction .add [0] ⟨1, ![b]⟩ src 0x00000000#32 h hφ hacc (ix1 o) = ∑ r : Fin a, src (ix2 r o) := by
  refine (Ideal.multiReduction_add_single src 0x00000000#32 h hφ hacc (ix1 o)).trans ?_
  refine Finset.sum_congr rfl fun r _ => congrArg src (funext fun ax => ?_)
  match ax with
  | ⟨0, _⟩ => rfl
  | ⟨1, _⟩ => rfl

/-- Every index of a `[1, b]` row is `(0, o)`. -/
theorem ix2_unit_row {b : ℕ} (u : Fin 1) (o : Fin b) : (ix2 u o : (⟨2, ![1, b]⟩ : Shape).Idx) = ix2 (0 : Fin 1) o := by
  have hu : u = 0 := Fin.ext (by omega)
  rw [hu]

/-- The absolute value of a vector, read at an entry. -/
theorem absf_apply {s : Shape} (a : FVec Ideal s .f32) (i : s.Idx) : absf a i = eabs (a i) := rfl

/-- The reciprocal square root of a vector, read at an entry. -/
theorem rsqrt_apply {s : Shape} (a : FVec Ideal s .f32) (i : s.Idx) : rsqrt a i = Ideal.rsqrt (a i) := rfl

/-- The zero pattern splat over a shape reads `0` everywhere. -/
theorem broadcast_zero_apply {s : Shape} (i : s.Idx) :
    broadcast (α := Ideal .f32) s (Scalar.ofBits .f32 0x00000000#32) i = 0 :=
  Ideal.ofBits_zero_f32

/-- A matrix `[a, b]` laid along the first two axes of an `[a, b, c]` stack. -/
theorem stackLeft_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) :=
  (broadcastTo_ab1_abc_apply _ h2 i j k).trans (shapeCast_ab_ab1_apply x h1 i j 0)

/-- A matrix `[b, c]` laid along the last two axes of an `[a, b, c]` stack. -/
theorem stackRight_apply {a b c : ℕ} (w : (⟨2, ![b, c]⟩ : Shape).Idx → α)
    (h1 : (⟨2, ![b, c]⟩ : Shape).ShapeCasts ⟨3, ![1, b, c]⟩)
    (h2 : (⟨3, ![1, b, c]⟩ : Shape).Broadcasts ⟨3, ![a, b, c]⟩) (i : Fin a) (j : Fin b) (k : Fin c) :
    broadcastTo ⟨3, ![a, b, c]⟩ (shapeCast ⟨3, ![1, b, c]⟩ w h1) h2 (ix3 i j k) = w (ix2 j k) :=
  (broadcastTo_1bc_abc_apply _ h2 i j k).trans (shapeCast_ab_1ab_apply w h1 0 j k)

/-- A length-`b` vector laid out as the one row of a `[1, b]` array. -/
theorem row_apply {b : ℕ} (x : (⟨1, ![b]⟩ : Shape).Idx → α)
    (h : (⟨1, ![b]⟩ : Shape).ShapeCasts ⟨2, ![1, b]⟩) (o : Fin b) :
    shapeCast ⟨2, ![1, b]⟩ x h (ix2 (0 : Fin 1) o) = x (ix1 o) :=
  shapeCast_a_1a_apply x h 0 o

/-- One `[1, b]` row repeated down the `a` rows of an `[a, b]` block. -/
theorem rowDown_apply {a b : ℕ} (x : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ x h1) h2 (ix2 r c) = x (ix2 (0 : Fin 1) c) := by
  rw [broadcastTo_1b_ab_apply, shapeCast_self]

end Cert.KPay

end
-- ==== Proof.KPay1.lean ====
/-
  The first adder kernel's stored values, each read at an entry: the adder output of a block of 512
  rows, its shift by the constant K₁, the two moments accumulated over the block's rows, and the
  accumulators' reset.
-/
import proofs.«134045_j71545565217396_2_alg».proof.Proof.KPay0

noncomputable section

namespace Cert.KernelIdeal.KPay

open Idealize.ShloMosaic Idealize.ShloMosaic.ValueIdx Cert.ResBlock Cert.KernelIdeal Cert.KernelIdeal.Gen Cert.KPay

/-- The adder output of a block: minus the L1 distance between row `r` of the block and column `o` of the transposed weights. -/
theorem k0_pay3_apply (x0 : Vec Ideal S512x64 .f32) (wT : Vec Ideal S64x64 .f32) (r : Fin 512) (o : Fin 64) :
    k0_pay3 x0 wT (ix2 r o) = -(∑ c : Fin 64, eabs (x0 (ix2 r c) - wT (ix2 c o))) := by
  unfold k0_pay3
  refine (subf_apply _ _ _).trans ?_
  refine (congrArg₂ (· - ·) (broadcast_zero_apply _) (sum_axis1_apply _ _ _ _ r o)).trans ?_
  rw [zero_sub]
  refine congrArg Neg.neg (Finset.sum_congr rfl fun c _ => ?_)
  rw [absf_apply, subf_apply, stackLeft_apply, stackRight_apply, shapeCast_self, shapeCast_self]

/-- The shifted adder output. -/
theorem k0_pay4_apply (x0 : Vec Ideal S512x64 .f32) (wT : Vec Ideal S64x64 .f32) (r : Fin 512) (o : Fin 64) :
    k0_pay4 x0 wT (ix2 r o) = k0_pay3 x0 wT (ix2 r o) - cK1 := by
  unfold k0_pay4
  exact subf_apply _ _ _

/-- The first moment accumulated: the accumulator plus the sum over the block's rows of the shifted output. -/
theorem k0_pay5_apply (x0 : Vec Ideal S512x64 .f32) (wT : Vec Ideal S64x64 .f32) (acc : Vec Ideal S1x64 .f32) (o : Fin 64) :
    k0_pay5 x0 wT acc (ix2 (0 : Fin 1) o) = acc (ix2 (0 : Fin 1) o) + ∑ r : Fin 512, k0_pay4 x0 wT (ix2 r o) := by
  unfold k0_pay5
  refine (addf_apply _ _ _).trans ?_
  rw [shapeCast_self, row_apply]
  exact congrArg (acc (ix2 (0 : Fin 1) o) + ·) (sum_axis0_apply _ _ _ _ o)

/-- The second moment accumulated: the accumulator plus the sum over the block's rows of the squared shifted output. -/
theorem k0_pay6_apply (x0 : Vec Ideal S512x64 .f32) (wT : Vec Ideal S64x64 .f32) (acc : Vec Ideal S1x64 .f32) (o : Fin 64) :
    k0_pay6 x0 wT acc (ix2 (0 : Fin 1) o)
      = acc (ix2 (0 : Fin 1) o) + ∑ r : Fin 512, k0_pay4 x0 wT (ix2 r o) * k0_pay4 x0 wT (ix2 r o) := by
  unfold k0_pay6
  refine (addf_apply _ _ _).trans ?_
  rw [shapeCast_self, row_apply]
  refine congrArg (acc (ix2 (0 : Fin 1) o) + ·) ((sum_axis0_apply _ _ _ _ o).trans ?_)
  exact Finset.sum_congr rfl fun r _ => mulf_apply _ _ _

/-- The accumulators' reset. -/
theorem k0_pay1_apply (o : Fin 64) : k0_pay1 (F := Ideal) (ix2 (0 : Fin 1) o) = 0 := by
  unfold k0_pay1
  exact broadcast_zero_apply _

theorem k0_pay2_apply (o : Fin 64) : k0_pay2 (F := Ideal) (ix2 (0 : Fin 1) o) = 0 := by
  unfold k0_pay2
  exact broadcast_zero_apply _

end Cert.KernelIdeal.KPay

end
-- ==== Proof.KPay2.lean ====
/-
  The second adder kernel's and the last kernel's stored values, each read at an entry: the adder
  output of a normalised and rectified block, its shift by the constant K₂, the two moments
  accumulated over the block's rows, the accumulators' reset, and the normalised block with the
  residual added and rectified.
-/
import proofs.«134045_j71545565217396_2_alg».proof.Proof.KPay0

noncomputable section

namespace Cert.KernelIdeal.KPay

open Idealize.ShloMosaic Idealize.ShloMosaic.ValueIdx Cert.ResBlock Cert.KernelIdeal Cert.KernelIdeal.Gen Cert.KPay

/-- The second adder kernel's adder output: the block is first normalised, scaled, shifted and rectified, entry by entry. -/
theorem k1_pay6_apply (h : Vec Ideal S512x64 .f32) (μ v γ β : Vec Ideal S1x64 .f32) (wT : Vec Ideal S64x64 .f32)
    (r : Fin 512) (o : Fin 64) :
    k1_pay6 h μ v γ β wT (ix2 r o)
      = -(∑ c : Fin 64, eabs (max ((h (ix2 r c) - μ (ix2 (0 : Fin 1) c)) * Ideal.rsqrt (v (ix2 (0 : Fin 1) c) + cEps)
            * γ (ix2 (0 : Fin 1) c) + β (ix2 (0 : Fin 1) c)) 0 - wT (ix2 c o))) := by
  unfold k1_pay6
  refine (subf_apply _ _ _).trans ?_
  refine (congrArg₂ (· - ·) (broadcast_zero_apply _) (sum_axis1_apply _ _ _ _ r o)).trans ?_
  rw [zero_sub]
  refine congrArg Neg.neg (Finset.sum_congr rfl fun c _ => ?_)
  rw [absf_apply, subf_apply, stackLeft_apply, stackRight_apply, shapeCast_self wT]
  refine congrArg (fun y => eabs (y - wT (ix2 c o))) ?_
  simp only [maximumf_apply, addf_apply, mulf_apply, subf_apply, rowDown_apply, shapeCast_self,
    broadcastTo_1b_ab_apply, rsqrt_apply, broadcast_zero_apply]
  rfl

/-- The shifted second adder output. -/
theorem k1_pay1_apply (v36 : FVec Ideal S512x64 .f32) (r : Fin 512) (o : Fin 64) :
    k1_pay1 v36 (ix2 r o) = v36 (ix2 r o) - cK2 := by
  unfold k1_pay1
  exact subf_apply _ _ _

/-- Its first moment accumulated over the block's rows. -/
theorem k1_pay2_apply (v36 : FVec Ideal S512x64 .f32) (acc : Vec Ideal S1x64 .f32) (o : Fin 64) :
    k1_pay2 v36 acc (ix2 (0 : Fin 1) o) = acc (ix2 (0 : Fin 1) o) + ∑ r : Fin 512, k1_pay1 v36 (ix2 r o) := by
  unfold k1_pay2
  refine (addf_apply _ _ _).trans ?_
  rw [shapeCast_self, row_apply]
  exact congrArg (acc (ix2 (0 : Fin 1) o) + ·) (sum_axis0_apply _ _ _ _ o)

/-- Its second moment accumulated over the block's rows. -/
theorem k1_pay3_apply (v36 : FVec Ideal S512x64 .f32) (acc : Vec Ideal S1x64 .f32) (o : Fin 64) :
    k1_pay3 v36 acc (ix2 (0 : Fin 1) o)
      = acc (ix2 (0 : Fin 1) o) + ∑ r : Fin 512, k1_pay1 v36 (ix2 r o) * k1_pay1 v36 (ix2 r o) := by
  unfold k1_pay3
  refine (addf_apply _ _ _).trans ?_
  rw [shapeCast_self, row_apply]
  refine congrArg (acc (ix2 (0 : Fin 1) o) + ·) ((sum_axis0_apply _ _ _ _ o).trans ?_)
  exact Finset.sum_congr rfl fun r _ => mulf_apply _ _ _

/-- The accumulators' reset. -/
theorem k1_pay4_apply (o : Fin 64) : k1_pay4 (F := Ideal) (ix2 (0 : Fin 1) o) = 0 := by
  unfold k1_pay4
  exact broadcast_zero_apply _

theorem k1_pay5_apply (o : Fin 64) : k1_pay5 (F := Ideal) (ix2 (0 : Fin 1) o) = 0 := by
  unfold k1_pay5
  exact broadcast_zero_apply _

/-- The last kernel: normalise, scale and shift the block entry by entry, add the residual, rectify. -/
theorem k2_pay1_apply (h : Vec Ideal S512x64 .f32) (μ v γ β : Vec Ideal S1x64 .f32) (xr : Vec Ideal S512x64 .f32)
    (r : Fin 512) (o : Fin 64) :
    k2_pay1 h μ v γ β xr (ix2 r o)
      = max ((h (ix2 r o) - μ (ix2 (0 : Fin 1) o)) * Ideal.rsqrt (v (ix2 (0 : Fin 1) o) + cEps) * γ (ix2 (0 : Fin 1) o)
          + β (ix2 (0 : Fin 1) o) + xr (ix2 r o)) 0 := by
  unfold k2_pay1
  simp only [maximumf_apply, addf_apply, mulf_apply, subf_apply, rowDown_apply, shapeCast_self,
    broadcastTo_1b_ab_apply, rsqrt_apply, broadcast_zero_apply]
  rfl

end Cert.KernelIdeal.KPay

end
-- ==== Proof.KPay.lean ====
/-
  The kernel bodies' stored values, each read at an entry (collected from the per-kernel modules).
-/
import proofs.«134045_j71545565217396_2_alg».proof.Proof.KPay1
import proofs.«134045_j71545565217396_2_alg».proof.Proof.KPay2
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.Value0.lean ====
/-
  The first adder kernel's result arrays as mathematics. With X the pixel matrix and WT the transposed weights the
  region finds, the output array is the adder layer d(n, o) = −Σ_c |X(n, c) − WT(c, o)|, and the two accumulator
  rows are the first and second moments of d − K₁ summed over all 65536 pixels: point t contributes its 512
  pixels 512·t … 512·t + 511, and the 128 blocks of 512 are all the pixels.
-/
import proofs.«134045_j71545565217396_2_alg».proof.Proof.Arrays0
import proofs.«134045_j71545565217396_2_alg».proof.Proof.KPay
import proofs.«134045_j71545565217396_2_alg».proof.Proof.Spec
import proofs.«134045_j71545565217396_2_alg».proof.Proof.LibSumBlocks
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.ResBlock Cert.KernelIdeal.KPay

variable (V : (c : Dev nD) → (b : Ref sig .tc) → Buf (Elt Ideal) ((c : Thread nD τ).loc b))

/-- The adder layer of a pixel matrix against TRANSPOSED weights. -/
def adderT (X : S65536x64.Idx → EReal) (WT : S64x64.Idx → EReal) : Fm :=
  fun n o => -(∑ cc : Fin 64, eabs (X (ix2 n cc) - WT (ix2 cc o)))

/-- Row r of point t's pixel block is pixel 512·t + r. -/
theorem iblk_x (c : Dev nD) (t : Fin cfg0.N) (r : Fin 512) (cc : Fin 64) (n : Fin 65536) (hn : n.val = t.val * 512 + r.val) :
    (iblk0 V c 0 t : S512x64.Idx → EReal) (ix2 r cc) = (V c main_v1 : S65536x64.Idx → EReal) (ix2 n cc) := by
  obtain ⟨e0, e1, -⟩ := idx_facts t
  unfold iblk0
  rw [View.read_apply]
  show V c main_v1 _ = V c main_v1 _
  refine congrArg _ (funext fun a => Fin.ext ?_)
  match a with
  | ⟨0, _⟩ => show win0_0.index t (0 : Fin 2) * 512 + 1 * r.val = n.val; rw [e0, hn]; omega
  | ⟨1, _⟩ => show win0_0.index t (1 : Fin 2) * 64 + 1 * cc.val = cc.val; rw [e1]; omega

/-- The weight window's block is the whole weight matrix at every point. -/
theorem iblk_w (c : Dev nD) (t : Fin cfg0.N) (cc o : Fin 64) :
    (iblk0 V c 1 t : S64x64.Idx → EReal) (ix2 cc o) = (V c main_v2 : S64x64.Idx → EReal) (ix2 cc o) := by
  obtain ⟨-, -, e2, e3, -⟩ := idx_facts t
  unfold iblk0
  rw [View.read_apply]
  show V c main_v2 _ = V c main_v2 _
  refine congrArg _ (funext fun a => Fin.ext ?_)
  match a with
  | ⟨0, _⟩ => show win0_1.index t (0 : Fin 2) * 64 + 1 * cc.val = cc.val; rw [e2]; omega
  | ⟨1, _⟩ => show win0_1.index t (1 : Fin 2) * 64 + 1 * o.val = o.val; rw [e3]; omega

/-- The adder block of point t at row r is the adder layer at pixel 512·t + r. -/
theorem pay3_at (c : Dev nD) (t : Fin cfg0.N) (r : Fin 512) (o : Fin 64) (n : Fin 65536) (hn : n.val = t.val * 512 + r.val) :
    k0_pay3 (iblk0 V c 0 t) (iblk0 V c 1 t) (ix2 r o) = adderT (V c main_v1) (V c main_v2) n o := by
  rw [k0_pay3_apply]
  unfold adderT
  refine congrArg Neg.neg (Finset.sum_congr rfl fun cc _ => ?_)
  rw [iblk_x V c t r cc n hn, iblk_w]

/-- The output array after the run is the adder layer. -/
theorem out_apply (c : Dev nD) (n : Fin 65536) (o : Fin 64) :
    ((dat0 V c).arrAt 2 cfg0.N : S65536x64.Idx → EReal) (ix2 n o) = adderT (V c main_v1) (V c main_v2) n o := by
  rw [final2]
  have hn := n.isLt
  show k0_pay3 (iblk0 V c 0 (pointOf (ix2 n o))) (iblk0 V c 1 (pointOf (ix2 n o))) (ix2 (⟨n.val % 512, Nat.mod_lt _ (by decide)⟩ : Fin 512) o) = _
  exact pay3_at V c _ _ o n (by show n.val = n.val / 512 * 512 + n.val % 512; omega)

/-! ## The accumulators -/

/-- The shifted layer output as a function of the pixel's number (zero past the last pixel). -/
def shiftedAt (K : EReal) (D : Fm) (o : Fin 64) (k : ℕ) : EReal := if h : k < 65536 then D ⟨k, h⟩ o - K else 0

theorem pay4_at (c : Dev nD) (t : Fin cfg0.N) (r : Fin 512) (o : Fin 64) :
    k0_pay4 (iblk0 V c 0 t) (iblk0 V c 1 t) (ix2 r o)
      = shiftedAt cK1 (adderT (V c main_v1) (V c main_v2)) o (t.val * 512 + r.val) := by
  have hN : cfg0.N = 128 := N_0
  have ht := t.isLt
  have hr := r.isLt
  have hlt : t.val * 512 + r.val < 65536 := by omega
  rw [k0_pay4_apply, pay3_at V c t r o ⟨_, hlt⟩ rfl]
  unfold shiftedAt
  rw [dif_pos hlt]

/-- After point n the accumulators hold the moments of the pixels of points 0 … n. -/
theorem accs_apply (c : Dev nD) (o : Fin 64) : ∀ (n : ℕ) (h : n < cfg0.N),
    (accs V c n h).1 (ix2 (0 : Fin 1) o)
        = ∑ t ∈ Finset.range (n + 1), ∑ r : Fin 512, shiftedAt cK1 (adderT (V c main_v1) (V c main_v2)) o (t * 512 + r.val)
    ∧ (accs V c n h).2 (ix2 (0 : Fin 1) o)
        = ∑ t ∈ Finset.range (n + 1), ∑ r : Fin 512, shiftedAt cK1 (adderT (V c main_v1) (V c main_v2)) o (t * 512 + r.val)
            * shiftedAt cK1 (adderT (V c main_v1) (V c main_v2)) o (t * 512 + r.val)
  | 0, h => by
    constructor
    · show k0_pay5 _ _ k0_pay1 (ix2 (0 : Fin 1) o) = _
      rw [k0_pay5_apply, k0_pay1_apply, zero_add, Finset.sum_range_one]
      exact Finset.sum_congr rfl fun r _ => pay4_at V c ⟨0, h⟩ r o
    · show k0_pay6 _ _ k0_pay2 (ix2 (0 : Fin 1) o) = _
      rw [k0_pay6_apply, k0_pay2_apply, zero_add, Finset.sum_range_one]
      exact Finset.sum_congr rfl fun r _ => by rw [pay4_at V c ⟨0, h⟩ r o]
  | n + 1, h => by
    obtain ⟨ih1, ih2⟩ := accs_apply c o n (Nat.lt_of_succ_lt h)
    constructor
    · show k0_pay5 _ _ (accs V c n _).1 (ix2 (0 : Fin 1) o) = _
      rw [k0_pay5_apply, ih1, Finset.sum_range_succ _ (n + 1)]
      exact congrArg _ (Finset.sum_congr rfl fun r _ => pay4_at V c ⟨n + 1, h⟩ r o)
    · show k0_pay6 _ _ (accs V c n _).2 (ix2 (0 : Fin 1) o) = _
      rw [k0_pay6_apply, ih2, Finset.sum_range_succ _ (n + 1)]
      exact congrArg _ (Finset.sum_congr rfl fun r _ => by rw [pay4_at V c ⟨n + 1, h⟩ r o])

/-- 128 blocks of 512 consecutive numbers are the numbers below 65536. -/
theorem sum_all (g : ℕ → EReal) : ∑ t ∈ Finset.range 128, ∑ r : Fin 512, g (t * 512 + r.val) = ∑ n : Fin 65536, g n.val := by
  rw [← Fin.sum_univ_eq_sum_range (fun t => ∑ r : Fin 512, g (t * 512 + r.val)) 128]
  exact (LibSumBlocks.sum_fin_nat_blocks 128 512 rfl g).symm

/-- The first-moment array after the run. -/
theorem sum_apply (c : Dev nD) (o : Fin 64) :
    ((dat0 V c).arrAt 3 cfg0.N : S1x64.Idx → EReal) (ix2 (0 : Fin 1) o) = shiftSum cK1 (adderT (V c main_v1) (V c main_v2)) o := by
  rw [final3]
  refine ((accs_apply V c o 127 tLast.isLt).1).trans ?_
  rw [sum_all]
  unfold shiftSum
  exact Finset.sum_congr rfl fun n _ => by unfold shiftedAt; rw [dif_pos n.isLt]

/-- The second-moment array after the run. -/
theorem sumsq_apply (c : Dev nD) (o : Fin 64) :
    ((dat0 V c).arrAt 4 cfg0.N : S1x64.Idx → EReal) (ix2 (0 : Fin 1) o) = shiftSq cK1 (adderT (V c main_v1) (V c main_v2)) o := by
  rw [final4]
  refine ((accs_apply V c o 127 tLast.isLt).2).trans ?_
  rw [sum_all (fun k => shiftedAt cK1 (adderT (V c main_v1) (V c main_v2)) o k * shiftedAt cK1 (adderT (V c main_v1) (V c main_v2)) o k)]
  unfold shiftSq
  exact Finset.sum_congr rfl fun n _ => by unfold shiftedAt; rw [dif_pos n.isLt]

end Cert.KernelIdeal.R0

end
-- ==== Proof.HostStretch.lean ====
/-
  The four stretches of host operations around the three kernels, each read at the buffers that are read next,
  for any contents W of the buffers when the stretch starts. Before the first kernel: the input laid out as a
  pixel matrix, and the two weight matrices transposed. Between kernels: the mean and variance rebuilt from the
  shifted moments, and the scale and shift vectors laid out as rows. After the last kernel: the pixel matrix laid
  back out as (batch, channel, row, column). A stretch leaves every buffer it does not write as it found it.
-/
import proofs.«134045_j71545565217396_2_alg».proof.Proof.Gen.KernelIdeal.Frame
import proofs.«134045_j71545565217396_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Host

open Cert.KernelIdeal Cert.KernelIdeal.Gen Cert.ResBlock

variable (W : Valuation τ sig (Elt Ideal))

/-! ## Before the first kernel -/

/-- The input, transposed to (batch, row, column, channel) and flattened, is the pixel matrix. -/
theorem x_flat (n : Fin 65536) (cc : Fin 64) :
    (StableHlo.after (hostOps0 (F := Ideal)) W (Proc.devRef .tc main_v1) : S65536x64.Idx → EReal) (ix2 n cc)
      = flat (W (Proc.devRef .tc main_arg0)) n cc := by
  have e : (StableHlo.after (hostOps0 (F := Ideal)) W (Proc.devRef .tc main_v1) : S65536x64.Idx → EReal)
      = shapeCast S65536x64 (transpose S16x64x64x64 [0, 2, 3, 1] (W (Proc.devRef .tc main_arg0)) transposes_S16x64x64x64_S16x64x64x64_0_2_3_1) shapeCasts_S16x64x64x64_S65536x64 := by
    dsimp only [hostOps0]; after_results <;> rfl
  rw [e]
  have hn := n.isLt
  rw [shapeCast_apply _ _ _ (ix4 (⟨n.val / 4096, by omega⟩ : Fin 16) (⟨n.val / 64 % 64, by omega⟩ : Fin 64) (⟨n.val % 64, by omega⟩ : Fin 64) cc) (by
    rw [Shape.rowMajor_val_four, Shape.rowMajor_val_two]
    show ((n.val / 4096 * 64 + n.val / 64 % 64) * 64 + n.val % 64) * 64 + cc.val = n.val * 64 + cc.val
    omega)]
  rw [transpose_apply _ _ _ _ (ix4 (⟨n.val / 4096, by omega⟩ : Fin 16) cc (⟨n.val / 64 % 64, by omega⟩ : Fin 64) (⟨n.val % 64, by omega⟩ : Fin 64)) (fun b => by
    match b with
    | ⟨0, _⟩ => rfl
    | ⟨1, _⟩ => rfl
    | ⟨2, _⟩ => rfl
    | ⟨3, _⟩ => rfl)]
  rfl

/-- The first weight matrix, transposed. -/
theorem w1T (cc o : Fin 64) :
    (StableHlo.after (hostOps0 (F := Ideal)) W (Proc.devRef .tc main_v2) : S64x64.Idx → EReal) (ix2 cc o)
      = mat (W (Proc.devRef .tc main_arg1)) o cc := by
  have e : (StableHlo.after (hostOps0 (F := Ideal)) W (Proc.devRef .tc main_v2) : S64x64.Idx → EReal)
      = transpose S64x64 [1, 0] (W (Proc.devRef .tc main_arg1)) transposes_S64x64_S64x64_1_0 := by
    dsimp only [hostOps0]; after_results <;> rfl
  rw [e]
  exact transpose_ix2_apply _ _ cc o

/-- The second weight matrix, transposed. -/
theorem w2T (cc o : Fin 64) :
    (StableHlo.after (hostOps0 (F := Ideal)) W (Proc.devRef .tc main_v3) : S64x64.Idx → EReal) (ix2 cc o)
      = mat (W (Proc.devRef .tc main_arg4)) o cc := by
  have e : (StableHlo.after (hostOps0 (F := Ideal)) W (Proc.devRef .tc main_v3) : S64x64.Idx → EReal)
      = transpose S64x64 [1, 0] (W (Proc.devRef .tc main_arg4)) transposes_S64x64_S64x64_1_0 := by
    dsimp only [hostOps0]; after_results <;> rfl
  rw [e]
  exact transpose_ix2_apply _ _ cc o

theorem keep0_arg2 : StableHlo.after (hostOps0 (F := Ideal)) W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem keep0_arg3 : StableHlo.after (hostOps0 (F := Ideal)) W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem keep0_arg5 : StableHlo.after (hostOps0 (F := Ideal)) W (Proc.devRef .tc main_arg5) = W (Proc.devRef .tc main_arg5) :=
  StableHlo.after_of_forall_not_mem _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem keep0_arg6 : StableHlo.after (hostOps0 (F := Ideal)) W (Proc.devRef .tc main_arg6) = W (Proc.devRef .tc main_arg6) :=
  StableHlo.after_of_forall_not_mem _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## Between the first and the second kernel -/

/-- The mean the next kernel reads: the first shifted moment divided by the pixel count, the shift added back. -/
theorem mean1 (o : Fin 64) :
    (StableHlo.after (hostOps1 (F := Ideal)) W (Proc.devRef .tc main_v12) : S1x64.Idx → EReal) (ix2 (0 : Fin 1) o)
      = Ideal.div ((W (Proc.devRef .tc main_v4_1) : S1x64.Idx → EReal) (ix2 (0 : Fin 1) o)) cN + cK1 := by
  have e : (StableHlo.after (hostOps1 (F := Ideal)) W (Proc.devRef .tc main_v12) : S1x64.Idx → EReal)
      = addf (Host.divf (W (Proc.devRef .tc main_v4_1)) (broadcastInDim S1x64 ![] bcast_S_S1x64 (constant (F := Ideal) S_ .f32 0x47800000#32))) (broadcastInDim S1x64 ![] bcast_S_S1x64 (constant (F := Ideal) S_ .f32 0xC24C422A#32)) := by
    dsimp only [hostOps1]; after_results <;> rfl
  rw [e]
  simp only [addf, Host.divf, broadcastInDim, constant, Ideal.hostDivf_def, Ideal.addf_def, Ideal.ofBits_def, cN, cK1]

/-- The variance the next kernel reads: the second shifted moment over the count, minus the square of the first. -/
theorem var1 (o : Fin 64) :
    (StableHlo.after (hostOps1 (F := Ideal)) W (Proc.devRef .tc main_v10) : S1x64.Idx → EReal) (ix2 (0 : Fin 1) o)
      = Ideal.div ((W (Proc.devRef .tc main_v4_2) : S1x64.Idx → EReal) (ix2 (0 : Fin 1) o)) cN
        - Ideal.div ((W (Proc.devRef .tc main_v4_1) : S1x64.Idx → EReal) (ix2 (0 : Fin 1) o)) cN
          * Ideal.div ((W (Proc.devRef .tc main_v4_1) : S1x64.Idx → EReal) (ix2 (0 : Fin 1) o)) cN := by
  have e : (StableHlo.after (hostOps1 (F := Ideal)) W (Proc.devRef .tc main_v10) : S1x64.Idx → EReal)
      = subf (Host.divf (W (Proc.devRef .tc main_v4_2)) (broadcastInDim S1x64 ![] bcast_S_S1x64 (constant (F := Ideal) S_ .f32 0x47800000#32)))
          (mulf (Host.divf (W (Proc.devRef .tc main_v4_1)) (broadcastInDim S1x64 ![] bcast_S_S1x64 (constant (F := Ideal) S_ .f32 0x47800000#32))) (Host.divf (W (Proc.devRef .tc main_v4_1)) (broadcastInDim S1x64 ![] bcast_S_S1x64 (constant (F := Ideal) S_ .f32 0x47800000#32)))) := by
    dsimp only [hostOps1]; after_results <;> rfl
  rw [e]
  simp only [subf, mulf, Host.divf, broadcastInDim, constant, Ideal.hostDivf_def, Ideal.subf_def, Ideal.mulf_def, Ideal.ofBits_def, cN]

/-- The scale vector laid out as a row. -/
theorem gamma1 (o : Fin 64) :
    (StableHlo.after (hostOps1 (F := Ideal)) W (Proc.devRef .tc main_v13) : S1x64.Idx → EReal) (ix2 (0 : Fin 1) o)
      = vec (W (Proc.devRef .tc main_arg2)) o := by
  have e : (StableHlo.after (hostOps1 (F := Ideal)) W (Proc.devRef .tc main_v13) : S1x64.Idx → EReal)
      = shapeCast S1x64 (W (Proc.devRef .tc main_arg2) : S64.Idx → EReal) shapeCasts_S64_S1x64 := by
    dsimp only [hostOps1]; after_results <;> rfl
  rw [e]
  exact shapeCast_a_1a_apply _ _ (0 : Fin 1) o

/-- The shift vector laid out as a row. -/
theorem beta1 (o : Fin 64) :
    (StableHlo.after (hostOps1 (F := Ideal)) W (Proc.devRef .tc main_v14) : S1x64.Idx → EReal) (ix2 (0 : Fin 1) o)
      = vec (W (Proc.devRef .tc main_arg3)) o := by
  have e : (StableHlo.after (hostOps1 (F := Ideal)) W (Proc.devRef .tc main_v14) : S1x64.Idx → EReal)
      = shapeCast S1x64 (W (Proc.devRef .tc main_arg3) : S64.Idx → EReal) shapeCasts_S64_S1x64 := by
    dsimp only [hostOps1]; after_results <;> rfl
  rw [e]
  exact shapeCast_a_1a_apply _ _ (0 : Fin 1) o

theorem keep1_h1 : StableHlo.after (hostOps1 (F := Ideal)) W (Proc.devRef .tc main_v4_0) = W (Proc.devRef .tc main_v4_0) :=
  StableHlo.after_of_forall_not_mem _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem keep1_w2T : StableHlo.after (hostOps1 (F := Ideal)) W (Proc.devRef .tc main_v3) = W (Proc.devRef .tc main_v3) :=
  StableHlo.after_of_forall_not_mem _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem keep1_x : StableHlo.after (hostOps1 (F := Ideal)) W (Proc.devRef .tc main_v1) = W (Proc.devRef .tc main_v1) :=
  StableHlo.after_of_forall_not_mem _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem keep1_arg5 : StableHlo.after (hostOps1 (F := Ideal)) W (Proc.devRef .tc main_arg5) = W (Proc.devRef .tc main_arg5) :=
  StableHlo.after_of_forall_not_mem _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem keep1_arg6 : StableHlo.after (hostOps1 (F := Ideal)) W (Proc.devRef .tc main_arg6) = W (Proc.devRef .tc main_arg6) :=
  StableHlo.after_of_forall_not_mem _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-! ## Between the second and the third kernel -/

/-- The mean the next kernel reads: the first shifted moment divided by the pixel count, the shift added back. -/
theorem mean2 (o : Fin 64) :
    (StableHlo.after (hostOps2 (F := Ideal)) W (Proc.devRef .tc main_v23) : S1x64.Idx → EReal) (ix2 (0 : Fin 1) o)
      = Ideal.div ((W (Proc.devRef .tc main_v15_1) : S1x64.Idx → EReal) (ix2 (0 : Fin 1) o)) cN + cK2 := by
  have e : (StableHlo.after (hostOps2 (F := Ideal)) W (Proc.devRef .tc main_v23) : S1x64.Idx → EReal)
      = addf (Host.divf (W (Proc.devRef .tc main_v15_1)) (broadcastInDim S1x64 ![] bcast_S_S1x64 (constant (F := Ideal) S_ .f32 0x47800000#32))) (broadcastInDim S1x64 ![] bcast_S_S1x64 (constant (F := Ideal) S_ .f32 0xC1CC422A#32)) := by
    dsimp only [hostOps2]; after_results <;> rfl
  rw [e]
  simp only [addf, Host.divf, broadcastInDim, constant, Ideal.hostDivf_def, Ideal.addf_def, Ideal.ofBits_def, cN, cK2]

/-- The variance the next kernel reads: the second shifted moment over the count, minus the square of the first. -/
theorem var2 (o : Fin 64) :
    (StableHlo.after (hostOps2 (F := Ideal)) W (Proc.devRef .tc main_v21) : S1x64.Idx → EReal) (ix2 (0 : Fin 1) o)
      = Ideal.div ((W (Proc.devRef .tc main_v15_2) : S1x64.Idx → EReal) (ix2 (0 : Fin 1) o)) cN
        - Ideal.div ((W (Proc.devRef .tc main_v15_1) : S1x64.Idx → EReal) (ix2 (0 : Fin 1) o)) cN
          * Ideal.div ((W (Proc.devRef .tc main_v15_1) : S1x64.Idx → EReal) (ix2 (0 : Fin 1) o)) cN := by
  have e : (StableHlo.after (hostOps2 (F := Ideal)) W (Proc.devRef .tc main_v21) : S1x64.Idx → EReal)
      = subf (Host.divf (W (Proc.devRef .tc main_v15_2)) (broadcastInDim S1x64 ![] bcast_S_S1x64 (constant (F := Ideal) S_ .f32 0x47800000#32)))
          (mulf (Host.divf (W (Proc.devRef .tc main_v15_1)) (broadcastInDim S1x64 ![] bcast_S_S1x64 (constant (F := Ideal) S_ .f32 0x47800000#32))) (Host.divf (W (Proc.devRef .tc main_v15_1)) (broadcastInDim S1x64 ![] bcast_S_S1x64 (constant (F := Ideal) S_ .f32 0x47800000#32)))) := by
    dsimp only [hostOps2]; after_results <;> rfl
  rw [e]
  simp only [subf, mulf, Host.divf, broadcastInDim, constant, Ideal.hostDivf_def, Ideal.subf_def, Ideal.mulf_def, Ideal.ofBits_def, cN]

/-- The scale vector laid out as a row. -/
theorem gamma2 (o : Fin 64) :
    (StableHlo.after (hostOps2 (F := Ideal)) W (Proc.devRef .tc main_v24) : S1x64.Idx → EReal) (ix2 (0 : Fin 1) o)
      = vec (W (Proc.devRef .tc main_arg5)) o := by
  have e : (StableHlo.after (hostOps2 (F := Ideal)) W (Proc.devRef .tc main_v24) : S1x64.Idx → EReal)
      = shapeCast S1x64 (W (Proc.devRef .tc main_arg5) : S64.Idx → EReal) shapeCasts_S64_S1x64 := by
    dsimp only [hostOps2]; after_results <;> rfl
  rw [e]
  exact shapeCast_a_1a_apply _ _ (0 : Fin 1) o

/-- The shift vector laid out as a row. -/
theorem beta2 (o : Fin 64) :
    (StableHlo.after (hostOps2 (F := Ideal)) W (Proc.devRef .tc main_v25) : S1x64.Idx → EReal) (ix2 (0 : Fin 1) o)
      = vec (W (Proc.devRef .tc main_arg6)) o := by
  have e : (StableHlo.after (hostOps2 (F := Ideal)) W (Proc.devRef .tc main_v25) : S1x64.Idx → EReal)
      = shapeCast S1x64 (W (Proc.devRef .tc main_arg6) : S64.Idx → EReal) shapeCasts_S64_S1x64 := by
    dsimp only [hostOps2]; after_results <;> rfl
  rw [e]
  exact shapeCast_a_1a_apply _ _ (0 : Fin 1) o

theorem keep2_h2 : StableHlo.after (hostOps2 (F := Ideal)) W (Proc.devRef .tc main_v15_0) = W (Proc.devRef .tc main_v15_0) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

theorem keep2_x : StableHlo.after (hostOps2 (F := Ideal)) W (Proc.devRef .tc main_v1) = W (Proc.devRef .tc main_v1) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

/-! ## After the third kernel -/

/-- The result: the pixel matrix laid out as (batch, row, column, channel) and transposed to (batch, channel, row, column). -/
theorem out_apply (b : Fin 16) (o : Fin 64) (h w : Fin 64) :
    (StableHlo.after (hostOps3 (F := Ideal)) W (Proc.devRef .tc main_v28) : S16x64x64x64.Idx → EReal) (ix4 b o h w)
      = (W (Proc.devRef .tc main_v26) : S65536x64.Idx → EReal) (ix2 (pix b h w) o) := by
  have e : (StableHlo.after (hostOps3 (F := Ideal)) W (Proc.devRef .tc main_v28) : S16x64x64x64.Idx → EReal)
      = transpose S16x64x64x64 [0, 3, 1, 2] (shapeCast S16x64x64x64 (W (Proc.devRef .tc main_v26) : S65536x64.Idx → EReal) shapeCasts_S65536x64_S16x64x64x64) transposes_S16x64x64x64_S16x64x64x64_0_3_1_2 := by
    dsimp only [hostOps3]; after_results <;> rfl
  rw [e]
  rw [transpose_apply _ _ _ _ (ix4 b h w o) (fun a => by
    match a with
    | ⟨0, _⟩ => rfl
    | ⟨1, _⟩ => rfl
    | ⟨2, _⟩ => rfl
    | ⟨3, _⟩ => rfl)]
  rw [shapeCast_apply _ _ _ (ix2 (pix b h w) o) (by
    rw [Shape.rowMajor_val_four, Shape.rowMajor_val_two]
    rfl)]

end Cert.KernelIdeal.Host

end
-- ==== Proof.Chain0.lean ====
/-
  The contents of the buffers the second kernel reads, in terms of the argument arrays. Through the first
  stretch of host operations, the first kernel and the second stretch: the first layer's output is the adder
  layer d₁ of the pixel matrix against the first weights; the mean and variance the second kernel is handed are
  the shifted-moment forms of d₁'s mean and variance; the scale and shift are the argument vectors; the second
  weights arrive transposed.
-/
import proofs.«134045_j71545565217396_2_alg».proof.Proof.Value0
import proofs.«134045_j71545565217396_2_alg».proof.Proof.HostStretch

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.ResBlock

variable (m : (ℓ : Loc nD τ sig) → Buf (Elt Ideal) ℓ) (ρ : Dev nD → PrngReg) (c : Dev nD)

/-- The input array, the weights, the scales and shifts, as launched. -/
abbrev aX : S16x64x64x64.Idx → EReal := m ((c.tc : Thread nD τ).loc main_arg0)
abbrev aW1 : S64x64.Idx → EReal := m ((c.tc : Thread nD τ).loc main_arg1)
abbrev aG1 : S64.Idx → EReal := m ((c.tc : Thread nD τ).loc main_arg2)
abbrev aB1 : S64.Idx → EReal := m ((c.tc : Thread nD τ).loc main_arg3)
abbrev aW2 : S64x64.Idx → EReal := m ((c.tc : Thread nD τ).loc main_arg4)
abbrev aG2 : S64.Idx → EReal := m ((c.tc : Thread nD τ).loc main_arg5)
abbrev aB2 : S64.Idx → EReal := m ((c.tc : Thread nD τ).loc main_arg6)

/-- The first layer's output. -/
abbrev D1 : Fm := adder (flat (aX m c)) (mat (aW1 m c))

/-! ## At the first kernel's entry -/

theorem v1_x (n : Fin 65536) (cc : Fin 64) :
    (V1 m ρ c main_v1 : S65536x64.Idx → EReal) (ix2 n cc) = flat (aX m c) n cc :=
  Host.x_flat (W0 m ρ c) n cc

theorem v1_w1T (cc o : Fin 64) : (V1 m ρ c main_v2 : S64x64.Idx → EReal) (ix2 cc o) = mat (aW1 m c) o cc :=
  Host.w1T (W0 m ρ c) cc o

theorem v1_w2T (cc o : Fin 64) : (V1 m ρ c main_v3 : S64x64.Idx → EReal) (ix2 cc o) = mat (aW2 m c) o cc :=
  Host.w2T (W0 m ρ c) cc o

/-- The adder layer against the transposed weights the kernel reads is the adder layer of the specification. -/
theorem d1_eq : R0.adderT (V1 m ρ c main_v1) (V1 m ρ c main_v2) = D1 m c := by
  funext n o
  show R0.adderT _ _ n o = adder (flat (aX m c)) (mat (aW1 m c)) n o
  unfold R0.adderT adder
  refine congrArg Neg.neg (Finset.sum_congr rfl fun cc _ => ?_)
  rw [v1_x, v1_w1T]

/-! ## At the first kernel's exit -/

theorem v2_h1 (n : Fin 65536) (o : Fin 64) :
    (W2 m ρ c (Proc.devRef .tc main_v4_0) : S65536x64.Idx → EReal) (ix2 n o) = D1 m c n o := by
  have e := W2_arr m ρ c 2
  have e' : (W2 m ρ c (Proc.devRef .tc main_v4_0) : S65536x64.Idx → EReal) = ((dat0 (V1 m ρ) c).arrAt 2 cfg0.N : S65536x64.Idx → EReal) := e
  rw [e', R0.out_apply (V1 m ρ) c n o, d1_eq]

theorem v2_sum (o : Fin 64) :
    (W2 m ρ c (Proc.devRef .tc main_v4_1) : S1x64.Idx → EReal) (ix2 (0 : Fin 1) o) = shiftSum cK1 (D1 m c) o := by
  have e' : (W2 m ρ c (Proc.devRef .tc main_v4_1) : S1x64.Idx → EReal) = ((dat0 (V1 m ρ) c).arrAt 3 cfg0.N : S1x64.Idx → EReal) := W2_arr m ρ c 3
  rw [e', R0.sum_apply (V1 m ρ) c o, d1_eq]

theorem v2_sumsq (o : Fin 64) :
    (W2 m ρ c (Proc.devRef .tc main_v4_2) : S1x64.Idx → EReal) (ix2 (0 : Fin 1) o) = shiftSq cK1 (D1 m c) o := by
  have e' : (W2 m ρ c (Proc.devRef .tc main_v4_2) : S1x64.Idx → EReal) = ((dat0 (V1 m ρ) c).arrAt 4 cfg0.N : S1x64.Idx → EReal) := W2_arr m ρ c 4
  rw [e', R0.sumsq_apply (V1 m ρ) c o, d1_eq]

/-- The pixel matrix is an input of the first kernel: it leaves as it entered. -/
theorem v2_x : W2 m ρ c (Proc.devRef .tc main_v1) = W1 m ρ c (Proc.devRef .tc main_v1) :=
  (W2_arr m ρ c 0).trans ((dat0 (V1 m ρ) c).arrAt_in 0 rfl _)

theorem v2_w2T : W2 m ρ c (Proc.devRef .tc main_v3) = W1 m ρ c (Proc.devRef .tc main_v3) :=
  W2_of_ne m ρ c main_v3 (by decide)

theorem v2_arg2 : W2 m ρ c (Proc.devRef .tc main_arg2) = m ((c.tc : Thread nD τ).loc main_arg2) :=
  (W2_of_ne m ρ c main_arg2 (by decide)).trans (Host.keep0_arg2 (W0 m ρ c))
theorem v2_arg3 : W2 m ρ c (Proc.devRef .tc main_arg3) = m ((c.tc : Thread nD τ).loc main_arg3) :=
  (W2_of_ne m ρ c main_arg3 (by decide)).trans (Host.keep0_arg3 (W0 m ρ c))
theorem v2_arg5 : W2 m ρ c (Proc.devRef .tc main_arg5) = m ((c.tc : Thread nD τ).loc main_arg5) :=
  (W2_of_ne m ρ c main_arg5 (by decide)).trans (Host.keep0_arg5 (W0 m ρ c))
theorem v2_arg6 : W2 m ρ c (Proc.devRef .tc main_arg6) = m ((c.tc : Thread nD τ).loc main_arg6) :=
  (W2_of_ne m ρ c main_arg6 (by decide)).trans (Host.keep0_arg6 (W0 m ρ c))

/-! ## At the second kernel's entry -/

theorem v3_mean (o : Fin 64) :
    (V3 m ρ c main_v12 : S1x64.Idx → EReal) (ix2 (0 : Fin 1) o) = meanK cK1 (D1 m c) o := by
  rw [show (V3 m ρ c main_v12 : S1x64.Idx → EReal) (ix2 (0 : Fin 1) o) = _ from Host.mean1 (W2 m ρ c) o, v2_sum]
  rfl

theorem v3_var (o : Fin 64) :
    (V3 m ρ c main_v10 : S1x64.Idx → EReal) (ix2 (0 : Fin 1) o) = varK cK1 (D1 m c) o := by
  rw [show (V3 m ρ c main_v10 : S1x64.Idx → EReal) (ix2 (0 : Fin 1) o) = _ from Host.var1 (W2 m ρ c) o, v2_sum, v2_sumsq]
  rfl

theorem v3_gamma (o : Fin 64) : (V3 m ρ c main_v13 : S1x64.Idx → EReal) (ix2 (0 : Fin 1) o) = vec (aG1 m c) o := by
  rw [show (V3 m ρ c main_v13 : S1x64.Idx → EReal) (ix2 (0 : Fin 1) o) = _ from Host.gamma1 (W2 m ρ c) o, v2_arg2]

theorem v3_beta (o : Fin 64) : (V3 m ρ c main_v14 : S1x64.Idx → EReal) (ix2 (0 : Fin 1) o) = vec (aB1 m c) o := by
  rw [show (V3 m ρ c main_v14 : S1x64.Idx → EReal) (ix2 (0 : Fin 1) o) = _ from Host.beta1 (W2 m ρ c) o, v2_arg3]

theorem v3_h1 (n : Fin 65536) (o : Fin 64) :
    (V3 m ρ c main_v4_0 : S65536x64.Idx → EReal) (ix2 n o) = D1 m c n o := by
  rw [show (V3 m ρ c main_v4_0 : S65536x64.Idx → EReal) = W2 m ρ c (Proc.devRef .tc main_v4_0) from Host.keep1_h1 (W2 m ρ c)]
  exact v2_h1 m ρ c n o

theorem v3_w2T (cc o : Fin 64) : (V3 m ρ c main_v3 : S64x64.Idx → EReal) (ix2 cc o) = mat (aW2 m c) o cc := by
  rw [show (V3 m ρ c main_v3 : S64x64.Idx → EReal) = W2 m ρ c (Proc.devRef .tc main_v3) from Host.keep1_w2T (W2 m ρ c), v2_w2T]
  exact v1_w2T m ρ c cc o

theorem v3_x : W3 m ρ c (Proc.devRef .tc main_v1) = W1 m ρ c (Proc.devRef .tc main_v1) :=
  (Host.keep1_x (W2 m ρ c)).trans (v2_x m ρ c)
theorem v3_arg5 : W3 m ρ c (Proc.devRef .tc main_arg5) = m ((c.tc : Thread nD τ).loc main_arg5) :=
  (Host.keep1_arg5 (W2 m ρ c)).trans (v2_arg5 m ρ c)
theorem v3_arg6 : W3 m ρ c (Proc.devRef .tc main_arg6) = m ((c.tc : Thread nD τ).loc main_arg6) :=
  (Host.keep1_arg6 (W2 m ρ c)).trans (v2_arg6 m ρ c)

end Cert.KernelIdeal.Chain

end
-- ==== Proof.Region1.lean ====
/-
  The second adder kernel, read off its run. At every grid point the body normalises and rectifies the
  point's block of the first layer's output, leaves the adder layer of the result in the output block, and
  adds the block's first and second shifted moments to the two one-row accumulators, which the first point
  resets to zero first. After point n the accumulators hold the moments of all pixels of points 0 … n.
-/
import proofs.«134045_j71545565217396_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]

theorem hz : (![0, 0] : Fin 2 → Nat) = fun _ => 0 := funext fun a => by fin_cases a <;> rfl

/-! ## What each case of the body leaves in each output's buffer -/

theorem out_A_6 (c : Dev nD) (i : grid1.Coords) (a1 : Memref sig .tc .vmem S512x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S512x64 .f32) (h7 : a7.IsWhole) (a8 : Memref sig .tc .vmem S1x64 .f32) (h8 : a8.IsWhole) (a9 : Memref sig .tc .vmem S1x64 .f32) (h9 : a9.IsWhole) (hc : cond1_0 i) (x0 : Vec F S512x64 .f32) (x1 x2 x3 x4 : Vec F S1x64 .f32) (x5 : Vec F S64x64 .f32) :
    out1_A_6 c i a1 h1 a2 h2 a3 h3 a4 h4 a5 h5 a6 h6 a7 h7 a8 h8 a9 h9 hc x0 x1 x2 x3 x4 x5 = k1_pay6 x0 x1 x2 x3 x4 x5 := by
  unfold out1_A_6
  rw [View.read_writes_eq_canon _ _ _ (cover1_A_6 c i a1 h1 a2 h2 a3 h3 a4 h4 a5 h5 a6 h6 a7 h7 a8 h8 a9 h9 hc x0 x1 x2 x3 x4 x5)]
  unfold kernelRun1_A
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S512x64) hz, View.ld_unit_zero (S := S64x64) hz, View.ld_unit_zero (S := S1x64) hz]

theorem out_B_6 (c : Dev nD) (i : grid1.Coords) (a1 : Memref sig .tc .vmem S512x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S512x64 .f32) (h7 : a7.IsWhole) (a8 : Memref sig .tc .vmem S1x64 .f32) (h8 : a8.IsWhole) (a9 : Memref sig .tc .vmem S1x64 .f32) (h9 : a9.IsWhole) (hc : ¬cond1_0 i) (x0 : Vec F S512x64 .f32) (x1 x2 x3 x4 : Vec F S1x64 .f32) (x5 : Vec F S64x64 .f32) (xo7 xo8 : Vec F S1x64 .f32) :
    out1_B_6 c i a1 h1 a2 h2 a3 h3 a4 h4 a5 h5 a6 h6 a7 h7 a8 h8 a9 h9 hc x0 x1 x2 x3 x4 x5 xo7 xo8 = k1_pay6 x0 x1 x2 x3 x4 x5 := by
  unfold out1_B_6
  rw [View.read_writes_eq_canon _ _ _ (cover1_B_6 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S512x64) hz, View.ld_unit_zero (S := S64x64) hz, View.ld_unit_zero (S := S1x64) hz]

theorem out_B_7 (c : Dev nD) (i : grid1.Coords) (a1 : Memref sig .tc .vmem S512x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S512x64 .f32) (h7 : a7.IsWhole) (a8 : Memref sig .tc .vmem S1x64 .f32) (h8 : a8.IsWhole) (a9 : Memref sig .tc .vmem S1x64 .f32) (h9 : a9.IsWhole) (hc : ¬cond1_0 i) (x0 : Vec F S512x64 .f32) (x1 x2 x3 x4 : Vec F S1x64 .f32) (x5 : Vec F S64x64 .f32) (xo7 xo8 : Vec F S1x64 .f32) :
    out1_B_7 c i a1 h1 a2 h2 a3 h3 a4 h4 a5 h5 a6 h6 a7 h7 a8 h8 a9 h9 hc x0 x1 x2 x3 x4 x5 xo7 xo8 = k1_pay2 (k1_pay6 x0 x1 x2 x3 x4 x5) xo7 := by
  unfold out1_B_7
  rw [View.read_writes_eq_canon _ _ _ (cover1_B_7 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S512x64) hz, View.ld_unit_zero (S := S64x64) hz, View.ld_unit_zero (S := S1x64) hz]

theorem out_B_8 (c : Dev nD) (i : grid1.Coords) (a1 : Memref sig .tc .vmem S512x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S512x64 .f32) (h7 : a7.IsWhole) (a8 : Memref sig .tc .vmem S1x64 .f32) (h8 : a8.IsWhole) (a9 : Memref sig .tc .vmem S1x64 .f32) (h9 : a9.IsWhole) (hc : ¬cond1_0 i) (x0 : Vec F S512x64 .f32) (x1 x2 x3 x4 : Vec F S1x64 .f32) (x5 : Vec F S64x64 .f32) (xo7 xo8 : Vec F S1x64 .f32) :
    out1_B_8 c i a1 h1 a2 h2 a3 h3 a4 h4 a5 h5 a6 h6 a7 h7 a8 h8 a9 h9 hc x0 x1 x2 x3 x4 x5 xo7 xo8 = k1_pay3 (k1_pay6 x0 x1 x2 x3 x4 x5) xo8 := by
  unfold out1_B_8
  rw [View.read_writes_eq_canon _ _ _ (cover1_B_8 c i a1 h1 a2 h2 a3 h3 a4 h4 a5 h5 a6 h6 a7 h7 a8 h8 a9 h9 hc x0 x1 x2 x3 x4 x5 xo7 xo8)]
  unfold kernelRun1_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S512x64) hz, View.ld_unit_zero (S := S64x64) hz, View.ld_unit_zero (S := S1x64) hz]

theorem out_A_7 (c : Dev nD) (i : grid1.Coords) (a1 : Memref sig .tc .vmem S512x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S512x64 .f32) (h7 : a7.IsWhole) (a8 : Memref sig .tc .vmem S1x64 .f32) (h8 : a8.IsWhole) (a9 : Memref sig .tc .vmem S1x64 .f32) (h9 : a9.IsWhole) (hc : cond1_0 i) (x0 : Vec F S512x64 .f32) (x1 x2 x3 x4 : Vec F S1x64 .f32) (x5 : Vec F S64x64 .f32) :
    out1_A_7 c i a1 h1 a2 h2 a3 h3 a4 h4 a5 h5 a6 h6 a7 h7 a8 h8 a9 h9 hc x0 x1 x2 x3 x4 x5 = k1_pay2 (k1_pay6 x0 x1 x2 x3 x4 x5) k1_pay4 := by
  unfold out1_A_7
  rw [View.read_writes_eq_canon _ _ _ (cover1_A_7 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h8.read_unread, h9.read_unread, View.ld_unit_zero (S := S512x64) hz, View.ld_unit_zero (S := S64x64) hz, View.ld_unit_zero (S := S1x64) hz]

theorem out_A_8 (c : Dev nD) (i : grid1.Coords) (a1 : Memref sig .tc .vmem S512x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S64x64 .f32) (h6 : a6.IsWhole) (a7 : Memref sig .tc .vmem S512x64 .f32) (h7 : a7.IsWhole) (a8 : Memref sig .tc .vmem S1x64 .f32) (h8 : a8.IsWhole) (a9 : Memref sig .tc .vmem S1x64 .f32) (h9 : a9.IsWhole) (hc : cond1_0 i) (x0 : Vec F S512x64 .f32) (x1 x2 x3 x4 : Vec F S1x64 .f32) (x5 : Vec F S64x64 .f32) :
    out1_A_8 c i a1 h1 a2 h2 a3 h3 a4 h4 a5 h5 a6 h6 a7 h7 a8 h8 a9 h9 hc x0 x1 x2 x3 x4 x5 = k1_pay3 (k1_pay6 x0 x1 x2 x3 x4 x5) k1_pay5 := by
  unfold out1_A_8
  rw [View.read_writes_eq_canon _ _ _ (cover1_A_8 c i a1 h1 a2 h2 a3 h3 a4 h4 a5 h5 a6 h6 a7 h7 a8 h8 a9 h9 hc x0 x1 x2 x3 x4 x5)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h8.read_unread, h9.read_unread, View.ld_unit_zero (S := S512x64) hz, View.ld_unit_zero (S := S64x64) hz, View.ld_unit_zero (S := S1x64) hz]

/-! ## The accumulators after point n -/

variable (V : (c : Dev nD) → (b : Ref sig .tc) → Buf (Elt F) ((c : Thread nD τ).loc b))

/-- The adder block the body computes at point t, from the point's input blocks. -/
def blockAt (c : Dev nD) (t : Fin cfg1.N) : Vec F S512x64 .f32 :=
  k1_pay6 (iblk1 V c 0 t) (iblk1 V c 1 t) (iblk1 V c 2 t) (iblk1 V c 3 t) (iblk1 V c 4 t) (iblk1 V c 5 t)

/-- The two accumulators after point n: reset then one block at point 0, one more block per later point. -/
def accs (c : Dev nD) : (n : ℕ) → n < cfg1.N → Vec F S1x64 .f32 × Vec F S1x64 .f32
  | 0, h => (k1_pay2 (blockAt V c ⟨0, h⟩) k1_pay4, k1_pay3 (blockAt V c ⟨0, h⟩) k1_pay5)
  | n + 1, h => (k1_pay2 (blockAt V c ⟨n + 1, h⟩) (accs c n (Nat.lt_of_succ_lt h)).1,
                 k1_pay3 (blockAt V c ⟨n + 1, h⟩) (accs c n (Nat.lt_of_succ_lt h)).2)

/-- What the three output buffers hold after point n: the point's adder block and the running accumulators. -/
theorem outsAt_eq (c : Dev nD) : ∀ (n : ℕ) (h : n < cfg1.N),
    outsAt1 V c n h = (blockAt V c ⟨n, h⟩, (accs V c n h).1, (accs V c n h).2)
  | 0, h => by
    rw [outsAt1_A V c ⟨0, h⟩ rfl, out_A_6, out_A_7, out_A_8]
    rfl
  | n + 1, h => by
    have hN : cfg1.N = 128 := N_1
    have hB : ¬(⟨n + 1, h⟩ : Fin cfg1.N).val % 128 = 0 := by dsimp only; omega
    rw [outsAt1_B V c ⟨n + 1, h⟩ hB, out_B_6, out_B_7, out_B_8]
    have e := outsAt_eq c n (Nat.lt_of_succ_lt h)
    show (_, k1_pay2 _ (outsAt1 V c n _).2.1, k1_pay3 _ (outsAt1 V c n _).2.2) = _
    rw [e]
    rfl

end Cert.KernelIdeal.R1

end
-- ==== Proof.Arrays1.lean ====
/-
  The second adder kernel's three result arrays after the whole grid has run. The output array is written back
  block by block, point t's 512 rows at rows 512·t … 512·t + 511, and every row lies in exactly one block; the
  two accumulator rows are written back once, after the last point, so they end at the running accumulators
  after point 127.
-/
import proofs.«134045_j71545565217396_2_alg».proof.Proof.Region1
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable {F : FTy → Type} [FloatOps F]
variable (V : (c : Dev nD) → (b : Ref sig .tc) → Buf (Elt F) ((c : Thread nD τ).loc b))

/-- Where each window's block sits at point t: the pixel windows move down one block of rows per point, the
    other windows never move. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The grid point whose block holds row i₀. -/
def pointOf (i : S65536x64.Idx) : Fin cfg1.N :=
  ⟨(i 0).val / 512, by have h : (i 0).val < 65536 := (i 0).isLt; rw [show cfg1.N = 128 from N_1]; omega⟩

/-- The row of i inside its block, and its channel. -/
def inBlock (i : S65536x64.Idx) : S512x64.Idx :=
  ix2 (⟨(i 0).val % 512, Nat.mod_lt _ (by decide)⟩ : Fin 512) (⟨(i 1).val, (i 1).isLt⟩ : Fin 64)

/-- The output array as one function: at row i₀ the block of the point that holds the row. -/
def outArr (c : Dev nD) : S65536x64.Idx → Elt F .f32 :=
  fun i => blockAt V c (pointOf i) (inBlock i)

/-- What point t writes back to the output array is block t of that function. -/
theorem flushed6_eq (c : Dev nD) (t : Fin cfg1.N) :
    (dat1 V c).flushed 6 t = ((cfg1.win 6).blk t).view.read (Elt F) (outArr V c) := by
  show (cfg1.win 6).cut (grid1.coords t) ((dat1 V c).after 6 t) = _
  rw [after1_6, outsAt_eq]
  obtain ⟨-, -, -, -, -, -, -, -, -, -, -, -, eo0, eo1, -, -, -, -⟩ := idx_facts t
  funext j
  show blockAt V c t j = outArr V c (((cfg1.win 6).blk t).view.emb j)
  have hj0 : (j 0).val < 512 := (j 0).isLt
  have hj1 : (j 1).val < 64 := (j 1).isLt
  have c0 : ((((cfg1.win 6).blk t).view.emb j) 0).val = t.val * 512 + (j 0).val := by
    show win1_6.index t (0 : Fin 2) * 512 + 1 * (j 0).val = _; rw [eo0]; omega
  have c1 : ((((cfg1.win 6).blk t).view.emb j) 1).val = (j 1).val := by
    show win1_6.index t (1 : Fin 2) * 64 + 1 * (j 1).val = _; rw [eo1]; omega
  unfold outArr
  have ht : pointOf (((cfg1.win 6).blk t).view.emb j) = t := Fin.ext (by
    show ((((cfg1.win 6).blk t).view.emb j) 0).val / 512 = t.val; rw [c0]; omega)
  have hi : inBlock (((cfg1.win 6).blk t).view.emb j) = j := by
    funext a; apply Fin.ext
    match a with
    | ⟨0, _⟩ => show ((((cfg1.win 6).blk t).view.emb j) 0).val % 512 = (j 0).val; rw [c0]; omega
    | ⟨1, _⟩ => show ((((cfg1.win 6).blk t).view.emb j) 1).val = (j 1).val; exact c1
  rw [ht, hi]

/-- An index of the output array is in point t's block iff its row is among the block's 512. -/
theorem mem_blk6 (t : Fin cfg1.N) (i : S65536x64.Idx) :
    i ∈ ((cfg1.win 6).blk t).view.set ↔ ∀ a : Fin 2, win1_6.index t a * S512x64.size a ≤ (i a).val ∧ (i a).val < win1_6.index t a * S512x64.size a + S512x64.size a := by
  show i ∈ ((View.whole main_v15_0).slice (win1_6.rect t)).set ↔ _
  rw [View.set_slice_whole, Rect.mem_set_unit]
  exact Iff.rfl

/-- The output array after the run is that function. -/
theorem final6 (c : Dev nD) : (dat1 V c).arrAt 6 cfg1.N = outArr V c :=
  (dat1 V c).arrAt_eq_of_cover 6 (outArr V c) (fun t _ => flushed6_eq V c t) fun i => by
    have hi0 : (i 0).val < 65536 := (i 0).isLt
    have hi1 : (i 1).val < 64 := (i 1).isLt
    refine ⟨pointOf i, flush1_6 _, ?_⟩
    rw [mem_blk6]
    obtain ⟨-, -, -, -, -, -, -, -, -, -, -, -, eo0, eo1, -, -, -, -⟩ := idx_facts (pointOf i)
    have hp : (pointOf i).val = (i 0).val / 512 := rfl
    intro a
    match a with
    | ⟨0, _⟩ => show win1_6.index (pointOf i) (0 : Fin 2) * 512 ≤ (i 0).val ∧ (i 0).val < win1_6.index (pointOf i) (0 : Fin 2) * 512 + 512; rw [eo0, hp]; omega
    | ⟨1, _⟩ => show win1_6.index (pointOf i) (1 : Fin 2) * 64 ≤ (i 1).val ∧ (i 1).val < win1_6.index (pointOf i) (1 : Fin 2) * 64 + 64; rw [eo1]; omega

/-! ## The accumulators -/

/-- The last grid point. -/
def tLast : Fin cfg1.N := ⟨127, by rw [show cfg1.N = 128 from N_1]; decide⟩

/-- The accumulators after the last point. -/
abbrev lastAccs (c : Dev nD) : Vec F S1x64 .f32 × Vec F S1x64 .f32 := accs V c 127 tLast.isLt

theorem flushed7_eq (c : Dev nD) (t : Fin cfg1.N) (hf : (cfg1.win 7).flush t = true) :
    (dat1 V c).flushed 7 t = ((cfg1.win 7).blk t).view.read (Elt F) (lastAccs V c).1 := by
  have hN : cfg1.N = 128 := N_1
  have h127 : t.val = 127 := by have := (flush1_7 t).mp hf; have := t.isLt; omega
  obtain rfl : t = tLast := Fin.ext h127
  show (cfg1.win 7).cut (grid1.coords tLast) ((dat1 V c).after 7 tLast) = _
  rw [after1_7, outsAt_eq]
  have hz' : (fun a => win1_7.index tLast a * main_v15_1.ty.shape.size a) = fun _ => 0 := funext fun a => by fin_cases a <;> decide
  exact (Memref.read_access_unit_zero (Elt F) main_v15_1 hz' (fun a => by rw [congrFun hz' a]; simp) (lastAccs V c).1).symm

theorem flushed8_eq (c : Dev nD) (t : Fin cfg1.N) (hf : (cfg1.win 8).flush t = true) :
    (dat1 V c).flushed 8 t = ((cfg1.win 8).blk t).view.read (Elt F) (lastAccs V c).2 := by
  have hN : cfg1.N = 128 := N_1
  have h127 : t.val = 127 := by have := (flush1_8 t).mp hf; have := t.isLt; omega
  obtain rfl : t = tLast := Fin.ext h127
  show (cfg1.win 8).cut (grid1.coords tLast) ((dat1 V c).after 8 tLast) = _
  rw [after1_8, outsAt_eq]
  have hz' : (fun a => win1_8.index tLast a * main_v15_2.ty.shape.size a) = fun _ => 0 := funext fun a => by fin_cases a <;> decide
  exact (Memref.read_access_unit_zero (Elt F) main_v15_2 hz' (fun a => by rw [congrFun hz' a]; simp) (lastAccs V c).2).symm

/-- The first-moment array after the run: the first accumulator after the last point. -/
theorem final7 (c : Dev nD) : (dat1 V c).arrAt 7 cfg1.N = (lastAccs V c).1 :=
  (dat1 V c).arrAt_eq_of_cover 7 (lastAccs V c).1 (flushed7_eq V c) fun i =>
    ⟨tLast, (flush1_7 tLast).mpr rfl, by
      show i ∈ ((View.whole main_v15_1).slice (win1_7.rect tLast)).set
      rw [View.set_slice_whole, Rect.mem_set_unit]
      intro a
      have h0 : (i 0 : Nat) < 1 := (i 0).isLt
      have h1 : (i 1 : Nat) < 64 := (i 1).isLt
      match a with
      | ⟨0, _⟩ => show win1_7.index tLast 0 * win1_7.size 0 ≤ (i 0 : Nat) ∧ (i 0 : Nat) < win1_7.index tLast 0 * win1_7.size 0 + win1_7.xsize (grid1.coords tLast) 0
                  rw [show win1_7.index tLast 0 * win1_7.size 0 = 0 from by decide +kernel, show win1_7.xsize (grid1.coords tLast) 0 = 1 from by decide +kernel]; omega
      | ⟨1, _⟩ => show win1_7.index tLast 1 * win1_7.size 1 ≤ (i 1 : Nat) ∧ (i 1 : Nat) < win1_7.index tLast 1 * win1_7.size 1 + win1_7.xsize (grid1.coords tLast) 1
                  rw [show win1_7.index tLast 1 * win1_7.size 1 = 0 from by decide +kernel, show win1_7.xsize (grid1.coords tLast) 1 = 64 from by decide +kernel]; omega⟩

/-- The second-moment array after the run: the second accumulator after the last point. -/
theorem final8 (c : Dev nD) : (dat1 V c).arrAt 8 cfg1.N = (lastAccs V c).2 :=
  (dat1 V c).arrAt_eq_of_cover 8 (lastAccs V c).2 (flushed8_eq V c) fun i =>
    ⟨tLast, (flush1_8 tLast).mpr rfl, by
      show i ∈ ((View.whole main_v15_2).slice (win1_8.rect tLast)).set
      rw [View.set_slice_whole, Rect.mem_set_unit]
      intro a
      have h0 : (i 0 : Nat) < 1 := (i 0).isLt
      have h1 : (i 1 : Nat) < 64 := (i 1).isLt
      match a with
      | ⟨0, _⟩ => show win1_8.index tLast 0 * win1_8.size 0 ≤ (i 0 : Nat) ∧ (i 0 : Nat) < win1_8.index tLast 0 * win1_8.size 0 + win1_8.xsize (grid1.coords tLast) 0
                  rw [show win1_8.index tLast 0 * win1_8.size 0 = 0 from by decide +kernel, show win1_8.xsize (grid1.coords tLast) 0 = 1 from by decide +kernel]; omega
      | ⟨1, _⟩ => show win1_8.index tLast 1 * win1_8.size 1 ≤ (i 1 : Nat) ∧ (i 1 : Nat) < win1_8.index tLast 1 * win1_8.size 1 + win1_8.xsize (grid1.coords tLast) 1
                  rw [show win1_8.index tLast 1 * win1_8.size 1 = 0 from by decide +kernel, show win1_8.xsize (grid1.coords tLast) 1 = 64 from by decide +kernel]; omega⟩

end Cert.KernelIdeal.R1

end
-- ==== Proof.Value1.lean ====
/-
  The second adder kernel's result arrays as mathematics. With H the first layer's output as the region finds it,
  (M, Vr) the mean and variance rows, (G, B) the scale and shift rows and WT the transposed second weights, the
  region first forms the activation a(n, c) = max((H(n, c) − M(c)) · rsqrt(Vr(c) + ε) · G(c) + B(c), 0); the output
  array is the adder layer d(n, o) = −Σ_c |a(n, c) − WT(c, o)| of that activation, and the two accumulator rows are
  the first and second moments of d − K₂ summed over all 65536 pixels: point t contributes its 512 pixels
  512·t … 512·t + 511, and the 128 blocks of 512 are all the pixels.
-/
import proofs.«134045_j71545565217396_2_alg».proof.Proof.Arrays1
import proofs.«134045_j71545565217396_2_alg».proof.Proof.KPay
import proofs.«134045_j71545565217396_2_alg».proof.Proof.Spec
import proofs.«134045_j71545565217396_2_alg».proof.Proof.LibSumBlocks
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.ResBlock Cert.KernelIdeal.KPay

variable (V : (c : Dev nD) → (b : Ref sig .tc) → Buf (Elt Ideal) ((c : Thread nD τ).loc b))

/-- The activation: a pixel matrix normalised with a mean row and a variance row, scaled, shifted and rectified. -/
def act (H : S65536x64.Idx → EReal) (M Vr G B : S1x64.Idx → EReal) : Fm :=
  fun n cc => max ((H (ix2 n cc) - M (ix2 (0 : Fin 1) cc)) * Ideal.rsqrt (Vr (ix2 (0 : Fin 1) cc) + cEps)
    * G (ix2 (0 : Fin 1) cc) + B (ix2 (0 : Fin 1) cc)) 0

/-- The adder layer of a feature map against TRANSPOSED weights. -/
def adderA (A : Fm) (WT : S64x64.Idx → EReal) : Fm :=
  fun n o => -(∑ cc : Fin 64, eabs (A n cc - WT (ix2 cc o)))

/-! ## The input blocks at a point -/

/-- Row r of point t's pixel block is pixel 512·t + r. -/
theorem iblk_h (c : Dev nD) (t : Fin cfg1.N) (r : Fin 512) (cc : Fin 64) (n : Fin 65536) (hn : n.val = t.val * 512 + r.val) :
    (iblk1 V c 0 t : S512x64.Idx → EReal) (ix2 r cc) = (V c main_v4_0 : S65536x64.Idx → EReal) (ix2 n cc) := by
  obtain ⟨e0, e1, -⟩ := idx_facts t
  unfold iblk1
  rw [View.read_apply]
  show V c main_v4_0 _ = V c main_v4_0 _
  refine congrArg _ (funext fun a => Fin.ext ?_)
  match a with
  | ⟨0, _⟩ => show win1_0.index t (0 : Fin 2) * 512 + 1 * r.val = n.val; rw [e0, hn]; omega
  | ⟨1, _⟩ => show win1_0.index t (1 : Fin 2) * 64 + 1 * cc.val = cc.val; rw [e1]; omega

/-- The mean window's block is the whole mean row at every point. -/
theorem iblk_m (c : Dev nD) (t : Fin cfg1.N) (cc : Fin 64) :
    (iblk1 V c 1 t : S1x64.Idx → EReal) (ix2 (0 : Fin 1) cc) = (V c main_v12 : S1x64.Idx → EReal) (ix2 (0 : Fin 1) cc) := by
  obtain ⟨-, -, e0, e1, -⟩ := idx_facts t
  unfold iblk1
  rw [View.read_apply]
  show V c main_v12 _ = V c main_v12 _
  refine congrArg _ (funext fun a => Fin.ext ?_)
  match a with
  | ⟨0, _⟩ => show win1_1.index t (0 : Fin 2) * 1 + 1 * (0 : Fin 1).val = (0 : Fin 1).val; rw [e0]; rfl
  | ⟨1, _⟩ => show win1_1.index t (1 : Fin 2) * 64 + 1 * cc.val = cc.val; rw [e1]; omega

/-- The variance window's block is the whole variance row at every point. -/
theorem iblk_v (c : Dev nD) (t : Fin cfg1.N) (cc : Fin 64) :
    (iblk1 V c 2 t : S1x64.Idx → EReal) (ix2 (0 : Fin 1) cc) = (V c main_v10 : S1x64.Idx → EReal) (ix2 (0 : Fin 1) cc) := by
  obtain ⟨-, -, -, -, e0, e1, -⟩ := idx_facts t
  unfold iblk1
  rw [View.read_apply]
  show V c main_v10 _ = V c main_v10 _
  refine congrArg _ (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 64 + 1 * cc.val = cc.val; rw [e1]; omega

/-- The scale window's block is the whole scale row at every point. -/
theorem iblk_g (c : Dev nD) (t : Fin cfg1.N) (cc : Fin 64) :
    (iblk1 V c 3 t : S1x64.Idx → EReal) (ix2 (0 : Fin 1) cc) = (V c main_v13 : S1x64.Idx → EReal) (ix2 (0 : Fin 1) cc) := by
  obtain ⟨-, -, -, -, -, -, e0, e1, -⟩ := idx_facts t
  unfold iblk1
  rw [View.read_apply]
  show V c main_v13 _ = V c main_v13 _
  refine congrArg _ (funext fun a => Fin.ext ?_)
  match a with
  | ⟨0, _⟩ => show win1_3.index t (0 : Fin 2) * 1 + 1 * (0 : Fin 1).val = (0 : Fin 1).val; rw [e0]; rfl
  | ⟨1, _⟩ => show win1_3.index t (1 : Fin 2) * 64 + 1 * cc.val = cc.val; rw [e1]; omega

/-- The shift window's block is the whole shift row at every point. -/
theorem iblk_b (c : Dev nD) (t : Fin cfg1.N) (cc : Fin 64) :
    (iblk1 V c 4 t : S1x64.Idx → EReal) (ix2 (0 : Fin 1) cc) = (V c main_v14 : S1x64.Idx → EReal) (ix2 (0 : Fin 1) cc) := by
  obtain ⟨-, -, -, -, -, -, -, -, e0, e1, -⟩ := idx_facts t
  unfold iblk1
  rw [View.read_apply]
  show V c main_v14 _ = V c main_v14 _
  refine congrArg _ (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 64 + 1 * cc.val = cc.val; rw [e1]; omega

/-- The weight window's block is the whole weight matrix at every point. -/
theorem iblk_w (c : Dev nD) (t : Fin cfg1.N) (cc o : Fin 64) :
    (iblk1 V c 5 t : S64x64.Idx → EReal) (ix2 cc o) = (V c main_v3 : S64x64.Idx → EReal) (ix2 cc o) := by
  obtain ⟨-, -, -, -, -, -, -, -, -, -, e0, e1, -⟩ := idx_facts t
  unfold iblk1
  rw [View.read_apply]
  show V c main_v3 _ = V c main_v3 _
  refine congrArg _ (funext fun a => Fin.ext ?_)
  match a with
  | ⟨0, _⟩ => show win1_5.index t (0 : Fin 2) * 64 + 1 * cc.val = cc.val; rw [e0]; omega
  | ⟨1, _⟩ => show win1_5.index t (1 : Fin 2) * 64 + 1 * o.val = o.val; rw [e1]; omega

/-! ## The output array -/

/-- The adder block of point t at row r is the adder layer of the activation at pixel 512·t + r. -/
theorem block_at (c : Dev nD) (t : Fin cfg1.N) (r : Fin 512) (o : Fin 64) (n : Fin 65536) (hn : n.val = t.val * 512 + r.val) :
    blockAt V c t (ix2 r o)
      = adderA (act (V c main_v4_0) (V c main_v12) (V c main_v10) (V c main_v13) (V c main_v14)) (V c main_v3) n o := by
  unfold blockAt
  rw [k1_pay6_apply]
  unfold adderA act
  refine congrArg Neg.neg (Finset.sum_congr rfl fun cc _ => ?_)
  rw [iblk_h V c t r cc n hn, iblk_m, iblk_v, iblk_g, iblk_b, iblk_w]

/-- The output array after the run is the adder layer of the activation. -/
theorem out_apply (c : Dev nD) (n : Fin 65536) (o : Fin 64) :
    ((dat1 V c).arrAt 6 cfg1.N : S65536x64.Idx → EReal) (ix2 n o)
      = adderA (act (V c main_v4_0) (V c main_v12) (V c main_v10) (V c main_v13) (V c main_v14)) (V c main_v3) n o := by
  rw [final6]
  have hn := n.isLt
  show blockAt V c (pointOf (ix2 n o)) (ix2 (⟨n.val % 512, Nat.mod_lt _ (by decide)⟩ : Fin 512) o) = _
  exact block_at V c _ _ o n (by show n.val = n.val / 512 * 512 + n.val % 512; omega)

/-! ## The accumulators -/

/-- The shifted layer output as a function of the pixel's number (zero past the last pixel). -/
def shiftedAt (K : EReal) (D : Fm) (o : Fin 64) (k : ℕ) : EReal := if h : k < 65536 then D ⟨k, h⟩ o - K else 0

theorem pay1_at (c : Dev nD) (t : Fin cfg1.N) (r : Fin 512) (o : Fin 64) :
    k1_pay1 (blockAt V c t) (ix2 r o)
      = shiftedAt cK2 (adderA (act (V c main_v4_0) (V c main_v12) (V c main_v10) (V c main_v13) (V c main_v14)) (V c main_v3)) o
          (t.val * 512 + r.val) := by
  have hN : cfg1.N = 128 := N_1
  have ht := t.isLt
  have hr := r.isLt
  have hlt : t.val * 512 + r.val < 65536 := by omega
  rw [k1_pay1_apply, block_at V c t r o ⟨_, hlt⟩ rfl]
  unfold shiftedAt
  rw [dif_pos hlt]

/-- After point n the accumulators hold the moments of the pixels of points 0 … n. -/
theorem accs_apply (c : Dev nD) (o : Fin 64) : ∀ (n : ℕ) (h : n < cfg1.N),
    (accs V c n h).1 (ix2 (0 : Fin 1) o)
        = ∑ t ∈ Finset.range (n + 1), ∑ r : Fin 512,
            shiftedAt cK2 (adderA (act (V c main_v4_0) (V c main_v12) (V c main_v10) (V c main_v13) (V c main_v14)) (V c main_v3)) o (t * 512 + r.val)
    ∧ (accs V c n h).2 (ix2 (0 : Fin 1) o)
        = ∑ t ∈ Finset.range (n + 1), ∑ r : Fin 512,
            shiftedAt cK2 (adderA (act (V c main_v4_0) (V c main_v12) (V c main_v10) (V c main_v13) (V c main_v14)) (V c main_v3)) o (t * 512 + r.val)
            * shiftedAt cK2 (adderA (act (V c main_v4_0) (V c main_v12) (V c main_v10) (V c main_v13) (V c main_v14)) (V c main_v3)) o (t * 512 + r.val)
  | 0, h => by
    constructor
    · show k1_pay2 (blockAt V c ⟨0, h⟩) (k1_pay4 (F := Ideal)) (ix2 (0 : Fin 1) o) = _
      rw [k1_pay2_apply, k1_pay4_apply, zero_add, Finset.sum_range_one]
      exact Finset.sum_congr rfl fun r _ => pay1_at V c ⟨0, h⟩ r o
    · show k1_pay3 (blockAt V c ⟨0, h⟩) (k1_pay5 (F := Ideal)) (ix2 (0 : Fin 1) o) = _
      rw [k1_pay3_apply, k1_pay5_apply, zero_add, Finset.sum_range_one]
      exact Finset.sum_congr rfl fun r _ => by rw [pay1_at V c ⟨0, h⟩ r o]
  | n + 1, h => by
    obtain ⟨ih1, ih2⟩ := accs_apply c o n (Nat.lt_of_succ_lt h)
    constructor
    · show k1_pay2 (blockAt V c ⟨n + 1, h⟩) (accs V c n _).1 (ix2 (0 : Fin 1) o) = _
      rw [k1_pay2_apply, ih1, Finset.sum_range_succ _ (n + 1)]
      exact congrArg _ (Finset.sum_congr rfl fun r _ => pay1_at V c ⟨n + 1, h⟩ r o)
    · show k1_pay3 (blockAt V c ⟨n + 1, h⟩) (accs V c n _).2 (ix2 (0 : Fin 1) o) = _
      rw [k1_pay3_apply, ih2, Finset.sum_range_succ _ (n + 1)]
      exact congrArg _ (Finset.sum_congr rfl fun r _ => by rw [pay1_at V c ⟨n + 1, h⟩ r o])

/-- 128 blocks of 512 consecutive numbers are the numbers below 65536. -/
theorem sum_all (g : ℕ → EReal) : ∑ t ∈ Finset.range 128, ∑ r : Fin 512, g (t * 512 + r.val) = ∑ n : Fin 65536, g n.val := by
  rw [← Fin.sum_univ_eq_sum_range (fun t => ∑ r : Fin 512, g (t * 512 + r.val)) 128]
  exact (LibSumBlocks.sum_fin_nat_blocks 128 512 rfl g).symm

/-- The first-moment array after the run. -/
theorem sum_apply (c : Dev nD) (o : Fin 64) :
    ((dat1 V c).arrAt 7 cfg1.N : S1x64.Idx → EReal) (ix2 (0 : Fin 1) o)
      = shiftSum cK2 (adderA (act (V c main_v4_0) (V c main_v12) (V c main_v10) (V c main_v13) (V c main_v14)) (V c main_v3)) o := by
  rw [final7]
  refine ((accs_apply V c o 127 tLast.isLt).1).trans ?_
  rw [sum_all]
  unfold shiftSum
  exact Finset.sum_congr rfl fun n _ => by unfold shiftedAt; rw [dif_pos n.isLt]

/-- The second-moment array after the run. -/
theorem sumsq_apply (c : Dev nD) (o : Fin 64) :
    ((dat1 V c).arrAt 8 cfg1.N : S1x64.Idx → EReal) (ix2 (0 : Fin 1) o)
      = shiftSq cK2 (adderA (act (V c main_v4_0) (V c main_v12) (V c main_v10) (V c main_v13) (V c main_v14)) (V c main_v3)) o := by
  rw [final8]
  refine ((accs_apply V c o 127 tLast.isLt).2).trans ?_
  rw [sum_all (fun k => shiftedAt cK2 (adderA (act (V c main_v4_0) (V c main_v12) (V c main_v10) (V c main_v13) (V c main_v14)) (V c main_v3)) o k
    * shiftedAt cK2 (adderA (act (V c main_v4_0) (V c main_v12) (V c main_v10) (V c main_v13) (V c main_v14)) (V c main_v3)) o k)]
  unfold shiftSq
  exact Finset.sum_congr rfl fun n _ => by unfold shiftedAt; rw [dif_pos n.isLt]

end Cert.KernelIdeal.R1

end
-- ==== Proof.Chain1.lean ====
/-
  The contents of the buffers the third kernel reads, in terms of the argument arrays. The second kernel
  normalises the first layer's output d₁ with the mean and variance it is handed, rectifies, and applies the
  adder layer against the second weights: its output is the second layer's output d₂ of the specification taken
  with the shifted-moment statistics, and its two accumulator rows are d₂'s shifted moments. The third stretch of
  host operations rebuilds d₂'s mean and variance from them and lays the second scale and shift out as rows.
-/
import proofs.«134045_j71545565217396_2_alg».proof.Proof.Chain0
import proofs.«134045_j71545565217396_2_alg».proof.Proof.Value1

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.ResBlock

variable (m : (ℓ : Loc nD τ sig) → Buf (Elt Ideal) ℓ) (ρ : Dev nD → PrngReg) (c : Dev nD)

/-- The second layer's output, with the first normalisation's statistics in shifted-moment form. -/
abbrev D2 : Fm := d2 (meanK cK1) (varK cK1) (flat (aX m c)) (mat (aW1 m c)) (vec (aG1 m c)) (vec (aB1 m c)) (mat (aW2 m c))

/-- What the second kernel computes from the buffers it finds is the second layer's output. -/
theorem d2_eq :
    R1.adderA (R1.act (V3 m ρ c main_v4_0) (V3 m ρ c main_v12) (V3 m ρ c main_v10) (V3 m ρ c main_v13) (V3 m ρ c main_v14)) (V3 m ρ c main_v3)
      = D2 m c := by
  funext n o
  show R1.adderA _ _ n o
      = adder (act1 (meanK cK1) (varK cK1) (flat (aX m c)) (mat (aW1 m c)) (vec (aG1 m c)) (vec (aB1 m c))) (mat (aW2 m c)) n o
  unfold R1.adderA adder
  refine congrArg Neg.neg (Finset.sum_congr rfl fun cc _ => ?_)
  rw [v3_w2T]
  refine congrArg (fun z => eabs (z - mat (aW2 m c) o cc)) ?_
  show R1.act _ _ _ _ _ n cc
      = max (bn (meanK cK1 (D1 m c)) (varK cK1 (D1 m c)) (vec (aG1 m c)) (vec (aB1 m c)) (D1 m c) n cc) 0
  unfold R1.act bn
  rw [v3_h1, v3_mean, v3_var, v3_gamma, v3_beta]

/-! ## At the second kernel's exit -/

theorem v4_h2 (n : Fin 65536) (o : Fin 64) :
    (W4 m ρ c (Proc.devRef .tc main_v15_0) : S65536x64.Idx → EReal) (ix2 n o) = D2 m c n o := by
  have e' : (W4 m ρ c (Proc.devRef .tc main_v15_0) : S65536x64.Idx → EReal) = ((dat1 (V3 m ρ) c).arrAt 6 cfg1.N : S65536x64.Idx → EReal) := W4_arr m ρ c 6
  rw [e', R1.out_apply (V3 m ρ) c n o, d2_eq]

theorem v4_sum (o : Fin 64) :
    (W4 m ρ c (Proc.devRef .tc main_v15_1) : S1x64.Idx → EReal) (ix2 (0 : Fin 1) o) = shiftSum cK2 (D2 m c) o := by
  have e' : (W4 m ρ c (Proc.devRef .tc main_v15_1) : S1x64.Idx → EReal) = ((dat1 (V3 m ρ) c).arrAt 7 cfg1.N : S1x64.Idx → EReal) := W4_arr m ρ c 7
  rw [e', R1.sum_apply (V3 m ρ) c o, d2_eq]

theorem v4_sumsq (o : Fin 64) :
    (W4 m ρ c (Proc.devRef .tc main_v15_2) : S1x64.Idx → EReal) (ix2 (0 : Fin 1) o) = shiftSq cK2 (D2 m c) o := by
  have e' : (W4 m ρ c (Proc.devRef .tc main_v15_2) : S1x64.Idx → EReal) = ((dat1 (V3 m ρ) c).arrAt 8 cfg1.N : S1x64.Idx → EReal) := W4_arr m ρ c 8
  rw [e', R1.sumsq_apply (V3 m ρ) c o, d2_eq]

theorem v4_x : W4 m ρ c (Proc.devRef .tc main_v1) = W1 m ρ c (Proc.devRef .tc main_v1) :=
  (W4_of_ne m ρ c main_v1 (by decide)).trans (v3_x m ρ c)
theorem v4_arg5 : W4 m ρ c (Proc.devRef .tc main_arg5) = m ((c.tc : Thread nD τ).loc main_arg5) :=
  (W4_of_ne m ρ c main_arg5 (by decide)).trans (v3_arg5 m ρ c)
theorem v4_arg6 : W4 m ρ c (Proc.devRef .tc main_arg6) = m ((c.tc : Thread nD τ).loc main_arg6) :=
  (W4_of_ne m ρ c main_arg6 (by decide)).trans (v3_arg6 m ρ c)

/-! ## At the third kernel's entry -/

theorem v5_mean (o : Fin 64) :
    (V5 m ρ c main_v23 : S1x64.Idx → EReal) (ix2 (0 : Fin 1) o) = meanK cK2 (D2 m c) o := by
  rw [show (V5 m ρ c main_v23 : S1x64.Idx → EReal) (ix2 (0 : Fin 1) o) = _ from Host.mean2 (W4 m ρ c) o, v4_sum]
  rfl

theorem v5_var (o : Fin 64) :
    (V5 m ρ c main_v21 : S1x64.Idx → EReal) (ix2 (0 : Fin 1) o) = varK cK2 (D2 m c) o := by
  rw [show (V5 m ρ c main_v21 : S1x64.Idx → EReal) (ix2 (0 : Fin 1) o) = _ from Host.var2 (W4 m ρ c) o, v4_sum, v4_sumsq]
  rfl

theorem v5_gamma (o : Fin 64) : (V5 m ρ c main_v24 : S1x64.Idx → EReal) (ix2 (0 : Fin 1) o) = vec (aG2 m c) o := by
  rw [show (V5 m ρ c main_v24 : S1x64.Idx → EReal) (ix2 (0 : Fin 1) o) = _ from Host.gamma2 (W4 m ρ c) o, v4_arg5]

theorem v5_beta (o : Fin 64) : (V5 m ρ c main_v25 : S1x64.Idx → EReal) (ix2 (0 : Fin 1) o) = vec (aB2 m c) o := by
  rw [show (V5 m ρ c main_v25 : S1x64.Idx → EReal) (ix2 (0 : Fin 1) o) = _ from Host.beta2 (W4 m ρ c) o, v4_arg6]

theorem v5_h2 (n : Fin 65536) (o : Fin 64) :
    (V5 m ρ c main_v15_0 : S65536x64.Idx → EReal) (ix2 n o) = D2 m c n o := by
  rw [show (V5 m ρ c main_v15_0 : S65536x64.Idx → EReal) = W4 m ρ c (Proc.devRef .tc main_v15_0) from Host.keep2_h2 (W4 m ρ c)]
  exact v4_h2 m ρ c n o

theorem v5_x (n : Fin 65536) (cc : Fin 64) :
    (V5 m ρ c main_v1 : S65536x64.Idx → EReal) (ix2 n cc) = flat (aX m c) n cc := by
  rw [show (V5 m ρ c main_v1 : S65536x64.Idx → EReal) = W1 m ρ c (Proc.devRef .tc main_v1) from (Host.keep2_x (W4 m ρ c)).trans (v4_x m ρ c)]
  exact v1_x m ρ c n cc

end Cert.KernelIdeal.Chain

end
-- ==== Proof.Region2.lean ====
/-
  The third kernel, read off its run: at every grid point the body leaves in the output block the second
  normalisation of the point's block, plus the residual, rectified — one pointwise payload of the six input blocks.
-/
import proofs.«134045_j71545565217396_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R2

open Cert.KernelIdeal Cert.KernelIdeal.Gen

variable {F : FTy → Type} [FloatOps F]

theorem hz : (![0, 0] : Fin 2 → Nat) = fun _ => 0 := funext fun a => by fin_cases a <;> rfl

/-- The output block after the body is the payload of the six input blocks. -/
theorem out_6 (x0 : Vec F S512x64 .f32) (x1 x2 x3 x4 : Vec F S1x64 .f32) (x5 : Vec F S512x64 .f32) :
    out2_6 x0 x1 x2 x3 x4 x5 = k2_pay1 x0 x1 x2 x3 x4 x5 := by
  unfold out2_6
  rw [View.canon_unit_zero hz]
  simp only [View.ld_unit_zero (S := S512x64) hz, View.ld_unit_zero (S := S1x64) hz]

end Cert.KernelIdeal.R2

end
-- ==== Proof.Arrays2.lean ====
/-
  The last kernel's result array after the whole grid has run. The output array is written back block by
  block, point t's 512 rows at rows 512·t … 512·t + 511, and every row lies in exactly one block; so the array
  is one function of the index: at row i₀ the body's stored value at the point that holds the row.
-/
import proofs.«134045_j71545565217396_2_alg».proof.Proof.Region2
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

variable {F : FTy → Type} [FloatOps F]
variable (V : (c : Dev nD) → (b : Ref sig .tc) → Buf (Elt F) ((c : Thread nD τ).loc b))

/-- Where each window's block sits at point t: the two pixel-indexed inputs and the output move down one block
    of rows per point, the four one-row inputs never move. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The grid point whose block holds row i₀. -/
def pointOf (i : S65536x64.Idx) : Fin cfg2.N :=
  ⟨(i 0).val / 512, by have h : (i 0).val < 65536 := (i 0).isLt; rw [show cfg2.N = 128 from N_2]; omega⟩

/-- The row of i inside its block, and its channel. -/
def inBlock (i : S65536x64.Idx) : S512x64.Idx :=
  ix2 (⟨(i 0).val % 512, Nat.mod_lt _ (by decide)⟩ : Fin 512) (⟨(i 1).val, (i 1).isLt⟩ : Fin 64)

/-- The output array as one function: at row i₀ the stored value of the point that holds the row. -/
def outArr (c : Dev nD) : S65536x64.Idx → Elt F .f32 :=
  fun i => k2_pay1 (iblk2 V c 0 (pointOf i)) (iblk2 V c 1 (pointOf i)) (iblk2 V c 2 (pointOf i))
    (iblk2 V c 3 (pointOf i)) (iblk2 V c 4 (pointOf i)) (iblk2 V c 5 (pointOf i)) (inBlock i)

/-- What point t writes back to the output array is block t of that function. -/
theorem flushed6_eq (c : Dev nD) (t : Fin cfg2.N) :
    (dat2 V c).flushed 6 t = ((cfg2.win 6).blk t).view.read (Elt F) (outArr V c) := by
  show (cfg2.win 6).cut (grid2.coords t) ((dat2 V c).after 6 t) = _
  rw [after2_6, out_6]
  obtain ⟨-, -, -, -, -, -, -, -, -, -, -, -, e12, e13⟩ := idx_facts t
  funext j
  show k2_pay1 (iblk2 V c 0 t) (iblk2 V c 1 t) (iblk2 V c 2 t) (iblk2 V c 3 t) (iblk2 V c 4 t) (iblk2 V c 5 t) j
    = outArr V c (((cfg2.win 6).blk t).view.emb j)
  have hj0 : (j 0).val < 512 := (j 0).isLt
  have hj1 : (j 1).val < 64 := (j 1).isLt
  have c0 : ((((cfg2.win 6).blk t).view.emb j) 0).val = t.val * 512 + (j 0).val := by
    show win2_6.index t (0 : Fin 2) * 512 + 1 * (j 0).val = _; rw [e12]; omega
  have c1 : ((((cfg2.win 6).blk t).view.emb j) 1).val = (j 1).val := by
    show win2_6.index t (1 : Fin 2) * 64 + 1 * (j 1).val = _; rw [e13]; omega
  unfold outArr
  have ht : pointOf (((cfg2.win 6).blk t).view.emb j) = t := Fin.ext (by
    show ((((cfg2.win 6).blk t).view.emb j) 0).val / 512 = t.val; rw [c0]; omega)
  have hi : inBlock (((cfg2.win 6).blk t).view.emb j) = j := by
    funext a; apply Fin.ext
    match a with
    | ⟨0, _⟩ => show ((((cfg2.win 6).blk t).view.emb j) 0).val % 512 = (j 0).val; rw [c0]; omega
    | ⟨1, _⟩ => show ((((cfg2.win 6).blk t).view.emb j) 1).val = (j 1).val; exact c1
  rw [ht, hi]

/-- An index of the output array is in point t's block iff its row is among the block's 512. -/
theorem mem_blk6 (t : Fin cfg2.N) (i : S65536x64.Idx) :
    i ∈ ((cfg2.win 6).blk t).view.set ↔ ∀ a : Fin 2, win2_6.index t a * S512x64.size a ≤ (i a).val ∧ (i a).val < win2_6.index t a * S512x64.size a + S512x64.size a := by
  show i ∈ ((View.whole main_v26).slice (win2_6.rect t)).set ↔ _
  rw [View.set_slice_whole, Rect.mem_set_unit]
  exact Iff.rfl

/-- The output array after the run is that function. -/
theorem final6 (c : Dev nD) : (dat2 V c).arrAt 6 cfg2.N = outArr V c :=
  (dat2 V c).arrAt_eq_of_cover 6 (outArr V c) (fun t _ => flushed6_eq V c t) fun i => by
    have hi0 : (i 0).val < 65536 := (i 0).isLt
    have hi1 : (i 1).val < 64 := (i 1).isLt
    refine ⟨pointOf i, flush2_6 _, ?_⟩
    rw [mem_blk6]
    obtain ⟨-, -, -, -, -, -, -, -, -, -, -, -, e12, e13⟩ := idx_facts (pointOf i)
    have hp : (pointOf i).val = (i 0).val / 512 := rfl
    intro a
    match a with
    | ⟨0, _⟩ => show win2_6.index (pointOf i) (0 : Fin 2) * 512 ≤ (i 0).val ∧ (i 0).val < win2_6.index (pointOf i) (0 : Fin 2) * 512 + 512; rw [e12, hp]; omega
    | ⟨1, _⟩ => show win2_6.index (pointOf i) (1 : Fin 2) * 64 ≤ (i 1).val ∧ (i 1).val < win2_6.index (pointOf i) (1 : Fin 2) * 64 + 64; rw [e13]; omega

end Cert.KernelIdeal.R2

end
-- ==== Proof.Value2.lean ====
/-
  The last kernel's result array as mathematics: at pixel n and channel o, the second layer's output
  normalised with the mean and variance rows the region finds, scaled and shifted per channel, the
  residual pixel added, rectified. Point t's blocks of the two pixel-indexed inputs are rows
  512·t … 512·t + 511 of their arrays; the four one-row inputs are read whole at every point.
-/
import proofs.«134045_j71545565217396_2_alg».proof.Proof.Arrays2
import proofs.«134045_j71545565217396_2_alg».proof.Proof.KPay
import proofs.«134045_j71545565217396_2_alg».proof.Proof.Spec
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen Cert.ResBlock Cert.KernelIdeal.KPay

variable (V : (c : Dev nD) → (b : Ref sig .tc) → Buf (Elt Ideal) ((c : Thread nD τ).loc b))

/-- The last kernel's value at pixel n and channel o, from the six arrays it reads: the layer output H normalised
    with the mean row M and the variance row W, scaled by G, shifted by B, the residual X added, rectified. -/
def bnResT (H : S65536x64.Idx → EReal) (M W G B : S1x64.Idx → EReal) (X : S65536x64.Idx → EReal) : Fm :=
  fun n o => max ((H (ix2 n o) - M (ix2 (0 : Fin 1) o)) * Ideal.rsqrt (W (ix2 (0 : Fin 1) o) + cEps) * G (ix2 (0 : Fin 1) o)
    + B (ix2 (0 : Fin 1) o) + X (ix2 n o)) 0

/-- Row r of point t's block of the second layer's output is pixel 512·t + r. -/
theorem iblk_h (c : Dev nD) (t : Fin cfg2.N) (r : Fin 512) (o : Fin 64) (n : Fin 65536) (hn : n.val = t.val * 512 + r.val) :
    (iblk2 V c 0 t : S512x64.Idx → EReal) (ix2 r o) = (V c main_v15_0 : S65536x64.Idx → EReal) (ix2 n o) := by
  obtain ⟨e0, e1, -⟩ := idx_facts t
  unfold iblk2
  rw [View.read_apply]
  show V c main_v15_0 _ = V c main_v15_0 _
  refine congrArg _ (funext fun a => Fin.ext ?_)
  match a with
  | ⟨0, _⟩ => show win2_0.index t (0 : Fin 2) * 512 + 1 * r.val = n.val; rw [e0, hn]; omega
  | ⟨1, _⟩ => show win2_0.index t (1 : Fin 2) * 64 + 1 * o.val = o.val; rw [e1]; omega

/-- Row r of point t's block of the pixel matrix is pixel 512·t + r. -/
theorem iblk_x (c : Dev nD) (t : Fin cfg2.N) (r : Fin 512) (o : Fin 64) (n : Fin 65536) (hn : n.val = t.val * 512 + r.val) :
    (iblk2 V c 5 t : S512x64.Idx → EReal) (ix2 r o) = (V c main_v1 : S65536x64.Idx → EReal) (ix2 n o) := by
  obtain ⟨-, -, -, -, -, -, -, -, -, -, e10, e11, -⟩ := idx_facts t
  unfold iblk2
  rw [View.read_apply]
  show V c main_v1 _ = V c main_v1 _
  refine congrArg _ (funext fun a => Fin.ext ?_)
  match a with
  | ⟨0, _⟩ => show win2_5.index t (0 : Fin 2) * 512 + 1 * r.val = n.val; rw [e10, hn]; omega
  | ⟨1, _⟩ => show win2_5.index t (1 : Fin 2) * 64 + 1 * o.val = o.val; rw [e11]; omega

/-- The mean row's block is the whole row at every point. -/
theorem iblk_mean (c : Dev nD) (t : Fin cfg2.N) (u : Fin 1) (o : Fin 64) :
    (iblk2 V c 1 t : S1x64.Idx → EReal) (ix2 u o) = (V c main_v23 : S1x64.Idx → EReal) (ix2 u o) := by
  obtain ⟨-, -, e2, e3, -⟩ := idx_facts t
  unfold iblk2
  rw [View.read_apply]
  show V c main_v23 _ = V c main_v23 _
  refine congrArg _ (funext fun a => Fin.ext ?_)
  match a with
  | ⟨0, _⟩ => show win2_1.index t (0 : Fin 2) * 1 + 1 * u.val = u.val; rw [e2]; omega
  | ⟨1, _⟩ => show win2_1.index t (1 : Fin 2) * 64 + 1 * o.val = o.val; rw [e3]; omega

/-- The variance row's block is the whole row at every point. -/
theorem iblk_var (c : Dev nD) (t : Fin cfg2.N) (u : Fin 1) (o : Fin 64) :
    (iblk2 V c 2 t : S1x64.Idx → EReal) (ix2 u o) = (V c main_v21 : S1x64.Idx → EReal) (ix2 u o) := by
  obtain ⟨-, -, -, -, e4, e5, -⟩ := idx_facts t
  unfold iblk2
  rw [View.read_apply]
  show V c main_v21 _ = V c main_v21 _
  refine congrArg _ (funext fun a => Fin.ext ?_)
  match a with
  | ⟨0, _⟩ => show win2_2.index t (0 : Fin 2) * 1 + 1 * u.val = u.val; rw [e4]; omega
  | ⟨1, _⟩ => show win2_2.index t (1 : Fin 2) * 64 + 1 * o.val = o.val; rw [e5]; omega

/-- The scale row's block is the whole row at every point. -/
theorem iblk_scale (c : Dev nD) (t : Fin cfg2.N) (u : Fin 1) (o : Fin 64) :
    (iblk2 V c 3 t : S1x64.Idx → EReal) (ix2 u o) = (V c main_v24 : S1x64.Idx → EReal) (ix2 u o) := by
  obtain ⟨-, -, -, -, -, -, e6, e7, -⟩ := idx_facts t
  unfold iblk2
  rw [View.read_apply]
  show V c main_v24 _ = V c main_v24 _
  refine congrArg _ (funext fun a => Fin.ext ?_)
  match a with
  | ⟨0, _⟩ => show win2_3.index t (0 : Fin 2) * 1 + 1 * u.val = u.val; rw [e6]; omega
  | ⟨1, _⟩ => show win2_3.index t (1 : Fin 2) * 64 + 1 * o.val = o.val; rw [e7]; omega

/-- The shift row's block is the whole row at every point. -/
theorem iblk_shift (c : Dev nD) (t : Fin cfg2.N) (u : Fin 1) (o : Fin 64) :
    (iblk2 V c 4 t : S1x64.Idx → EReal) (ix2 u o) = (V c main_v25 : S1x64.Idx → EReal) (ix2 u o) := by
  obtain ⟨-, -, -, -, -, -, -, -, e8, e9, -⟩ := idx_facts t
  unfold iblk2
  rw [View.read_apply]
  show V c main_v25 _ = V c main_v25 _
  refine congrArg _ (funext fun a => Fin.ext ?_)
  match a with
  | ⟨0, _⟩ => show win2_4.index t (0 : Fin 2) * 1 + 1 * u.val = u.val; rw [e8]; omega
  | ⟨1, _⟩ => show win2_4.index t (1 : Fin 2) * 64 + 1 * o.val = o.val; rw [e9]; omega

/-- The stored value of point t at row r is the normalised, scaled, shifted, residual-added and rectified
    entry of pixel 512·t + r. -/
theorem pay1_at (c : Dev nD) (t : Fin cfg2.N) (r : Fin 512) (o : Fin 64) (n : Fin 65536) (hn : n.val = t.val * 512 + r.val) :
    k2_pay1 (iblk2 V c 0 t) (iblk2 V c 1 t) (iblk2 V c 2 t) (iblk2 V c 3 t) (iblk2 V c 4 t) (iblk2 V c 5 t) (ix2 r o)
      = bnResT (V c main_v15_0) (V c main_v23) (V c main_v21) (V c main_v24) (V c main_v25) (V c main_v1) n o := by
  rw [k2_pay1_apply, iblk_h V c t r o n hn, iblk_x V c t r o n hn, iblk_mean, iblk_var, iblk_scale, iblk_shift]
  rfl

/-- The output array after the run, entry by entry. -/
theorem out_apply (c : Dev nD) (n : Fin 65536) (o : Fin 64) :
    ((dat2 V c).arrAt 6 cfg2.N : S65536x64.Idx → EReal) (ix2 n o)
      = bnResT (V c main_v15_0) (V c main_v23) (V c main_v21) (V c main_v24) (V c main_v25) (V c main_v1) n o := by
  rw [final6]
  have hn := n.isLt
  show k2_pay1 (iblk2 V c 0 (pointOf (ix2 n o))) (iblk2 V c 1 (pointOf (ix2 n o))) (iblk2 V c 2 (pointOf (ix2 n o)))
      (iblk2 V c 3 (pointOf (ix2 n o))) (iblk2 V c 4 (pointOf (ix2 n o))) (iblk2 V c 5 (pointOf (ix2 n o)))
      (ix2 (⟨n.val % 512, Nat.mod_lt _ (by decide)⟩ : Fin 512) o) = _
  exact pay1_at V c _ _ o n (by show n.val = n.val / 512 * 512 + n.val % 512; omega)

end Cert.KernelIdeal.R2

end
-- ==== Proof.Chain2.lean ====
/-
  The idealized kernel program's result in terms of the argument arrays. The third kernel applies the second
  normalisation to the second layer's output d₂ with the statistics it is handed, adds the input pixel matrix and
  rectifies; the last stretch of host operations lays the pixel matrix out as (batch, channel, row, column). So
  the result array is the whole block of the specification, taken with shifted-moment statistics in both
  normalisations, in the input's layout.
-/
import proofs.«134045_j71545565217396_2_alg».proof.Proof.Chain1
import proofs.«134045_j71545565217396_2_alg».proof.Proof.Value2

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.ResBlock

variable (m : (ℓ : Loc nD τ sig) → Buf (Elt Ideal) ℓ) (ρ : Dev nD → PrngReg) (c : Dev nD)

/-- The whole block with shifted-moment statistics, as a feature map. -/
abbrev Out : Fm :=
  net (meanK cK1) (varK cK1) (meanK cK2) (varK cK2) (flat (aX m c)) (mat (aW1 m c)) (vec (aG1 m c)) (vec (aB1 m c))
    (mat (aW2 m c)) (vec (aG2 m c)) (vec (aB2 m c))

/-- At the third kernel's exit its output array is that feature map. -/
theorem v6_out (n : Fin 65536) (o : Fin 64) :
    (W6 m ρ c (Proc.devRef .tc main_v26) : S65536x64.Idx → EReal) (ix2 n o) = Out m c n o := by
  have e' : (W6 m ρ c (Proc.devRef .tc main_v26) : S65536x64.Idx → EReal) = ((dat2 (V5 m ρ) c).arrAt 6 cfg2.N : S65536x64.Idx → EReal) := W6_arr m ρ c 6
  rw [e', R2.out_apply (V5 m ρ) c n o]
  unfold R2.bnResT
  rw [v5_h2, v5_mean, v5_var, v5_gamma, v5_beta, v5_x]
  rfl

/-- The result array after the whole program. -/
theorem kernel_out :
    (W7 m ρ c (Proc.devRef .tc main_v28) : S16x64x64x64.Idx → EReal) = unflat (Out m c) := by
  funext i
  obtain ⟨b, o, h, w, rfl⟩ : ∃ (b : Fin 16) (o h w : Fin 64), i = ix4 b o h w := ⟨i 0, i 1, i 2, i 3, eq_ix4 i⟩
  rw [show (W7 m ρ c (Proc.devRef .tc main_v28) : S16x64x64x64.Idx → EReal) (ix4 b o h w) = _ from Host.out_apply (W6 m ρ c) b o h w, v6_out]
  rfl

end Cert.KernelIdeal.Chain

end
-- ==== Proof.Moments.lean ====
/-
  The moment identities that join the two normalisations.

  For a feature map whose entries are real numbers and a real shift K, the mean recovered from the first
  moment of d − K is the two-pass mean, and the second moment of d − K minus the squared first moment is the
  two-pass variance. The extended-real sums are sums of coerced reals, so each side is the coercion of a real
  expression, and the identities are the usual ones over the reals:
      Σ (r − k) = Σ r − N k,          Σ (r − k)² / N − (Σ (r − k) / N)² = Σ (r − m)² / N   with m = Σ r / N.
  The two-pass variance of a real map is a mean of squares, hence a non-negative real, so the variance plus a
  positive offset is a positive real and its reciprocal square root is a real.
-/
import proofs.«134045_j71545565217396_2_alg».proof.Proof.Spec

noncomputable section

namespace Cert.ResBlock

open Idealize.ShloMosaic

/-! ## Real values among the extended reals -/

/-- An extended real that is (the coercion of) a real number. -/
def IsR (y : EReal) : Prop := ∃ r : ℝ, y = (r : EReal)

theorem IsR.coe (r : ℝ) : IsR (r : EReal) := ⟨r, rfl⟩

theorem IsR.zero : IsR (0 : EReal) := ⟨0, rfl⟩

theorem IsR.add {a b : EReal} (ha : IsR a) (hb : IsR b) : IsR (a + b) := by
  obtain ⟨x, rfl⟩ := ha; obtain ⟨y, rfl⟩ := hb; exact ⟨x + y, (EReal.coe_add x y).symm⟩

theorem IsR.neg {a : EReal} (ha : IsR a) : IsR (-a) := by
  obtain ⟨x, rfl⟩ := ha; exact ⟨-x, (EReal.coe_neg x).symm⟩

theorem IsR.sub {a b : EReal} (ha : IsR a) (hb : IsR b) : IsR (a - b) := by
  obtain ⟨x, rfl⟩ := ha; obtain ⟨y, rfl⟩ := hb; exact ⟨x - y, (EReal.coe_sub x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.max {a b : EReal} (ha : IsR a) (hb : IsR b) : IsR (max a b) := by
  obtain ⟨x, rfl⟩ := ha; obtain ⟨y, rfl⟩ := hb
  exact ⟨Max.max x y, (EReal.coe_strictMono.monotone.map_max).symm⟩

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) {f : ι → EReal} (hf : ∀ i, IsR (f i)) : IsR (∑ i ∈ s, f i) := by
  choose g hg using hf
  refine ⟨∑ i ∈ s, g i, ?_⟩
  rw [coe_sum]
  exact Finset.sum_congr rfl (fun i _ => hg i)

theorem IsR.eabs {a : EReal} (ha : IsR a) : IsR (eabs a) := IsR.max ha ha.neg

/-! ## The constants -/

/-- The pixel count is the real 65536. -/
theorem cN_eq : cN = ((65536 : ℝ) : EReal) := by
  unfold cN; simp [Ideal.ofBits, Ideal.ieee, -EReal.coe_mul]; norm_num

/-- The variance offset is a positive real. -/
theorem cEps_pos : ∃ e : ℝ, 0 < e ∧ cEps = (e : EReal) := by
  refine ⟨10995116 * (2 ^ 40)⁻¹, by positivity, ?_⟩
  unfold cEps; simp [Ideal.ofBits, Ideal.ieee, -EReal.coe_mul]

/-- The first shift is a real. -/
theorem cK1_real : ∃ k : ℝ, cK1 = (k : EReal) := by
  refine ⟨-(13386282 * (2 ^ 18)⁻¹), ?_⟩
  unfold cK1; simp [Ideal.ofBits, Ideal.ieee, -EReal.coe_mul]

/-- The second shift is a real. -/
theorem cK2_real : ∃ k : ℝ, cK2 = (k : EReal) := by
  refine ⟨-(13386282 * (2 ^ 19)⁻¹), ?_⟩
  unfold cK2; simp [Ideal.ofBits, Ideal.ieee, -EReal.coe_mul]

/-- Division by the pixel count is the product with its reciprocal. -/
theorem div_cN (y : EReal) : Ideal.div y cN = y * ((1 / 65536 : ℝ) : EReal) := by
  rw [cN_eq, Ideal.div_coe (by norm_num : (65536 : ℝ) ≠ 0)]

/-! ## The identities over the reals -/

/-- Σ (f − k) / N + k = Σ f / N when N is the number of terms. -/
theorem real_meanK (f : Px → ℝ) (k : ℝ) :
    (∑ n : Px, (f n - k)) * (1 / 65536) + k = (∑ n : Px, f n) * (1 / 65536) := by
  rw [Finset.sum_sub_distrib, Finset.sum_const, Finset.card_univ, Fintype.card_fin, nsmul_eq_mul]
  push_cast
  ring

/-- Σ (f − k)² / N − (Σ (f − k) / N)² = Σ (f − m)² / N with m = Σ f / N, when N is the number of terms. -/
theorem real_varK (f : Px → ℝ) (k : ℝ) :
    (∑ n : Px, (f n - k) * (f n - k)) * (1 / 65536)
        - (∑ n : Px, (f n - k)) * (1 / 65536) * ((∑ n : Px, (f n - k)) * (1 / 65536))
      = (∑ n : Px, (f n - (∑ n : Px, f n) * (1 / 65536)) * (f n - (∑ n : Px, f n) * (1 / 65536))) * (1 / 65536) := by
  have expand : ∀ c : ℝ, (∑ n : Px, (f n - c) * (f n - c))
      = (∑ n : Px, f n * f n) - 2 * c * (∑ n : Px, f n) + 65536 * (c * c) := by
    intro c
    have h1 : ∀ n : Px, (f n - c) * (f n - c) = f n * f n - 2 * c * f n + c * c := fun n => by ring
    rw [Finset.sum_congr rfl (fun n _ => h1 n), Finset.sum_add_distrib, Finset.sum_sub_distrib,
      ← Finset.mul_sum, Finset.sum_const, Finset.card_univ, Fintype.card_fin, nsmul_eq_mul]
    push_cast
    ring
  rw [expand k, expand ((∑ n : Px, f n) * (1 / 65536)), Finset.sum_sub_distrib, Finset.sum_const,
    Finset.card_univ, Fintype.card_fin, nsmul_eq_mul]
  push_cast
  ring

/-! ## The moments of a real feature map, as coerced reals -/

section Coe
variable (r : Px → Ch → ℝ) (o : Ch)

theorem mean_coe : mean (fun n o => (r n o : EReal)) o = (((∑ n : Px, r n o) * (1 / 65536) : ℝ) : EReal) := by
  unfold mean
  rw [div_cN, ← coe_sum, ← EReal.coe_mul]

theorem var_coe : var (fun n o => (r n o : EReal)) o
    = (((∑ n : Px, (r n o - (∑ n : Px, r n o) * (1 / 65536)) * (r n o - (∑ n : Px, r n o) * (1 / 65536)))
        * (1 / 65536) : ℝ) : EReal) := by
  unfold var
  rw [mean_coe, div_cN]
  simp only [← EReal.coe_sub, ← EReal.coe_mul, ← coe_sum]

theorem shiftSum_coe (k : ℝ) : shiftSum (k : EReal) (fun n o => (r n o : EReal)) o
    = ((∑ n : Px, (r n o - k) : ℝ) : EReal) := by
  unfold shiftSum
  simp only [← EReal.coe_sub, ← coe_sum]

theorem shiftSq_coe (k : ℝ) : shiftSq (k : EReal) (fun n o => (r n o : EReal)) o
    = ((∑ n : Px, (r n o - k) * (r n o - k) : ℝ) : EReal) := by
  unfold shiftSq
  simp only [← EReal.coe_sub, ← EReal.coe_mul, ← coe_sum]

theorem meanK_coe (k : ℝ) : meanK (k : EReal) (fun n o => (r n o : EReal)) o = mean (fun n o => (r n o : EReal)) o := by
  unfold meanK
  rw [shiftSum_coe, mean_coe, div_cN, ← EReal.coe_mul, ← EReal.coe_add, real_meanK]

theorem varK_coe (k : ℝ) : varK (k : EReal) (fun n o => (r n o : EReal)) o = var (fun n o => (r n o : EReal)) o := by
  unfold varK
  rw [shiftSum_coe, shiftSq_coe, var_coe, div_cN, div_cN, ← EReal.coe_mul, ← EReal.coe_mul, ← EReal.coe_mul,
    ← EReal.coe_sub, real_varK]

end Coe

/-! ## The statements for a feature map with real entries -/

section Real
variable {d : Fm} (hd : ∀ n o, ∃ r : ℝ, d n o = (r : EReal))
include hd

/-- A map with real entries is the coercion of a real map. -/
theorem exists_real_map : ∃ r : Px → Ch → ℝ, d = fun n o => (r n o : EReal) := by
  choose r hr using hd
  exact ⟨r, funext fun n => funext fun o => hr n o⟩

/-- The mean recovered from the shifted first moment is the mean. -/
theorem meanK_eq_mean {K : EReal} (hK : ∃ k : ℝ, K = (k : EReal)) (o : Ch) : meanK K d o = mean d o := by
  obtain ⟨r, rfl⟩ := exists_real_map hd
  obtain ⟨k, rfl⟩ := hK
  exact meanK_coe r o k

/-- The second shifted moment minus the squared first is the two-pass variance. -/
theorem varK_eq_var {K : EReal} (hK : ∃ k : ℝ, K = (k : EReal)) (o : Ch) : varK K d o = var d o := by
  obtain ⟨r, rfl⟩ := exists_real_map hd
  obtain ⟨k, rfl⟩ := hK
  exact varK_coe r o k

/-- The same, as functions of the channel. -/
theorem meanK_eq_mean_fun {K : EReal} (hK : ∃ k : ℝ, K = (k : EReal)) : meanK K d = mean d :=
  funext (meanK_eq_mean hd hK)

theorem varK_eq_var_fun {K : EReal} (hK : ∃ k : ℝ, K = (k : EReal)) : varK K d = var d :=
  funext (varK_eq_var hd hK)

/-- The mean of a real map is real. -/
theorem mean_real (o : Ch) : ∃ m : ℝ, mean d o = (m : EReal) := by
  obtain ⟨r, rfl⟩ := exists_real_map hd
  exact ⟨_, mean_coe r o⟩

/-- The variance of a real map is a non-negative real. -/
theorem var_nonneg_real (o : Ch) : ∃ v : ℝ, 0 ≤ v ∧ var d o = (v : EReal) := by
  obtain ⟨r, rfl⟩ := exists_real_map hd
  refine ⟨_, ?_, var_coe r o⟩
  exact mul_nonneg (Finset.sum_nonneg fun n _ => mul_self_nonneg _) (by norm_num)

/-- The variance plus the offset is a positive real. -/
theorem var_add_eps_pos (o : Ch) : ∃ v : ℝ, 0 < v ∧ var d o + cEps = (v : EReal) := by
  obtain ⟨v, hv, hvar⟩ := var_nonneg_real hd o
  obtain ⟨e, he, heps⟩ := cEps_pos
  exact ⟨v + e, by linarith, by rw [hvar, heps, EReal.coe_add]⟩

/-- The reciprocal square root of the variance plus the offset is a real. -/
theorem rsqrt_var_real (o : Ch) : ∃ s : ℝ, Ideal.rsqrt (var d o + cEps) = (s : EReal) := by
  obtain ⟨v, hv, h⟩ := var_add_eps_pos hd o
  refine ⟨(Real.sqrt v)⁻¹, ?_⟩
  rw [h, Ideal.rsqrt_coe, if_neg (not_lt.mpr hv.le), if_neg hv.ne']

end Real

end Cert.ResBlock

end
-- ==== Proof.Bridge.lean ====
/-
  The block computed with shifted moments is the block computed with the two-pass mean and variance.

  An adder layer of real inputs has real entries (an absolute value of a real, a finite sum, a negation), so
  the moment identities apply to the first layer's output: its two pairs (mean, variance) agree, hence so does
  the first activation. That activation again has real entries (the normalisation is a product of reals with a
  real reciprocal square root, plus a real; the rectifier is a maximum with 0), so the second adder layer's
  output is real, its two pairs of moments agree, and the whole block agrees.
-/
import proofs.«134045_j71545565217396_2_alg».proof.Proof.Moments

noncomputable section

namespace Cert.ResBlock

open Idealize.ShloMosaic

section
variable {x : Fm} {w1 w2 : Ch → Ch → EReal} {g1 b1 : Ch → EReal}

/-- The adder layer of real inputs has real entries. -/
theorem adder_real {x : Fm} {w : Ch → Ch → EReal}
    (hx : ∀ n c, ∃ r : ℝ, x n c = (r : EReal)) (hw : ∀ o c, ∃ r : ℝ, w o c = (r : EReal)) (n : Px) (o : Ch) :
    ∃ r : ℝ, adder x w n o = (r : EReal) := by
  unfold adder
  exact (IsR.sum _ fun c => IsR.eabs (IsR.sub (hx n c) (hw o c))).neg

/-- The normalisation of a real map with real mean, real reciprocal deviation, real scale and shift is real. -/
theorem bn_real {μ v γ β : Ch → EReal} {h : Fm}
    (hμ : ∀ o, ∃ r : ℝ, μ o = (r : EReal)) (hs : ∀ o, ∃ r : ℝ, Ideal.rsqrt (v o + cEps) = (r : EReal))
    (hγ : ∀ o, ∃ r : ℝ, γ o = (r : EReal)) (hβ : ∀ o, ∃ r : ℝ, β o = (r : EReal))
    (hh : ∀ n o, ∃ r : ℝ, h n o = (r : EReal)) (n : Px) (o : Ch) :
    ∃ r : ℝ, bn μ v γ β h n o = (r : EReal) := by
  unfold bn
  exact IsR.add (IsR.mul (IsR.mul (IsR.sub (hh n o) (hμ o)) (hs o)) (hγ o)) (hβ o)

variable (hx : ∀ n c, ∃ r : ℝ, x n c = (r : EReal)) (hw1 : ∀ o c, ∃ r : ℝ, w1 o c = (r : EReal))
  (hg1 : ∀ o, ∃ r : ℝ, g1 o = (r : EReal)) (hb1 : ∀ o, ∃ r : ℝ, b1 o = (r : EReal))
  (hw2 : ∀ o c, ∃ r : ℝ, w2 o c = (r : EReal))

include hx hw1 in
/-- The first activation does not depend on which form of the moments is used. -/
theorem act1_shift_eq : act1 (meanK cK1) (varK cK1) x w1 g1 b1 = act1 mean var x w1 g1 b1 := by
  have hd := adder_real hx hw1
  unfold act1
  rw [meanK_eq_mean_fun hd cK1_real, varK_eq_var_fun hd cK1_real]

include hx hw1 hg1 hb1 in
/-- The first activation has real entries. -/
theorem act1_real (n : Px) (o : Ch) : ∃ r : ℝ, act1 mean var x w1 g1 b1 n o = (r : EReal) := by
  have hd := adder_real hx hw1
  unfold act1
  exact IsR.max (bn_real (mean_real hd) (rsqrt_var_real hd) hg1 hb1 hd n o) IsR.zero

include hx hw1 in
/-- The second adder layer's output does not depend on which form of the first moments is used. -/
theorem d2_shift_eq : d2 (meanK cK1) (varK cK1) x w1 g1 b1 w2 = d2 mean var x w1 g1 b1 w2 := by
  unfold d2
  rw [act1_shift_eq hx hw1]

include hx hw1 hg1 hb1 hw2 in
/-- The second adder layer's output has real entries. -/
theorem d2_real (n : Px) (o : Ch) : ∃ r : ℝ, d2 mean var x w1 g1 b1 w2 n o = (r : EReal) := by
  unfold d2
  exact adder_real (act1_real hx hw1 hg1 hb1) hw2 n o

end

/-- The block with the shifted-moment normalisations is the block with the two-pass normalisations, on real
    inputs, first-layer weights, first scale and shift, and second-layer weights. -/
theorem net_shift_eq (x : Fm) (w1 w2 : Ch → Ch → EReal) (g1 b1 g2 b2 : Ch → EReal)
    (hx : ∀ n c, ∃ r : ℝ, x n c = (r : EReal)) (hw1 : ∀ o c, ∃ r : ℝ, w1 o c = (r : EReal))
    (hg1 : ∀ o, ∃ r : ℝ, g1 o = (r : EReal)) (hb1 : ∀ o, ∃ r : ℝ, b1 o = (r : EReal))
    (hw2 : ∀ o c, ∃ r : ℝ, w2 o c = (r : EReal)) :
    net (meanK cK1) (varK cK1) (meanK cK2) (varK cK2) x w1 g1 b1 w2 g2 b2
      = net mean var mean var x w1 g1 b1 w2 g2 b2 := by
  have h2 : d2 (meanK cK1) (varK cK1) x w1 g1 b1 w2 = d2 mean var x w1 g1 b1 w2 := d2_shift_eq hx hw1
  have hd2 := d2_real hx hw1 hg1 hb1 hw2
  unfold net
  rw [h2, meanK_eq_mean_fun hd2 cK2_real, varK_eq_var_fun hd2 cK2_real]

end Cert.ResBlock

end
-- ==== Proof.LibFiniteInputs.lean ====
/-
  Finiteness of an input array, read back from one conjunct of a precondition of the usual form
  "all(|a| < +inf)".

  Such a conjunct compares, entry by entry, the absolute value of the array with the scalar whose pattern has an
  all-ones exponent field and a zero significand, broadcast to the array's shape, and reduces the comparison by
  conjunction over every axis into a single bit. Over the extended reals that pattern denotes +∞ and the absolute
  value of x is max(x, −x); a reduction by conjunction into a single bit that is one has every element one; and
  max(x, −x) < +∞ rules out x = +∞ and x = −∞, leaving a real number. So if the conjunct's bit is one, every entry of
  the array is (the inclusion of) a real number — which is what a law that needs distributivity or cancellation asks.
  A precondition that joins several such conjuncts by `and` is split with `IntOp.andi_eq_one` first.
-/
import Idealize.ShloMosaic.Lib.ReduceAll
import Idealize.ShloMosaic.Lib.ValueIdx
import Idealize.ShloMosaic.PureOps.Ideal

noncomputable section

namespace Cert.Lib.FiniteInputs

open Idealize.ShloMosaic

/-- The single-precision pattern with an all-ones exponent field, zero significand and clear sign denotes +∞. -/
theorem ofBits_pos_inf : Ideal.ofBits .f32 0x7F800000#32 = (⊤ : EReal) := by
  simp [Ideal.ofBits, Ideal.ieee]

/-- An extended real whose absolute value max(x, −x) is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-zero shape has a single index. -/
instance subsingleton_scalar_idx : Subsingleton (⟨0, ![]⟩ : Shape).Idx := ⟨fun _ _ => funext fun d => d.elim0⟩

/-- One conjunct: if "every entry's absolute value is below the all-ones-exponent pattern", reduced by conjunction
    over all axes into one bit, is one, then every entry of the array is real. -/
theorem real_of_all_lt_inf {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
        (cmpf .olt (Host.absf a)
          (broadcastInDim s ![] bc (constant (F := Ideal) (⟨0, ![]⟩ : Shape) .f32 0x7F800000#32)))
        init hr hu j = 1#1) :
    ∀ i, ∃ r : ℝ, a i = (r : EReal) := by
  intro i
  have hi := Host.reduce_andi_all _ init hr hu j e i
  have hi' : Ideal.cmp .olt (max (a i) (-(a i))) (Ideal.ofBits .f32 0x7F800000#32) = 1#1 := hi
  rw [ofBits_pos_inf] at hi'
  refine real_of_abs_lt_top (a i) ?_
  by_contra hn
  simp [Ideal.cmp, hn] at hi'

end Cert.Lib.FiniteInputs

end
-- ==== Proof.Finite.lean ====
/-
  From the precondition to real numbers: every entry of the input feature map, of the two weight matrices and
  of the first scale and shift vectors is a real number.

  The precondition is a conjunction, one conjunct per float input, of "every entry's absolute value is below
  +∞", each reduced by conjunction over all axes into one bit. The conjunction is one exactly when every
  conjunct is one, and a conjunct that is one makes every entry of its array real.
-/
import proofs.«134045_j71545565217396_2_alg».proof.Defs
import proofs.«134045_j71545565217396_2_alg».proof.Proof.LibFiniteInputs
import proofs.«134045_j71545565217396_2_alg».proof.Proof.Spec

noncomputable section

namespace Cert.ResBlock

open Idealize.ShloMosaic Idealize.SL.Sem

open Cert.Pre_finite_inputs in
/-- The precondition's function of seven arrays is one only if every entry of every array is real. -/
theorem real_of_fn [hP : Cert.Pre_finite_inputs.Facts]
    (a0 : FVec Ideal S16x64x64x64 .f32) (a1 : FVec Ideal S64x64 .f32) (a2 a3 : FVec Ideal S64 .f32)
    (a4 : FVec Ideal S64x64 .f32) (a5 a6 : FVec Ideal S64 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Cert.Lib.FiniteInputs.real_of_all_lt_inf a0 _ _ _ _ _ e0,
    Cert.Lib.FiniteInputs.real_of_all_lt_inf a1 _ _ _ _ _ e1,
    Cert.Lib.FiniteInputs.real_of_all_lt_inf a2 _ _ _ _ _ e2,
    Cert.Lib.FiniteInputs.real_of_all_lt_inf a3 _ _ _ _ _ e3,
    Cert.Lib.FiniteInputs.real_of_all_lt_inf a4 _ _ _ _ _ e4,
    Cert.Lib.FiniteInputs.real_of_all_lt_inf a5 _ _ _ _ _ e5,
    Cert.Lib.FiniteInputs.real_of_all_lt_inf a6 _ _ _ _ _ e6⟩

/-- Under the idealized kernel's precondition, on every device, the input feature map, the first weight
    matrix, the first scale and shift vectors and the second weight matrix hold real numbers only. -/
theorem real_inputs [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) := by
  obtain ⟨h0, h1, h2, h3, h4, _, _⟩ := real_of_fn _ _ _ _ _ _ _ (h c)
  exact ⟨h0, h1, h2, h3, h4⟩

/-- The same for the idealized reference's precondition. -/
theorem real_inputs_ref [hP : Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
      ∧ (∀ i, ∃ r : ℝ, m ((c.tc : Thread Cert.ReferenceIdeal.nD Cert.ReferenceIdeal.τ).loc Cert.ReferenceIdeal.main_arg1) i = (r : EReal))
      ∧ (∀ i, ∃ r : ℝ, m ((c.tc : Thread Cert.ReferenceIdeal.nD Cert.ReferenceIdeal.τ).loc Cert.ReferenceIdeal.main_arg2) i = (r : EReal))
      ∧ (∀ i, ∃ r : ℝ, m ((c.tc : Thread Cert.ReferenceIdeal.nD Cert.ReferenceIdeal.τ).loc Cert.ReferenceIdeal.main_arg3) i = (r : EReal))
      ∧ (∀ i, ∃ r : ℝ, m ((c.tc : Thread Cert.ReferenceIdeal.nD Cert.ReferenceIdeal.τ).loc Cert.ReferenceIdeal.main_arg4) i = (r : EReal)) := by
  obtain ⟨h0, h1, h2, h3, h4, _, _⟩ := real_of_fn _ _ _ _ _ _ _ (h c)
  exact ⟨h0, h1, h2, h3, h4⟩

/-! ## The same facts through the layout maps -/

/-- A real array indexed (batch, channel, row, column) is a real feature map. -/
theorem flat_real {x : (⟨4, ![16, 64, 64, 64]⟩ : Shape).Idx → EReal} (hx : ∀ i, ∃ r : ℝ, x i = (r : EReal)) (n : Px) (c : Ch) :
    ∃ r : ℝ, flat x n c = (r : EReal) := hx _

/-- A real [64, 64] array is a real matrix of channels. -/
theorem mat_real {w : (⟨2, ![64, 64]⟩ : Shape).Idx → EReal} (hw : ∀ i, ∃ r : ℝ, w i = (r : EReal)) (o c : Ch) :
    ∃ r : ℝ, mat w o c = (r : EReal) := hw _

/-- A real [64] array is a real vector of channels. -/
theorem vec_real {g : (⟨1, ![64]⟩ : Shape).Idx → EReal} (hg : ∀ i, ∃ r : ℝ, g i = (r : EReal)) (o : Ch) :
    ∃ r : ℝ, vec g o = (r : EReal) := hg _

/-- Under the idealized kernel's precondition, on every device: the input as a feature map, the two weight
    arrays as matrices of channels and the first scale and shift as vectors of channels are real. -/
theorem real_inputs_spec [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ n ch, ∃ r : ℝ, flat (m ((c.tc : Thread Cert.KernelIdeal.nD Cert.KernelIdeal.τ).loc Cert.KernelIdeal.main_arg0)) n ch = (r : EReal))
      ∧ (∀ o ch, ∃ r : ℝ, mat (m ((c.tc : Thread Cert.KernelIdeal.nD Cert.KernelIdeal.τ).loc Cert.KernelIdeal.main_arg1)) o ch = (r : EReal))
      ∧ (∀ o, ∃ r : ℝ, vec (m ((c.tc : Thread Cert.KernelIdeal.nD Cert.KernelIdeal.τ).loc Cert.KernelIdeal.main_arg2)) o = (r : EReal))
      ∧ (∀ o, ∃ r : ℝ, vec (m ((c.tc : Thread Cert.KernelIdeal.nD Cert.KernelIdeal.τ).loc Cert.KernelIdeal.main_arg3)) o = (r : EReal))
      ∧ (∀ o ch, ∃ r : ℝ, mat (m ((c.tc : Thread Cert.KernelIdeal.nD Cert.KernelIdeal.τ).loc Cert.KernelIdeal.main_arg4)) o ch = (r : EReal)) := by
  obtain ⟨h0, h1, h2, h3, h4, _, _⟩ := real_of_fn _ _ _ _ _ _ _ (h c)
  exact ⟨flat_real h0, mat_real h1, vec_real h2, vec_real h3, mat_real h4⟩

end Cert.ResBlock

end
-- ==== Proof.RefRun.Ops.lean ====
/-
  The reference as one straight line. Its entry function is sixty-five operations of its own and four calls:
  the variance function twice (twenty operations and, inside it, the three of the selection function) and the
  rectifier function twice (three operations). Calling a function is running its operations at the call's own
  buffers, so the whole program is the list below, one hundred and seventeen operations in program order, and
  its run is the fold of their results over the contents the buffers start with.
-/
import proofs.«134045_j71545565217396_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations in order, each called function's operations standing at its call, over that call's
    buffers: the first adder layer (1–11), its per-channel mean (12–17), the integer zero the variance function
    takes (18), the variance function (19–41), the first normalisation, scale and shift (42–55), the rectifier
    (56–58); the same again for the second layer (59–113); the residual sum (114) and the last rectifier
    (115–117). -/
abbrev ops : List (HloOp τ sig (Elt F)) :=
  [
    StableHlo.unary main_arg0 main_v0 ((transpose S16x64x64x64 [0, 2, 3, 1] · transposes_S16x64x64x64_S16x64x64x64_0_2_3_1) : (⟨S16x64x64x64, .f32⟩ : BufTy).Contents (Elt F) → (⟨S16x64x64x64, .f32⟩ : BufTy).Contents (Elt F)),
    StableHlo.unary main_v0 main_v1 (broadcastInDim S16x64x64x1x64 ![0, 1, 2, 4] bcast_S16x64x64x64_S16x64x64x1x64_0_1_2_4 : (⟨S16x64x64x64, .f32⟩ : BufTy).Contents (Elt F) → (⟨S16x64x64x1x64, .f32⟩ : BufTy).Contents (Elt F)),
    StableHlo.unary main_arg1 main_v2 (broadcastInDim S1x1x1x64x64 ![3, 4] bcast_S64x64_S1x1x1x64x64_3_4 : (⟨S64x64, .f32⟩ : BufTy).Contents (Elt F) → (⟨S1x1x1x64x64, .f32⟩ : BufTy).Contents (Elt F)),
    StableHlo.unary main_v1 main_v3 (broadcastInDim S16x64x64x64x64 ![0, 1, 2, 3, 4] bcast_S16x64x64x1x64_S16x64x64x64x64_0_1_2_3_4 : (⟨S16x64x64x1x64, .f32⟩ : BufTy).Contents (Elt F) → (⟨S16x64x64x64x64, .f32⟩ : BufTy).Contents (Elt F)),
    StableHlo.unary main_v2 main_v4 (broadcastInDim S16x64x64x64x64 ![0, 1, 2, 3, 4] bcast_S1x1x1x64x64_S16x64x64x64x64_0_1_2_3_4 : (⟨S1x1x1x64x64, .f32⟩ : BufTy).Contents (Elt F) → (⟨S16x64x64x64x64, .f32⟩ : BufTy).Contents (Elt F)),
    StableHlo.binary main_v3 main_v4 main_v5 (subf : (⟨S16x64x64x64x64, .f32⟩ : BufTy).Contents (Elt F) → (⟨S16x64x64x64x64, .f32⟩ : BufTy).Contents (Elt F) → (⟨S16x64x64x64x64, .f32⟩ : BufTy).Contents (Elt F)),
    StableHlo.unary main_v5 main_v6 (Host.absf : (⟨S16x64x64x64x64, .f32⟩ : BufTy).Contents (Elt F) → (⟨S16x64x64x64x64, .f32⟩ : BufTy).Contents (Elt F)),
    StableHlo.nullary main_cst (constant S_ .f32 0x00000000#32),
    StableHlo.binary main_v6 main_cst main_v7 ((fun x v => Host.reduceAdd x v reducesTo_S16x64x64x64x64_S16x64x64x64_d4 h_S_) : (⟨S16x64x64x64x64, .f32⟩ : BufTy).Contents (Elt F) → (⟨S_, .f32⟩ : BufTy).Contents (Elt F) → (⟨S16x64x64x64, .f32⟩ : BufTy).Contents (Elt F)),
    StableHlo.unary main_v7 main_v8 (Host.negf : (⟨S16x64x64x64, .f32⟩ : BufTy).Contents (Elt F) → (⟨S16x64x64x64, .f32⟩ : BufTy).Contents (Elt F)),
    StableHlo.unary main_v8 main_v9 ((transpose S16x64x64x64 [0, 3, 1, 2] · transposes_S16x64x64x64_S16x64x64x64_0_3_1_2) : (⟨S16x64x64x64, .f32⟩ : BufTy).Contents (Elt F) → (⟨S16x64x64x64, .f32⟩ : BufTy).Contents (Elt F)),
    StableHlo.nullary main_cst_0 (constant S_ .f32 0x00000000#32),
    StableHlo.binary main_v9 main_cst_0 main_v10 ((fun x v => Host.reduceAdd x v reducesTo_S16x64x64x64_S64_d0_2_3 h_S_) : (⟨S16x64x64x64, .f32⟩ : BufTy).Contents (Elt F) → (⟨S_, .f32⟩ : BufTy).Contents (Elt F) → (⟨S64, .f32⟩ : BufTy).Contents (Elt F)),
    StableHlo.unary main_v10 main_v11 (broadcastInDim S1x64x1x1 ![1] bcast_S64_S1x64x1x1_1 : (⟨S64, .f32⟩ : BufTy).Contents (Elt F) → (⟨S1x64x1x1, .f32⟩ : BufTy).Contents (Elt F)),
    StableHlo.nullary main_cst_1 (constant S_ .f32 0x47800000#32),
    StableHlo.unary main_cst_1 main_v12 (broadcastInDim S1x64x1x1 ![] bcast_S_S1x64x1x1 : (⟨S_, .f32⟩ : BufTy).Contents (Elt F) → (⟨S1x64x1x1, .f32⟩ : BufTy).Contents (Elt F)),
    StableHlo.binary main_v11 main_v12 main_v13 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c (constantI S_ 32 0#32),
    StableHlo.TRef.nullary main_call0.cst (constant S_ .f32 0x00000000#32),
    StableHlo.TRef.binary (.of main_v9 : StableHlo.TRef sig ⟨S16x64x64x64, .f32⟩) main_call0.cst main_call0.v0 (fun x v => Host.reduceAdd x v reducesTo_S16x64x64x64_S64_d0_2_3 h_S_),
    StableHlo.TRef.unary main_call0.v0 main_call0.v1 (broadcastInDim S1x64x1x1 ![1] bcast_S64_S1x64x1x1_1),
    StableHlo.TRef.nullary main_call0.cst_0 (constant S_ .f32 0x47800000#32),
    StableHlo.TRef.unary main_call0.cst_0 main_call0.v2 (broadcastInDim S1x64x1x1 ![] bcast_S_S1x64x1x1),
    StableHlo.TRef.binary main_call0.v1 main_call0.v2 main_call0.v3 Host.divf,
    StableHlo.TRef.unary main_call0.v3 main_call0.v4 (broadcastInDim S16x64x64x64 ![0, 1, 2, 3] bcast_S1x64x1x1_S16x64x64x64_0_1_2_3),
    StableHlo.TRef.binary (.of main_v9 : StableHlo.TRef sig ⟨S16x64x64x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x64x64x64_S64_d0_2_3 h_S_),
    StableHlo.TRef.unary main_call0.v9 main_call0.v10 (broadcastInDim S1x64x1x1 ![1] bcast_S64_S1x64x1x1_1),
    StableHlo.TRef.unary main_call0.v8 main_call0.v11 (broadcastInDim S1x64x1x1 ![] bcast_S_S1x64x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x64x1x1 ![] bcast_S_S1x64x1x1),
    StableHlo.TRef.ternary main_call0.v13 main_call0.v12 main_call0.call0.v1 main_call0.call0.v2 (fun p a b => select (broadcastInDim S1x64x1x1 ![] bcast_S_S1x64x1x1 p) a b),
    StableHlo.unary main_v13 main_v15 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v9 main_v15 main_v16 (subf : (⟨S16x64x64x64, .f32⟩ : BufTy).Contents (Elt F) → (⟨S16x64x64x64, .f32⟩ : BufTy).Contents (Elt F) → (⟨S16x64x64x64, .f32⟩ : BufTy).Contents (Elt F)),
    StableHlo.nullary main_cst_2 (constant S_ .f32 0x3727C5AC#32),
    StableHlo.unary main_cst_2 main_v17 (broadcastInDim S1x64x1x1 ![] bcast_S_S1x64x1x1 : (⟨S_, .f32⟩ : BufTy).Contents (Elt F) → (⟨S1x64x1x1, .f32⟩ : BufTy).Contents (Elt F)),
    StableHlo.binary main_v14 main_v17 main_v18 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v18 main_v19 (Host.rsqrt : (⟨S1x64x1x1, .f32⟩ : BufTy).Contents (Elt F) → (⟨S1x64x1x1, .f32⟩ : BufTy).Contents (Elt F)),
    StableHlo.unary main_v19 main_v20 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v16 main_v20 main_v21 (mulf : (⟨S16x64x64x64, .f32⟩ : BufTy).Contents (Elt F) → (⟨S16x64x64x64, .f32⟩ : BufTy).Contents (Elt F) → (⟨S16x64x64x64, .f32⟩ : BufTy).Contents (Elt F)),
    StableHlo.unary main_arg2 main_v22 (broadcastInDim S1x64x1x1 ![1] bcast_S64_S1x64x1x1_1 : (⟨S64, .f32⟩ : BufTy).Contents (Elt F) → (⟨S1x64x1x1, .f32⟩ : BufTy).Contents (Elt F)),
    StableHlo.unary main_v22 main_v23 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v21 main_v23 main_v24 (mulf : (⟨S16x64x64x64, .f32⟩ : BufTy).Contents (Elt F) → (⟨S16x64x64x64, .f32⟩ : BufTy).Contents (Elt F) → (⟨S16x64x64x64, .f32⟩ : BufTy).Contents (Elt F)),
    StableHlo.unary main_arg3 main_v25 (broadcastInDim S1x64x1x1 ![1] bcast_S64_S1x64x1x1_1 : (⟨S64, .f32⟩ : BufTy).Contents (Elt F) → (⟨S1x64x1x1, .f32⟩ : BufTy).Contents (Elt F)),
    StableHlo.unary main_v25 main_v26 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v24 main_v26 main_v27 (addf : (⟨S16x64x64x64, .f32⟩ : BufTy).Contents (Elt F) → (⟨S16x64x64x64, .f32⟩ : BufTy).Contents (Elt F) → (⟨S16x64x64x64, .f32⟩ : BufTy).Contents (Elt F)),
    StableHlo.TRef.nullary main_call1.cst (constant S_ .f32 0x00000000#32),
    StableHlo.TRef.unary main_call1.cst main_call1.v0 (broadcastInDim S16x64x64x64 ![] bcast_S_S16x64x64x64),
    StableHlo.TRef.binary (.of main_v27 : StableHlo.TRef sig ⟨S16x64x64x64, .f32⟩) main_call1.v0 main_call1.v1 maximumf,
    StableHlo.unary main_v28 main_v29 ((transpose S16x64x64x64 [0, 2, 3, 1] · transposes_S16x64x64x64_S16x64x64x64_0_2_3_1) : (⟨S16x64x64x64, .f32⟩ : BufTy).Contents (Elt F) → (⟨S16x64x64x64, .f32⟩ : BufTy).Contents (Elt F)),
    StableHlo.unary main_v29 main_v30 (broadcastInDim S16x64x64x1x64 ![0, 1, 2, 4] bcast_S16x64x64x64_S16x64x64x1x64_0_1_2_4 : (⟨S16x64x64x64, .f32⟩ : BufTy).Contents (Elt F) → (⟨S16x64x64x1x64, .f32⟩ : BufTy).Contents (Elt F)),
    StableHlo.unary main_arg4 main_v31 (broadcastInDim S1x1x1x64x64 ![3, 4] bcast_S64x64_S1x1x1x64x64_3_4 : (⟨S64x64, .f32⟩ : BufTy).Contents (Elt F) → (⟨S1x1x1x64x64, .f32⟩ : BufTy).Contents (Elt F)),
    StableHlo.unary main_v30 main_v32 (broadcastInDim S16x64x64x64x64 ![0, 1, 2, 3, 4] bcast_S16x64x64x1x64_S16x64x64x64x64_0_1_2_3_4 : (⟨S16x64x64x1x64, .f32⟩ : BufTy).Contents (Elt F) → (⟨S16x64x64x64x64, .f32⟩ : BufTy).Contents (Elt F)),
    StableHlo.unary main_v31 main_v33 (broadcastInDim S16x64x64x64x64 ![0, 1, 2, 3, 4] bcast_S1x1x1x64x64_S16x64x64x64x64_0_1_2_3_4 : (⟨S1x1x1x64x64, .f32⟩ : BufTy).Contents (Elt F) → (⟨S16x64x64x64x64, .f32⟩ : BufTy).Contents (Elt F)),
    StableHlo.binary main_v32 main_v33 main_v34 (subf : (⟨S16x64x64x64x64, .f32⟩ : BufTy).Contents (Elt F) → (⟨S16x64x64x64x64, .f32⟩ : BufTy).Contents (Elt F) → (⟨S16x64x64x64x64, .f32⟩ : BufTy).Contents (Elt F)),
    StableHlo.unary main_v34 main_v35 (Host.absf : (⟨S16x64x64x64x64, .f32⟩ : BufTy).Contents (Elt F) → (⟨S16x64x64x64x64, .f32⟩ : BufTy).Contents (Elt F)),
    StableHlo.nullary main_cst_3 (constant S_ .f32 0x00000000#32),
    StableHlo.binary main_v35 main_cst_3 main_v36 ((fun x v => Host.reduceAdd x v reducesTo_S16x64x64x64x64_S16x64x64x64_d4 h_S_) : (⟨S16x64x64x64x64, .f32⟩ : BufTy).Contents (Elt F) → (⟨S_, .f32⟩ : BufTy).Contents (Elt F) → (⟨S16x64x64x64, .f32⟩ : BufTy).Contents (Elt F)),
    StableHlo.unary main_v36 main_v37 (Host.negf : (⟨S16x64x64x64, .f32⟩ : BufTy).Contents (Elt F) → (⟨S16x64x64x64, .f32⟩ : BufTy).Contents (Elt F)),
    StableHlo.unary main_v37 main_v38 ((transpose S16x64x64x64 [0, 3, 1, 2] · transposes_S16x64x64x64_S16x64x64x64_0_3_1_2) : (⟨S16x64x64x64, .f32⟩ : BufTy).Contents (Elt F) → (⟨S16x64x64x64, .f32⟩ : BufTy).Contents (Elt F)),
    StableHlo.nullary main_cst_4 (constant S_ .f32 0x00000000#32),
    StableHlo.binary main_v38 main_cst_4 main_v39 ((fun x v => Host.reduceAdd x v reducesTo_S16x64x64x64_S64_d0_2_3 h_S_) : (⟨S16x64x64x64, .f32⟩ : BufTy).Contents (Elt F) → (⟨S_, .f32⟩ : BufTy).Contents (Elt F) → (⟨S64, .f32⟩ : BufTy).Contents (Elt F)),
    StableHlo.unary main_v39 main_v40 (broadcastInDim S1x64x1x1 ![1] bcast_S64_S1x64x1x1_1 : (⟨S64, .f32⟩ : BufTy).Contents (Elt F) → (⟨S1x64x1x1, .f32⟩ : BufTy).Contents (Elt F)),
    StableHlo.nullary main_cst_5 (constant S_ .f32 0x47800000#32),
    StableHlo.unary main_cst_5 main_v41 (broadcastInDim S1x64x1x1 ![] bcast_S_S1x64x1x1 : (⟨S_, .f32⟩ : BufTy).Contents (Elt F) → (⟨S1x64x1x1, .f32⟩ : BufTy).Contents (Elt F)),
    StableHlo.binary main_v40 main_v41 main_v42 (Host.divf : (⟨S1x64x1x1, .f32⟩ : BufTy).Contents (Elt F) → (⟨S1x64x1x1, .f32⟩ : BufTy).Contents (Elt F) → (⟨S1x64x1x1, .f32⟩ : BufTy).Contents (Elt F)),
    StableHlo.nullary main_c_6 (constantI S_ 32 0#32),
    StableHlo.TRef.nullary main_call2.cst (constant S_ .f32 0x00000000#32),
    StableHlo.TRef.binary (.of main_v38 : StableHlo.TRef sig ⟨S16x64x64x64, .f32⟩) main_call2.cst main_call2.v0 (fun x v => Host.reduceAdd x v reducesTo_S16x64x64x64_S64_d0_2_3 h_S_),
    StableHlo.TRef.unary main_call2.v0 main_call2.v1 (broadcastInDim S1x64x1x1 ![1] bcast_S64_S1x64x1x1_1),
    StableHlo.TRef.nullary main_call2.cst_0 (constant S_ .f32 0x47800000#32),
    StableHlo.TRef.unary main_call2.cst_0 main_call2.v2 (broadcastInDim S1x64x1x1 ![] bcast_S_S1x64x1x1),
    StableHlo.TRef.binary main_call2.v1 main_call2.v2 main_call2.v3 Host.divf,
    StableHlo.TRef.unary main_call2.v3 main_call2.v4 (broadcastInDim S16x64x64x64 ![0, 1, 2, 3] bcast_S1x64x1x1_S16x64x64x64_0_1_2_3),
    StableHlo.TRef.binary (.of main_v38 : StableHlo.TRef sig ⟨S16x64x64x64, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x47800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S16x64x64x64_S64_d0_2_3 h_S_),
    StableHlo.TRef.unary main_call2.v9 main_call2.v10 (broadcastInDim S1x64x1x1 ![1] bcast_S64_S1x64x1x1_1),
    StableHlo.TRef.unary main_call2.v8 main_call2.v11 (broadcastInDim S1x64x1x1 ![] bcast_S_S1x64x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x64x1x1 ![] bcast_S_S1x64x1x1),
    StableHlo.TRef.ternary main_call2.v13 main_call2.v12 main_call2.call0.v1 main_call2.call0.v2 (fun p a b => select (broadcastInDim S1x64x1x1 ![] bcast_S_S1x64x1x1 p) a b),
    StableHlo.unary main_v42 main_v44 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v38 main_v44 main_v45 (subf : (⟨S16x64x64x64, .f32⟩ : BufTy).Contents (Elt F) → (⟨S16x64x64x64, .f32⟩ : BufTy).Contents (Elt F) → (⟨S16x64x64x64, .f32⟩ : BufTy).Contents (Elt F)),
    StableHlo.nullary main_cst_7 (constant S_ .f32 0x3727C5AC#32),
    StableHlo.unary main_cst_7 main_v46 (broadcastInDim S1x64x1x1 ![] bcast_S_S1x64x1x1 : (⟨S_, .f32⟩ : BufTy).Contents (Elt F) → (⟨S1x64x1x1, .f32⟩ : BufTy).Contents (Elt F)),
    StableHlo.binary main_v43 main_v46 main_v47 (addf : (⟨S1x64x1x1, .f32⟩ : BufTy).Contents (Elt F) → (⟨S1x64x1x1, .f32⟩ : BufTy).Contents (Elt F) → (⟨S1x64x1x1, .f32⟩ : BufTy).Contents (Elt F)),
    StableHlo.unary main_v47 main_v48 (Host.rsqrt : (⟨S1x64x1x1, .f32⟩ : BufTy).Contents (Elt F) → (⟨S1x64x1x1, .f32⟩ : BufTy).Contents (Elt F)),
    StableHlo.unary main_v48 main_v49 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v45 main_v49 main_v50 (mulf : (⟨S16x64x64x64, .f32⟩ : BufTy).Contents (Elt F) → (⟨S16x64x64x64, .f32⟩ : BufTy).Contents (Elt F) → (⟨S16x64x64x64, .f32⟩ : BufTy).Contents (Elt F)),
    StableHlo.unary main_arg5 main_v51 (broadcastInDim S1x64x1x1 ![1] bcast_S64_S1x64x1x1_1 : (⟨S64, .f32⟩ : BufTy).Contents (Elt F) → (⟨S1x64x1x1, .f32⟩ : BufTy).Contents (Elt F)),
    StableHlo.unary main_v51 main_v52 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v50 main_v52 main_v53 (mulf : (⟨S16x64x64x64, .f32⟩ : BufTy).Contents (Elt F) → (⟨S16x64x64x64, .f32⟩ : BufTy).Contents (Elt F) → (⟨S16x64x64x64, .f32⟩ : BufTy).Contents (Elt F)),
    StableHlo.unary main_arg6 main_v54 (broadcastInDim S1x64x1x1 ![1] bcast_S64_S1x64x1x1_1 : (⟨S64, .f32⟩ : BufTy).Contents (Elt F) → (⟨S1x64x1x1, .f32⟩ : BufTy).Contents (Elt F)),
    StableHlo.unary main_v54 main_v55 (broadcastInDim S16x64x64x64 ![0, 1, 2, 3] bcast_S1x64x1x1_S16x64x64x64_0_1_2_3 : (⟨S1x64x1x1, .f32⟩ : BufTy).Contents (Elt F) → (⟨S16x64x64x64, .f32⟩ : BufTy).Contents (Elt F)),
    StableHlo.binary main_v53 main_v55 main_v56 (addf : (⟨S16x64x64x64, .f32⟩ : BufTy).Contents (Elt F) → (⟨S16x64x64x64, .f32⟩ : BufTy).Contents (Elt F) → (⟨S16x64x64x64, .f32⟩ : BufTy).Contents (Elt F)),
    StableHlo.binary main_v56 main_arg0 main_v57 (addf : (⟨S16x64x64x64, .f32⟩ : BufTy).Contents (Elt F) → (⟨S16x64x64x64, .f32⟩ : BufTy).Contents (Elt F) → (⟨S16x64x64x64, .f32⟩ : BufTy).Contents (Elt F)),
    StableHlo.TRef.nullary main_call3.cst (constant S_ .f32 0x00000000#32),
    StableHlo.TRef.unary main_call3.cst main_call3.v0 (broadcastInDim S16x64x64x64 ![] bcast_S_S16x64x64x64),
    StableHlo.TRef.binary (.of main_v57 : StableHlo.TRef sig ⟨S16x64x64x64, .f32⟩) main_call3.v0 main_call3.v1 maximumf ]

set_option maxRecDepth 8192 in
set_option maxHeartbeats 4000000 in
/-- The entry function is that straight line: its two halves and the called functions' definitions opened at their calls,
    both sides are one chain of steps once sequencing is re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub ..,
    unary_bufs_sub .., nullary_bufs_sub .., binary_bufs_sub .., unary_bufs_sub .., unary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., unary_bufs_sub .., unary_bufs_sub .., binary_bufs_sub .., unary_bufs_sub .., nullary_bufs_sub ..,
    binary_bufs_sub .., unary_bufs_sub .., unary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub ..⟩

set_option maxRecDepth 8192 in
set_option maxHeartbeats 4000000 in
/-- From any memory with zero counters every weakly fair execution of the program terminates, and every buffer
    ends at the fold of the operations' results over what the buffers held at the start. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference program's result as a composition of pure functions.

  Each definition below is the composition of the array operations of one stretch of the reference
  program, written with the very terms the program's lines apply (the same shape evidence, the same
  constants), generic in the float instance. Nothing is proved here.
-/
import proofs.«134045_j71545565217396_2_alg».proof.ReferenceIdeal

noncomputable section

namespace Cert.ReferenceIdeal.RefValue

open Idealize.ShloMosaic
open Cert.ReferenceIdeal Cert.ReferenceIdeal.Facts₀ Cert.ReferenceIdeal.Facts

variable {F : FTy → Type} [FloatOps F] [Facts]

/-- The adder layer on a (batch, channel, row, column) array: channels moved last, the array and the
    weights both broadcast to (batch, row, column, out, in), subtracted, absolute value, summed over
    the last axis from zero, negated, and the out-channel axis moved back to position 1. -/
def refAdder (x : FVec F S16x64x64x64 .f32) (w : FVec F S64x64 .f32) : FVec F S16x64x64x64 .f32 :=
  transpose S16x64x64x64 [0, 3, 1, 2]
    (Host.negf
      (Host.reduceAdd
        (Host.absf
          (subf
            (broadcastInDim S16x64x64x64x64 ![0, 1, 2, 3, 4] bcast_S16x64x64x1x64_S16x64x64x64x64_0_1_2_3_4
              (broadcastInDim S16x64x64x1x64 ![0, 1, 2, 4] bcast_S16x64x64x64_S16x64x64x1x64_0_1_2_4
                (transpose S16x64x64x64 [0, 2, 3, 1] x transposes_S16x64x64x64_S16x64x64x64_0_2_3_1)))
            (broadcastInDim S16x64x64x64x64 ![0, 1, 2, 3, 4] bcast_S1x1x1x64x64_S16x64x64x64x64_0_1_2_3_4
              (broadcastInDim S1x1x1x64x64 ![3, 4] bcast_S64x64_S1x1x1x64x64_3_4 w))))
        (constant S_ .f32 0x00000000#32) reducesTo_S16x64x64x64x64_S16x64x64x64_d4 h_S_))
    transposes_S16x64x64x64_S16x64x64x64_0_3_1_2

/-- The per-channel mean: the sum over batch, row and column from zero, placed on the channel axis of a
    [1, 64, 1, 1] array, divided by the constant 65536 broadcast to that shape. -/
def refMean (d : FVec F S16x64x64x64 .f32) : FVec F S1x64x1x1 .f32 :=
  Host.divf
    (broadcastInDim S1x64x1x1 ![1] bcast_S64_S1x64x1x1_1
      (Host.reduceAdd d (constant S_ .f32 0x00000000#32) reducesTo_S16x64x64x64_S64_d0_2_3 h_S_))
    (broadcastInDim S1x64x1x1 ![] bcast_S_S1x64x1x1 (constant S_ .f32 0x47800000#32))

/-- The divisor of the variance: 65536 minus the integer 0 converted to a float. -/
def refCount : FVec F S_ .f32 :=
  subf (constant S_ .f32 0x47800000#32) (sitofp .f32 (constantI S_ 32 0#32))

/-- The squared deviations from the per-channel mean. -/
def refSqDev (d : FVec F S16x64x64x64 .f32) : FVec F S16x64x64x64 .f32 :=
  mulf
    (subf d (broadcastInDim S16x64x64x64 ![0, 1, 2, 3] bcast_S1x64x1x1_S16x64x64x64_0_1_2_3 (refMean d)))
    (subf d (broadcastInDim S16x64x64x64 ![0, 1, 2, 3] bcast_S1x64x1x1_S16x64x64x64_0_1_2_3 (refMean d)))

/-- The per-channel variance: the sum of the squared deviations divided by the divisor, selected
    against a constant by the comparison "divisor > 0". -/
def refVar (d : FVec F S16x64x64x64 .f32) : FVec F S1x64x1x1 .f32 :=
  select
    (broadcastInDim S1x64x1x1 ![] bcast_S_S1x64x1x1
      (cmpf .ogt (refCount (F := F)) (constant S_ .f32 0x00000000#32)))
    (Host.divf
      (broadcastInDim S1x64x1x1 ![1] bcast_S64_S1x64x1x1_1
        (Host.reduceAdd (refSqDev d) (constant S_ .f32 0x00000000#32) reducesTo_S16x64x64x64_S64_d0_2_3 h_S_))
      (broadcastInDim S1x64x1x1 ![] bcast_S_S1x64x1x1 (refCount (F := F))))
    (broadcastInDim S1x64x1x1 ![] bcast_S_S1x64x1x1 (id (constant S_ .f32 0x7FC00000#32)))

/-- The normalisation: subtract the broadcast mean, multiply by the broadcast reciprocal square root of
    the variance plus the offset, multiply by the broadcast scale, add the broadcast shift. -/
def refBn (d : FVec F S16x64x64x64 .f32) (μ v : FVec F S1x64x1x1 .f32) (γ β : FVec F S64 .f32) :
    FVec F S16x64x64x64 .f32 :=
  addf
    (mulf
      (mulf
        (subf d (broadcastInDim S16x64x64x64 ![0, 1, 2, 3] bcast_S1x64x1x1_S16x64x64x64_0_1_2_3 μ))
        (broadcastInDim S16x64x64x64 ![0, 1, 2, 3] bcast_S1x64x1x1_S16x64x64x64_0_1_2_3
          (Host.rsqrt
            (addf v (broadcastInDim S1x64x1x1 ![] bcast_S_S1x64x1x1 (constant S_ .f32 0x3727C5AC#32))))))
      (broadcastInDim S16x64x64x64 ![0, 1, 2, 3] bcast_S1x64x1x1_S16x64x64x64_0_1_2_3
        (broadcastInDim S1x64x1x1 ![1] bcast_S64_S1x64x1x1_1 γ)))
    (broadcastInDim S16x64x64x64 ![0, 1, 2, 3] bcast_S1x64x1x1_S16x64x64x64_0_1_2_3
      (broadcastInDim S1x64x1x1 ![1] bcast_S64_S1x64x1x1_1 β))

/-- The rectifier: the maximum with the broadcast zero. -/
def refRelu (y : FVec F S16x64x64x64 .f32) : FVec F S16x64x64x64 .f32 :=
  maximumf y (broadcastInDim S16x64x64x64 ![] bcast_S_S16x64x64x64 (constant S_ .f32 0x00000000#32))

/-- The normalisation of an array with its own mean and variance. -/
def refBnSelf (d : FVec F S16x64x64x64 .f32) (γ β : FVec F S64 .f32) : FVec F S16x64x64x64 .f32 :=
  refBn d (refMean d) (refVar d) γ β

/-- The whole reference: adder layer, normalisation, rectifier; adder layer, normalisation, the input
    added, rectifier. -/
def refOut (x : FVec F S16x64x64x64 .f32) (w1 : FVec F S64x64 .f32) (g1 b1 : FVec F S64 .f32)
    (w2 : FVec F S64x64 .f32) (g2 b2 : FVec F S64 .f32) : FVec F S16x64x64x64 .f32 :=
  refRelu (addf (refBnSelf (refAdder (refRelu (refBnSelf (refAdder x w1) g1 b1)) w2) g2 b2) x)

end Cert.ReferenceIdeal.RefValue

end
-- ==== Proof.RefRun.Value.lean ====
/-
  What the fold of the reference's operations leaves in the buffers that matter: in the result buffer, the
  composition of the named stages applied to the arguments' contents; in each argument buffer, what it held
  (no operation writes an argument).
-/
import proofs.«134045_j71545565217396_2_alg».proof.Proof.RefRun.Ops
import proofs.«134045_j71545565217396_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The result buffer after the whole line. Reading the fold from the last operation back, each operation's
    result at its own buffer is its function of its operands' contents and any other buffer is untouched, so
    the result buffer holds the operations' composition over the arguments' contents; that composition is
    the stages' by their definitions (the two per-channel means of each layer, one computed by the entry
    function and one inside the variance function, are the same term). -/
theorem out_eq (V : Valuation τ sig (Elt F)) :
    after ops V (main_v58 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 8192 in
set_option maxHeartbeats 4000000 in
/-- No operation writes argument 0. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation writes argument 6. -/
theorem arg6_eq (V : Valuation τ sig (Elt F)) :
    after ops V (main_arg6 : DevRef τ sig) = V (main_arg6 : DevRef τ sig) := by
  after_results_simp

end Cert.ReferenceIdeal.RefValue

end
-- ==== Proof.RefRun.lean ====
/-
  The reference's run: from any memory with zero counters every weakly fair execution of the reference
  terminates with the result buffer at the stages' composition of the arguments' contents and the seven
  arguments unchanged.
-/
import proofs.«134045_j71545565217396_2_alg».proof.Proof.RefRun.Ops
import proofs.«134045_j71545565217396_2_alg».proof.Proof.RefRun.Value

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The run of the straight line, read at the result buffer and at the arguments. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v58) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v58).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_main m ρ)

end Cert.ReferenceIdeal.RefValue

end
-- ==== Proof.RefRead.lean ====
/-
  The reference's stages read at an index.

  Every stage of the reference — the adder layer, the per-channel mean and variance, the normalisation,
  the rectifier — is read here at the ideal values, index by index, in the vocabulary of the
  specification: a (batch, channel, row, column) array is a feature map pixel → channel → value, the
  sum over the input channels is a sum over `Fin 64`, and the sum over batch, row and column is the sum
  over the 65536 pixels (a bijection between the indices of one channel and the pixels). The last
  theorem says that the whole reference is the residual block of the specification with the two-pass
  mean and variance in both normalisations.
-/
import proofs.«134045_j71545565217396_2_alg».proof.Proof.RefStages
import proofs.«134045_j71545565217396_2_alg».proof.Proof.Spec
import Idealize.ShloMosaic.Lib.Pipeline.Value
import Idealize.ShloMosaic.Lib.ValueIdx
import Idealize.ShloMosaic.Lib.ValueIdxCoords
import Idealize.ShloMosaic.Lib.IdealHost
import Idealize.ShloMosaic.PureOps.Ideal.Laws

noncomputable section

namespace Cert.ReferenceIdeal.RefValue

open Idealize.ShloMosaic Idealize.ShloMosaic.ValueIdx
open Cert.ReferenceIdeal Cert.ResBlock

/-! ## Layout operations of the program read at an index -/

section Layout
variable {α : Type}

theorem transpose_0231_apply (x : S16x64x64x64.Idx → α) (h : S16x64x64x64.Transposes [0, 2, 3, 1] S16x64x64x64)
    (b : Fin 16) (r c : Fin 64) (k : Fin 64) :
    transpose S16x64x64x64 [0, 2, 3, 1] x h (ix4 b r c k) = x (ix4 b k r c) :=
  transpose_apply _ x h _ _ (fun a => match a with | ⟨0, _⟩ => rfl | ⟨1, _⟩ => rfl | ⟨2, _⟩ => rfl | ⟨3, _⟩ => rfl)

theorem transpose_0312_apply (x : S16x64x64x64.Idx → α) (h : S16x64x64x64.Transposes [0, 3, 1, 2] S16x64x64x64)
    (b : Fin 16) (o r c : Fin 64) :
    transpose S16x64x64x64 [0, 3, 1, 2] x h (ix4 b o r c) = x (ix4 b r c o) :=
  transpose_apply _ x h _ _ (fun a => match a with | ⟨0, _⟩ => rfl | ⟨1, _⟩ => rfl | ⟨2, _⟩ => rfl | ⟨3, _⟩ => rfl)

theorem bcast_0124_apply (x : S16x64x64x64.Idx → α)
    (h : S16x64x64x64.BroadcastsInDim S16x64x64x1x64 (![0, 1, 2, 4] : Fin 4 → Fin S16x64x64x1x64.rank))
    (b : Fin 16) (r c : Fin 64) (u : Fin 1) (k : Fin 64) :
    broadcastInDim S16x64x64x1x64 ![0, 1, 2, 4] h x (ix5 b r c u k) = x (ix4 b r c k) :=
  broadcastInDim_apply _ h x _ _ (fun a => match a with | ⟨0, _⟩ => rfl | ⟨1, _⟩ => rfl | ⟨2, _⟩ => rfl | ⟨3, _⟩ => rfl)

theorem bcast_34_apply (x : S64x64.Idx → α)
    (h : S64x64.BroadcastsInDim S1x1x1x64x64 (![3, 4] : Fin 2 → Fin S1x1x1x64x64.rank))
    (u0 u1 u2 : Fin 1) (o k : Fin 64) :
    broadcastInDim S1x1x1x64x64 ![3, 4] h x (ix5 u0 u1 u2 o k) = x (ix2 o k) :=
  broadcastInDim_apply _ h x _ _ (fun a => match a with | ⟨0, _⟩ => rfl | ⟨1, _⟩ => rfl)

theorem bcast5_x_apply (x : S16x64x64x1x64.Idx → α)
    (h : S16x64x64x1x64.BroadcastsInDim S16x64x64x64x64 (![0, 1, 2, 3, 4] : Fin 5 → Fin S16x64x64x64x64.rank))
    (b : Fin 16) (r c o k : Fin 64) :
    broadcastInDim S16x64x64x64x64 ![0, 1, 2, 3, 4] h x (ix5 b r c o k) = x (ix5 b r c 0 k) :=
  broadcastInDim_apply _ h x _ _ (fun a => match a with | ⟨0, _⟩ => rfl | ⟨1, _⟩ => rfl | ⟨2, _⟩ => rfl | ⟨3, _⟩ => rfl | ⟨4, _⟩ => rfl)

theorem bcast5_w_apply (x : S1x1x1x64x64.Idx → α)
    (h : S1x1x1x64x64.BroadcastsInDim S16x64x64x64x64 (![0, 1, 2, 3, 4] : Fin 5 → Fin S16x64x64x64x64.rank))
    (b : Fin 16) (r c o k : Fin 64) :
    broadcastInDim S16x64x64x64x64 ![0, 1, 2, 3, 4] h x (ix5 b r c o k) = x (ix5 0 0 0 o k) :=
  broadcastInDim_apply _ h x _ _ (fun a => match a with | ⟨0, _⟩ => rfl | ⟨1, _⟩ => rfl | ⟨2, _⟩ => rfl | ⟨3, _⟩ => rfl | ⟨4, _⟩ => rfl)

theorem bcast4_apply (x : S1x64x1x1.Idx → α)
    (h : S1x64x1x1.BroadcastsInDim S16x64x64x64 (![0, 1, 2, 3] : Fin 4 → Fin S16x64x64x64.rank))
    (b : Fin 16) (o r c : Fin 64) :
    broadcastInDim S16x64x64x64 ![0, 1, 2, 3] h x (ix4 b o r c) = x (ix4 0 o 0 0) :=
  broadcastInDim_apply _ h x _ _ (fun a => match a with | ⟨0, _⟩ => rfl | ⟨1, _⟩ => rfl | ⟨2, _⟩ => rfl | ⟨3, _⟩ => rfl)

theorem bcast1_apply (x : S64.Idx → α)
    (h : S64.BroadcastsInDim S1x64x1x1 (![1] : Fin 1 → Fin S1x64x1x1.rank))
    (u0 : Fin 1) (o : Fin 64) (u2 u3 : Fin 1) :
    broadcastInDim S1x64x1x1 ![1] h x (ix4 u0 o u2 u3) = x (ix1 o) :=
  broadcastInDim_apply _ h x _ _ (fun a => match a with | ⟨0, _⟩ => rfl)

end Layout

/-! ## The two sums -/

/-- The sum over the last axis of a (batch, row, column, out, in) array, from zero. -/
theorem reduce_d4_apply (X : FVec Ideal S16x64x64x64x64 .f32)
    (h' : S16x64x64x64x64.ReducesTo [4] S16x64x64x64) (hu : 0 < S_.numel)
    (b : Fin 16) (r c o : Fin 64) :
    Host.reduceAdd X (constant S_ .f32 0x00000000#32) h' hu (ix4 b r c o) = ∑ k : Fin 64, X (ix5 b r c o k) := by
  have hR : S16x64x64x64x64.Reduces [4] S16x64x64x64 := by decide
  refine (hostReduceAdd_apply X _ h' hu _).trans ?_
  refine (Ideal.hostReduceAdd_single h' hR X _ _).trans ?_
  rw [constant_apply, Ideal.ofBits_zero_f32, zero_add]
  refine Finset.sum_congr rfl fun k _ => congrArg X ?_
  funext a
  match a with
  | ⟨0, _⟩ => rfl
  | ⟨1, _⟩ => rfl
  | ⟨2, _⟩ => rfl
  | ⟨3, _⟩ => rfl
  | ⟨4, _⟩ => rfl

/-- The coordinates of a pixel built from (batch, row, column). -/
theorem pix_coords (b : Fin 16) (r c : Fin 64) :
    (⟨(pix b r c).val / 4096, by omega⟩ : Fin 16) = b ∧
    (⟨(pix b r c).val / 64 % 64, by omega⟩ : Fin 64) = r ∧
    (⟨(pix b r c).val % 64, by omega⟩ : Fin 64) = c := by
  have hb := b.isLt; have hr := r.isLt; have hc := c.isLt
  refine ⟨Fin.ext ?_, Fin.ext ?_, Fin.ext ?_⟩ <;> (unfold pix; dsimp only; omega)

/-- An index drops to channel o under the reduction over batch, row and column exactly when its channel is o. -/
theorem drop_d023_iff (h' : S16x64x64x64.ReducesTo [0, 2, 3] S64) (b : Fin 16) (k r c : Fin 64) (o : Fin 64) :
    h'.drop (ix4 b k r c) = ix1 o ↔ k = o := by
  have hv : ((h'.drop (ix4 b k r c) 0 : Fin _) : Nat) = k.val := h'.drop_apply_val_of_eq (ix4 b k r c) 0 1
  constructor
  · intro e
    have e0 : ((h'.drop (ix4 b k r c) 0 : Fin _) : Nat) = o.val := congrArg (fun j : S64.Idx => ((j 0 : Fin _) : Nat)) e
    exact Fin.ext (hv.symm.trans e0)
  · intro e
    subst e
    funext a
    match a with
    | ⟨0, _⟩ => exact Fin.ext hv

/-- The sum over batch, row and column of a (batch, channel, row, column) array, from zero, is the sum over
    all pixels of the array read as a feature map. -/
theorem reduce_d023_apply (d : FVec Ideal S16x64x64x64 .f32)
    (h' : S16x64x64x64.ReducesTo [0, 2, 3] S64) (hu : 0 < S_.numel) (o : Fin 64) :
    Host.reduceAdd d (constant S_ .f32 0x00000000#32) h' hu (ix1 o) = ∑ n : Px, flat d n o := by
  refine (hostReduceAdd_apply d _ h' hu _).trans ?_
  unfold Ideal.hostReduceAdd
  rw [constant_apply, Ideal.ofBits_zero_f32, zero_add]
  refine Finset.sum_nbij' (fun i => pix (i 0) (i 2) (i 3))
    (fun n => ix4 (⟨n.val / 4096, by omega⟩ : Fin 16) o (⟨n.val / 64 % 64, by omega⟩ : Fin 64) (⟨n.val % 64, by omega⟩ : Fin 64))
    (fun i _ => Finset.mem_univ _) ?_ ?_ ?_ ?_
  · intro n _
    rw [Finset.mem_filter]
    exact ⟨Finset.mem_univ _, (drop_d023_iff h' _ _ _ _ o).2 rfl⟩
  · intro i hi
    rw [Finset.mem_filter] at hi
    obtain ⟨b, k, r, c, rfl⟩ : ∃ (b : Fin 16) (k r c : Fin 64), i = ix4 b k r c := ⟨i 0, i 1, i 2, i 3, eq_ix4 i⟩
    have hk : k = o := (drop_d023_iff h' b k r c o).1 hi.2
    subst hk
    obtain ⟨e0, e2, e3⟩ := pix_coords b r c
    show ix4 (⟨(pix b r c).val / 4096, _⟩ : Fin 16) k (⟨(pix b r c).val / 64 % 64, _⟩ : Fin 64) (⟨(pix b r c).val % 64, _⟩ : Fin 64) = ix4 b k r c
    rw [e0, e2, e3]
  · intro n _
    exact pix_div n
  · intro i hi
    rw [Finset.mem_filter] at hi
    obtain ⟨b, k, r, c, rfl⟩ : ∃ (b : Fin 16) (k r c : Fin 64), i = ix4 b k r c := ⟨i 0, i 1, i 2, i 3, eq_ix4 i⟩
    have hk : k = o := (drop_d023_iff h' b k r c o).1 hi.2
    subst hk
    exact (flat_pix d b r c k).symm

/-! ## Constants -/

theorem cN_eq : cN = ((65536 : ℝ) : EReal) := by
  unfold cN
  simp [Ideal.ofBits, Ideal.ieee, -EReal.coe_mul]; norm_num

theorem cN_pos : (0 : EReal) < cN := by
  rw [cN_eq]; exact EReal.coe_pos.mpr (by norm_num)

variable [Facts]

/-- The divisor of the variance is 65536: the integer 0 converts to the real 0. -/
theorem refCount_ix0 : refCount (F := Ideal) ix0 = cN := by
  unfold refCount
  rw [subf_apply, constant_apply, sitofp_apply]
  show Ideal.ofBits .f32 0x47800000#32 - ((((0#32 : BitVec 32).toInt : ℤ) : ℝ) : EReal) = cN
  rw [BitVec.toInt_zero, Int.cast_zero, EReal.coe_zero, sub_zero]
  rfl

/-- The comparison "divisor > 0" holds. -/
theorem refCount_gt : cmpf .ogt (refCount (F := Ideal)) (constant S_ .f32 0x00000000#32) ix0 = 1#1 := by
  rw [cmpf_apply, refCount_ix0, constant_apply, Ideal.ofBits_zero_f32]
  show Ideal.cmp .ogt cN 0 = 1#1
  unfold Ideal.cmp
  simp [cN_pos]

/-! ## The stages read at an index -/

theorem refRelu_apply (y : FVec Ideal S16x64x64x64 .f32) (i : S16x64x64x64.Idx) :
    refRelu y i = max (y i) 0 := by
  unfold refRelu
  rw [maximumf_apply, broadcastInDim_scalar_apply, constant_apply, Ideal.ofBits_zero_f32]

theorem refMean_apply (d : FVec Ideal S16x64x64x64 .f32) (u0 : Fin 1) (o : Fin 64) (u2 u3 : Fin 1) :
    refMean d (ix4 u0 o u2 u3) = mean (flat d) o := by
  unfold refMean mean
  rw [hostDivf_apply, bcast1_apply, broadcastInDim_scalar_apply, constant_apply, reduce_d023_apply]
  rfl

theorem hostAbsf_apply {s : Shape} {φ : FTy} (a : FVec Ideal s φ) (i : s.Idx) : Host.absf a i = max (a i) (-(a i)) := rfl
theorem hostNegf_apply {s : Shape} {φ : FTy} (a : FVec Ideal s φ) (i : s.Idx) : Host.negf a i = -(a i) := rfl
theorem hostRsqrt_apply {s : Shape} {φ : FTy} (a : FVec Ideal s φ) (i : s.Idx) : Host.rsqrt a i = Ideal.rsqrt (a i) := rfl

/-- The adder layer at (batch, out, row, column): minus the sum over the input channels of the absolute
    differences between the pixel's channel vector and row `out` of the weights. -/
theorem refAdder_apply (y : FVec Ideal S16x64x64x64 .f32) (w : FVec Ideal S64x64 .f32) (b : Fin 16) (o r c : Fin 64) :
    refAdder y w (ix4 b o r c) = adder (flat y) (mat w) (pix b r c) o := by
  unfold refAdder adder
  rw [transpose_0312_apply, hostNegf_apply, reduce_d4_apply]
  refine congrArg Neg.neg (Finset.sum_congr rfl fun k _ => ?_)
  rw [hostAbsf_apply, subf_apply, bcast5_x_apply, bcast_0124_apply, transpose_0231_apply, bcast5_w_apply, bcast_34_apply,
    flat_pix]
  rfl

theorem refSqDev_apply (d : FVec Ideal S16x64x64x64 .f32) (b : Fin 16) (o r c : Fin 64) :
    refSqDev d (ix4 b o r c)
      = (d (ix4 b o r c) - mean (flat d) o) * (d (ix4 b o r c) - mean (flat d) o) := by
  unfold refSqDev
  rw [mulf_apply, subf_apply, bcast4_apply, refMean_apply]

theorem flat_refSqDev (d : FVec Ideal S16x64x64x64 .f32) (n : Px) (o : Ch) :
    flat (refSqDev d) n o = (flat d n o - mean (flat d) o) * (flat d n o - mean (flat d) o) :=
  refSqDev_apply d _ o _ _

/-- The variance stage: the comparison holds, so the selection takes the quotient; the other constant is never read. -/
theorem refVar_apply (d : FVec Ideal S16x64x64x64 .f32) (u0 : Fin 1) (o : Fin 64) (u2 u3 : Fin 1) :
    refVar d (ix4 u0 o u2 u3) = var (flat d) o := by
  unfold refVar var
  rw [select_apply, broadcastInDim_scalar_apply, refCount_gt, select_one, hostDivf_apply, bcast1_apply,
    broadcastInDim_scalar_apply, refCount_ix0, reduce_d023_apply]
  exact congrArg (fun s => Ideal.div s cN) (Finset.sum_congr rfl fun n _ => flat_refSqDev d n o)

theorem refBn_apply (d : FVec Ideal S16x64x64x64 .f32) (μ v : FVec Ideal S1x64x1x1 .f32) (γ β : FVec Ideal S64 .f32)
    (b : Fin 16) (o r c : Fin 64) :
    refBn d μ v γ β (ix4 b o r c)
      = (d (ix4 b o r c) - μ (ix4 0 o 0 0)) * Ideal.rsqrt (v (ix4 0 o 0 0) + cEps) * γ (ix1 o) + β (ix1 o) := by
  unfold refBn
  rw [addf_apply, mulf_apply, mulf_apply, subf_apply, bcast4_apply, bcast4_apply, bcast4_apply, bcast4_apply,
    bcast1_apply, bcast1_apply, hostRsqrt_apply, addf_apply, broadcastInDim_scalar_apply, constant_apply]
  rfl

/-! ## The stages on feature maps -/

theorem flat_refAdder (y : FVec Ideal S16x64x64x64 .f32) (w : FVec Ideal S64x64 .f32) :
    flat (refAdder y w) = adder (flat y) (mat w) := by
  funext n o
  have e := refAdder_apply y w (⟨n.val / 4096, by omega⟩ : Fin 16) o (⟨n.val / 64 % 64, by omega⟩ : Fin 64)
    (⟨n.val % 64, by omega⟩ : Fin 64)
  rw [pix_div] at e
  exact e

theorem flat_refRelu (y : FVec Ideal S16x64x64x64 .f32) :
    flat (refRelu y) = fun n o => max (flat y n o) 0 := by
  funext n o
  exact refRelu_apply y _

theorem flat_addf (a b : FVec Ideal S16x64x64x64 .f32) :
    flat (addf a b) = fun n o => flat a n o + flat b n o := rfl

theorem flat_refBnSelf (d : FVec Ideal S16x64x64x64 .f32) (γ β : FVec Ideal S64 .f32) :
    flat (refBnSelf d γ β) = bn (mean (flat d)) (var (flat d)) (vec γ) (vec β) (flat d) := by
  funext n o
  unfold refBnSelf
  refine (refBn_apply d (refMean d) (refVar d) γ β _ o _ _).trans ?_
  rw [refMean_apply, refVar_apply]
  rfl

theorem unflat_flat (y : FVec Ideal S16x64x64x64 .f32) : unflat (flat y) = y := by
  funext i
  obtain ⟨b, k, r, c, rfl⟩ : ∃ (b : Fin 16) (k r c : Fin 64), i = ix4 b k r c := ⟨i 0, i 1, i 2, i 3, eq_ix4 i⟩
  exact flat_pix y b r c k

/-- The reference's result is the residual block of the specification, with the two-pass mean and variance in
    both normalisations, on the arrays read as feature maps. -/
theorem refOut_eq (x : FVec Ideal S16x64x64x64 .f32) (w1 : FVec Ideal S64x64 .f32) (g1 b1 : FVec Ideal S64 .f32)
    (w2 : FVec Ideal S64x64 .f32) (g2 b2 : FVec Ideal S64 .f32) :
    refOut (F := Ideal) x w1 g1 b1 w2 g2 b2
      = Cert.ResBlock.unflat (Cert.ResBlock.net Cert.ResBlock.mean Cert.ResBlock.var Cert.ResBlock.mean Cert.ResBlock.var
          (Cert.ResBlock.flat x) (Cert.ResBlock.mat w1) (Cert.ResBlock.vec g1) (Cert.ResBlock.vec b1)
          (Cert.ResBlock.mat w2) (Cert.ResBlock.vec g2) (Cert.ResBlock.vec b2)) := by
  refine (unflat_flat _).symm.trans (congrArg unflat ?_)
  unfold refOut
  rw [flat_refRelu, flat_addf, flat_refBnSelf, flat_refAdder, flat_refRelu, flat_refBnSelf, flat_refAdder]
  rfl

end Cert.ReferenceIdeal.RefValue

end
-- ==== Proof.lean ====
/-
  The certificate: a two-layer adder residual block with batch normalisation, as a three-kernel pipeline against
  its plain reference, equal at exact arithmetic under finite inputs.

  The mathematics. With d(n, o) = −Σ_c |x(n, c) − w(o, c)| the adder layer over the 65536 pixels n, the reference
  normalises each layer's output with its per-channel mean and its two-pass variance. The kernels accumulate,
  over the grid, the first and second moments of d − K for a fixed constant K, and rebuild the mean as the first
  moment over the pixel count plus K and the variance as the second moment over the count minus the square of the
  first. Over the reals the two pairs of statistics are the same numbers for any K; on the extended reals this
  needs every d(n, o) to be real, which holds because the inputs are finite — first for layer one, then, since a
  positive real variance offset makes the normalisation's factor real, for layer two. Everything else is the same
  formula on both sides: the normalisation, the rectifiers, the residual.

  The modules. Spec: the block as functions of indices, parameterised by the statistics. Moments, Bridge, Finite:
  the identity of the statistics, its propagation through the block, the inputs are real. KPay, Region0–2,
  Arrays0–2, Value0–2: each kernel's result arrays after its whole grid has run. HostStretch, Chain0–2: the host
  operations between the kernels and the buffers' contents from segment to segment, ending at the program's
  result. KernelRun: the program's run with its result named. RefStages, RefRun, RefRead: the reference's run and
  its result read index by index.
-/
import proofs.«134045_j71545565217396_2_alg».proof.Defs
import proofs.«134045_j71545565217396_2_alg».proof.Proof.Gen.Kernel
import proofs.«134045_j71545565217396_2_alg».proof.Proof.Gen.Kernel.Frame
import proofs.«134045_j71545565217396_2_alg».proof.Proof.Gen.KernelIdeal
import proofs.«134045_j71545565217396_2_alg».proof.Proof.Gen.KernelIdeal.Frame
import proofs.«134045_j71545565217396_2_alg».proof.Proof.Gen.ReferenceIdeal
import proofs.«134045_j71545565217396_2_alg».proof.Proof.Gen.Pre_finite_inputs
import proofs.«134045_j71545565217396_2_alg».proof.Proof.KernelRun
import proofs.«134045_j71545565217396_2_alg».proof.Proof.Chain2
import proofs.«134045_j71545565217396_2_alg».proof.Proof.Bridge
import proofs.«134045_j71545565217396_2_alg».proof.Proof.Finite
import proofs.«134045_j71545565217396_2_alg».proof.Proof.RefRun
import proofs.«134045_j71545565217396_2_alg».proof.Proof.RefRead
import Idealize.ShloMosaic.Adequacy
import Idealize.ShloMosaic.Init

noncomputable section

namespace Cert.Proof

open Idealize.ShloMosaic Idealize.SL.Sem

/-- The printed kernel program runs and leaves its arguments unchanged. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- So does the reference: its run, with the result forgotten. -/
theorem frame_r : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefValue.run (F := Ideal) m ρ)

/-- Both idealized programs end with the block of the specification in the result array: the kernels' with
    shifted-moment statistics, the reference's with two-pass statistics, and for real inputs these agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ResBlock.unflat (Cert.KernelIdeal.Chain.Out m c), ?_, ?_⟩
  · exact (θ_run Cert.KernelIdeal.defs _ _).mono
      (fun r h c => ⟨(h c).1.trans (Cert.KernelIdeal.Chain.kernel_out m ρ c), (h c).2⟩)
      (Cert.KernelIdeal.KRun.run_out (F := Ideal) m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1,
      (hagree c).2.2.2.2.2.1, (hagree c).2.2.2.2.2.2]
    rw [Cert.ReferenceIdeal.RefValue.refOut_eq]
    obtain ⟨hx, hw1, hg1, hb1, hw2⟩ := Cert.ResBlock.real_inputs_spec m hpre c
    exact (congrArg Cert.ResBlock.unflat (Cert.ResBlock.net_shift_eq _ _ _ _ _ _ _ hx hw1 hg1 hb1 hw2)).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
